-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128 .f32) (main_arg3 : FVec F S128 .f32) (main_arg4 : FVec F S128x64 .f32) (main_arg5 : FVec F S64 .f32) (main_arg6 : FVec F S64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S5000x128 : Shape := ⟨2, ![5000, 128]⟩
abbrev S_ : Shape := ⟨0, ![]⟩
abbrev S100000x64 : Shape := ⟨2, ![100000, 64]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩

abbrev nBuf : Space → Nat
  | .hbm => 93
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x128, .f32⟩
  | .hbm, ⟨9, _⟩ => ⟨S1x128, .f32⟩
  | .hbm, ⟨10, _⟩ => ⟨S1x64, .f32⟩
  | .hbm, ⟨11, _⟩ => ⟨S1x64, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S100000x64, .f32⟩
  | .hbm, ⟨23, _⟩ => ⟨S100000, .i32⟩
  | .hbm, ⟨24, _⟩ => ⟨S1x1600000, .i32⟩
  | .hbm, ⟨25, _⟩ => ⟨S1600000, .i32⟩
  | .hbm, ⟨26, _⟩ => ⟨S1700000, .i32⟩
  | .hbm, ⟨27, _⟩ => ⟨S1x1600000, .i32⟩
  | .hbm, ⟨28, _⟩ => ⟨S1600000, .i32⟩
  | .hbm, ⟨29, _⟩ => ⟨S1700000, .i32⟩
  | .hbm, ⟨30, _⟩ => ⟨S_, .f32⟩
  | .hbm, ⟨31, _⟩ => ⟨S1700000, .f32⟩
  | .hbm, ⟨32, _⟩ => ⟨S_, .f32⟩
  | .hbm, ⟨33, _⟩ => ⟨S100000, .f32⟩
  | .hbm, ⟨34, _⟩ => ⟨S1700000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .i1⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000, .f32⟩
  | .hbm, ⟨62, _⟩ => ⟨S1700000, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x1, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S1x64, .f32⟩
  | .hbm, ⟨84, _⟩ => ⟨S_, .f32⟩
  | .hbm, ⟨85, _⟩ => ⟨S1x64, .f32⟩
  | .hbm, ⟨86, _⟩ => ⟨S1x64, .f32⟩
  | .hbm, ⟨87, _⟩ => ⟨S_, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S5000x64, .f32⟩
  | .local _ .vmem, ⟨28, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v26 : Ref sig .tc := ⟨.hbm, 43, rfl⟩
abbrev main_c : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58_0 : Ref sig .tc := ⟨.hbm, 82, rfl⟩
abbrev main_v58_1 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_scratch0 : Ref sig .tc := ⟨.vmem, 19, rfl⟩
abbrev cc2_scratch1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem5_1 : DmaSem sig := 24

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v19 : BitVec 1 := Scalar.cmpi .eq arg0 c19_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v22 : BitVec 1 := Scalar.cmpi .eq arg0 c19_i32
  let v23 : BitVec 32 := Scalar.extui v22
  let c0_i32_12 : BitVec 32 := 0#32
  let v24 : BitVec 1 := Scalar.cmpi .ne v23 c0_i32_12
  v24

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  shapeCasts_S64_S1x64 : S64.ShapeCasts S1x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  broadcasts_S1x128_S5000x128 : S1x128.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  reduces_S5000x64_S64 : S5000x64.Reduces [0] S64
  bcast_S_S1x64 : S_.BroadcastsInDim S1x64 (![] : Fin 0 → Fin S1x64.rank)
  broadcasts_S1x64_S5000x64 : S1x64.Broadcasts S5000x64
  dot_S5000x128_S128x64_S5000x64_1_0_0_1_n_n_wf : DotDims.WF S5000x128 S128x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58_0) S1x64.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58_1) S1x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S_ : Shape := ⟨0, ![]⟩
abbrev S1x128 : Shape := ⟨2, ![1, 128]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128, .f32⟩
  | 3 => ⟨S128, .f32⟩
  | 4 => ⟨S128x64, .f32⟩
  | 5 => ⟨S64, .f32⟩
  | 6 => ⟨S64, .f32⟩
  | 7 => ⟨S64, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S128, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S100000x64, .f32⟩
  | 39 => ⟨S100000, .i32⟩
  | 40 => ⟨S1x1600000, .i32⟩
  | 41 => ⟨S1600000, .i32⟩
  | 42 => ⟨S1700000, .i32⟩
  | 43 => ⟨S1x1600000, .i32⟩
  | 44 => ⟨S1600000, .i32⟩
  | 45 => ⟨S1700000, .i32⟩
  | 46 => ⟨S_, .f32⟩
  | 47 => ⟨S1700000, .f32⟩
  | 48 => ⟨S_, .f32⟩
  | 49 => ⟨S100000, .f32⟩
  | 50 => ⟨S1700000x1, .i32⟩
  | 51 => ⟨S100000, .f32⟩
  | 52 => ⟨S_, .f32⟩
  | 53 => ⟨S100000, .f32⟩
  | 54 => ⟨S100000, .i1⟩
  | 55 => ⟨S100000, .f32⟩
  | 56 => ⟨S_, .f32⟩
  | 57 => ⟨S_, .f32⟩
  | 58 => ⟨S100000, .f32⟩
  | 59 => ⟨S100000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000, .f32⟩
  | 78 => ⟨S1700000, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x64, .f32⟩
  | 88 => ⟨S1700000x1, .f32⟩
  | 89 => ⟨S1700000x64, .f32⟩
  | 90 => ⟨S1700000x64, .f32⟩
  | 91 => ⟨S_, .f32⟩
  | 92 => ⟨S100000x64, .f32⟩
  | 93 => ⟨S1700000x1, .i32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S_, .f32⟩
  | 102 => ⟨S64, .f32⟩
  | 103 => ⟨S_, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S100000x64, .f32⟩
  | 110 => ⟨S_, .f32⟩
  | 111 => ⟨S64, .f32⟩
  | 112 => ⟨S_, .f32⟩
  | 113 => ⟨S64, .f32⟩
  | 114 => ⟨S64, .f32⟩
  | 115 => ⟨S1x64, .f32⟩
  | 116 => ⟨S100000x64, .f32⟩
  | 117 => ⟨S100000x64, .f32⟩
  | 118 => ⟨S_, .f32⟩
  | 119 => ⟨S64, .f32⟩
  | 120 => ⟨S64, .f32⟩
  | 121 => ⟨S64, .f32⟩
  | 122 => ⟨S1x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_v40 : Ref sig .tc := ⟨.hbm, 59, rfl⟩
abbrev main_c : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.K.Stats0.lean ====
/-
  The first region: the kernel that totals each column of the features and of their squares, point by point.

  The grid has 20 points; point t reads rows 5000·t … 5000·t + 4999 of the features (128 columns). Two rows [1, 128] of the
  kernel's own — the running totals — are carried from point to point: reset to zero at the first point, increased at
  every point by the block's column sums (of the entries, and of their squares), and copied into the two output rows at the
  last point, the only point that writes the outputs back.
  Here: the block the input window holds at a point; the body's run in each of its three cases (first, middle, last
  point); what the totals and outputs hold after each point, by recursion on the point; the invariant that carries the
  totals; and the pipeline's obligation at every point — for any contents `V` the region is entered with, at any float
  instance.
-/
import proofs.«104982_j16080357556242_1_alg».proof.Proof.Gen.Kernel.Launch
import proofs.«104982_j16080357556242_1_alg».proof.Proof.Gen.Kernel.Skeleton
import proofs.«104982_j16080357556242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input window's block -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- The body's first branch: the point is the first of the grid (the totals are reset there). -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)
/-- The body's last branch: the point is the last of the grid (the totals are copied out there). -/
abbrev condLast (i : grid0.Coords) : Prop := k0_cond2 i = 1#1
theorem hcondLast : ∀ t : Fin cfg0.N, condLast (grid0.coords t) ↔ t.val = 19 :=
  (by decide +kernel : ∀ t : Fin grid0.N, condLast (grid0.coords t) ↔ t.val = 19)

/-- The input window is live at every point; -/
theorem live0 : ∀ t : Fin cfg0.N, cfg0.idle 0 (grid0.coords t) = false := by decide +kernel
/-- each output window is idle, and not written back, wherever the point is not the last, and live at the last. -/
theorem idle1 : ∀ t : Fin cfg0.N, ¬condLast (grid0.coords t) → cfg0.idle 1 (grid0.coords t) = true := by decide +kernel
theorem noFlush1 : ∀ t : Fin cfg0.N, ¬condLast (grid0.coords t) → (cfg0.win 1).flush t = false := by decide +kernel
theorem live1 : ∀ t : Fin cfg0.N, condLast (grid0.coords t) → cfg0.idle 1 (grid0.coords t) = false := by decide +kernel
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel

/-! ## The memrefs the body is called with -/

abbrev VO1 : View sig .tc .vmem S1x128 .f32 := (Memref.whole cc0_stg1_0 : Memref sig .tc .vmem S1x128 .f32).view
abbrev VO2 : View sig .tc .vmem S1x128 .f32 := (Memref.whole cc0_stg2_0 : Memref sig .tc .vmem S1x128 .f32).view
abbrev ms0 (t : Fin cfg0.N) : Memref sig .tc .vmem S5000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
/-- The two running totals: whole scoped buffers of the kernel's own, carried from point to point. -/
abbrev scM0 : Memref sig .tc .vmem S1x128 .f32 := Memref.whole cc0_scratch0
abbrev scM1 : Memref sig .tc .vmem S1x128 .f32 := Memref.whole cc0_scratch1
abbrev VS0 : View sig .tc .vmem S1x128 .f32 := scM0.view
abbrev VS1 : View sig .tc .vmem S1x128 .f32 := scM1.view

/-- The region's untouched scoped buffers with the two running totals taken out, each owned at some contents. -/
theorem PhiA_eq (c : Dev nD) :
    (Pipeline.ΦA spec0 c : sProp 𝕄)
      = iprop(iprop(iprop((∃ d, owns (c : Thread nD τ) scM0 fullShare d) ∗ (∃ d, owns (c : Thread nD τ) scM1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0, scM1, owns_whole]; try rfl

/-! ## The body's run, case by case -/

set_option maxHeartbeats 4000000 in
/-- AT THE FIRST POINT (not the last): the totals, whatever they held, are reset and then take the block's column sums; the
    outputs' buffers are handed back untouched. The pieces each total ends with are what the run finds. -/
noncomputable def runFirst (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : condFirst i) (hc1 : ¬condLast i)
    (x0 : Vec F S5000x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- AT A MIDDLE POINT: each total, at what the point before left, takes the block's column sums; the outputs' buffers are
    handed back untouched. -/
noncomputable def runMid (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : ¬condLast i)
    (x0 : Vec F S5000x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- AT THE LAST POINT (not the first): each total takes the block's column sums and is then copied into its output's buffer. -/
noncomputable def runLast (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i)
    (x0 : Vec F S5000x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

/-! ## What each case leaves, as contents -/

/-- The pieces a case leaves in a total cover its one row, so reading them back does not depend on what was there. -/
theorem scoverFirst0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : condFirst i) (hc1 : ¬condLast i) (x0 : Vec F S5000x128 .f32) (y : S1x128.Idx) :
    ∃ pc ∈ (runFirst c i arg1 harg1 arg2 harg2 arg3 harg3 arg4 harg4 arg5 harg5 hc0 hc1 x0).1, y ∈ pc.1.set :=
  View.cover_of_tiledL (runFirst c i arg1 harg1 arg2 harg2 arg3 harg3 arg4 harg4 arg5 harg5 hc0 hc1 x0).1 S1x128.size (by sl_kernel_rfl) y
theorem scoverFirst1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : condFirst i) (hc1 : ¬condLast i) (x0 : Vec F S5000x128 .f32) (y : S1x128.Idx) :
    ∃ pc ∈ (runFirst c i arg1 harg1 arg2 harg2 arg3 harg3 arg4 harg4 arg5 harg5 hc0 hc1 x0).2.1, y ∈ pc.1.set :=
  View.cover_of_tiledL (runFirst c i arg1 harg1 arg2 harg2 arg3 harg3 arg4 harg4 arg5 harg5 hc0 hc1 x0).2.1 S1x128.size (by sl_kernel_rfl) y
theorem scoverMid0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : ¬condLast i) (x0 : Vec F S5000x128 .f32) (xs0 xs1 : Vec F S1x128 .f32) (y : S1x128.Idx) :
    ∃ pc ∈ (runMid c i arg1 harg1 arg2 harg2 arg3 harg3 arg4 harg4 arg5 harg5 hc0 hc1 x0 xs0 xs1).1, y ∈ pc.1.set :=
  View.cover_of_tiledL (runMid c i arg1 harg1 arg2 harg2 arg3 harg3 arg4 harg4 arg5 harg5 hc0 hc1 x0 xs0 xs1).1 S1x128.size (by sl_kernel_rfl) y
theorem scoverMid1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : ¬condLast i) (x0 : Vec F S5000x128 .f32) (xs0 xs1 : Vec F S1x128 .f32) (y : S1x128.Idx) :
    ∃ pc ∈ (runMid c i arg1 harg1 arg2 harg2 arg3 harg3 arg4 harg4 arg5 harg5 hc0 hc1 x0 xs0 xs1).2.1, y ∈ pc.1.set :=
  View.cover_of_tiledL (runMid c i arg1 harg1 arg2 harg2 arg3 harg3 arg4 harg4 arg5 harg5 hc0 hc1 x0 xs0 xs1).2.1 S1x128.size (by sl_kernel_rfl) y
theorem coverLast1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i) (x0 : Vec F S5000x128 .f32) (xs0 xs1 : Vec F S1x128 .f32) (y : S1x128.Idx) :
    ∃ pc ∈ (runLast c i arg1 harg1 arg2 harg2 arg3 harg3 arg4 harg4 arg5 harg5 hc0 hc1 x0 xs0 xs1).1, y ∈ pc.1.set :=
  View.cover_of_tiledL (runLast c i arg1 harg1 arg2 harg2 arg3 harg3 arg4 harg4 arg5 harg5 hc0 hc1 x0 xs0 xs1).1 S1x128.size (by sl_kernel_rfl) y
theorem coverLast2 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i) (x0 : Vec F S5000x128 .f32) (xs0 xs1 : Vec F S1x128 .f32) (y : S1x128.Idx) :
    ∃ pc ∈ (runLast c i arg1 harg1 arg2 harg2 arg3 harg3 arg4 harg4 arg5 harg5 hc0 hc1 x0 xs0 xs1).2.1, y ∈ pc.1.set :=
  View.cover_of_tiledL (runLast c i arg1 harg1 arg2 harg2 arg3 harg3 arg4 harg4 arg5 harg5 hc0 hc1 x0 xs0 xs1).2.1 S1x128.size (by sl_kernel_rfl) y
theorem scoverLast0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i) (x0 : Vec F S5000x128 .f32) (xs0 xs1 : Vec F S1x128 .f32) (y : S1x128.Idx) :
    ∃ pc ∈ (runLast c i arg1 harg1 arg2 harg2 arg3 harg3 arg4 harg4 arg5 harg5 hc0 hc1 x0 xs0 xs1).2.2.1, y ∈ pc.1.set :=
  View.cover_of_tiledL (runLast c i arg1 harg1 arg2 harg2 arg3 harg3 arg4 harg4 arg5 harg5 hc0 hc1 x0 xs0 xs1).2.2.1 S1x128.size (by sl_kernel_rfl) y
theorem scoverLast1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i) (x0 : Vec F S5000x128 .f32) (xs0 xs1 : Vec F S1x128 .f32) (y : S1x128.Idx) :
    ∃ pc ∈ (runLast c i arg1 harg1 arg2 harg2 arg3 harg3 arg4 harg4 arg5 harg5 hc0 hc1 x0 xs0 xs1).2.2.2.1, y ∈ pc.1.set :=
  View.cover_of_tiledL (runLast c i arg1 harg1 arg2 harg2 arg3 harg3 arg4 harg4 arg5 harg5 hc0 hc1 x0 xs0 xs1).2.2.2.1 S1x128.size (by sl_kernel_rfl) y

/-- A list of pieces read back through a view over junk: the contents a buffer holds once the pieces cover it. -/
abbrev rb (v : View sig .tc .vmem S1x128 .f32) (L : List (View.Piece (Elt F) S1x128 .f32)) : Vec F S1x128 .f32 := v.read (Elt F) (v.writes (Elt F) v.junk L)

/-! ## What the totals and the outputs hold after each point -/

/-- THE ACCUMULATION. After the body at position `n`: the two outputs' buffers (a placeholder where the point stores
    nothing into them: nothing consults it there) and the two totals — the first point's case from nothing, every later
    point's case over what the point before left in the totals. -/
def outsAt (c : Dev nD) : (n : ℕ) → n < cfg0.N → (Vec F S1x128 .f32 × Vec F S1x128 .f32) × (Vec F S1x128 .f32 × Vec F S1x128 .f32)
  | 0, hn =>
    ((rb VO1 [], rb VO2 []),
     (rb VS0 (runFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM0 (Memref.isWhole_whole _) scM1 (Memref.isWhole_whole _) ((hcondFirst ⟨0, hn⟩).mpr rfl) (fun h => absurd ((hcondLast ⟨0, hn⟩).mp h) (show ¬ (0 : ℕ) = 19 by decide)) (iblk V c 0 ⟨0, hn⟩)).1,
      rb VS1 (runFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM0 (Memref.isWhole_whole _) scM1 (Memref.isWhole_whole _) ((hcondFirst ⟨0, hn⟩).mpr rfl) (fun h => absurd ((hcondLast ⟨0, hn⟩).mp h) (show ¬ (0 : ℕ) = 19 by decide)) (iblk V c 0 ⟨0, hn⟩)).2.1))
  | n + 1, hn =>
    if hl : n + 1 = 19 then
      ((rb VO1 (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).1,
        rb VO2 (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.1),
       (rb VS0 (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.2.1,
        rb VS1 (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.2.2.1))
    else
      ((rb VO1 [], rb VO2 []),
       (rb VS0 (runMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) (fun h => hl ((hcondLast ⟨n + 1, hn⟩).mp h)) (iblk V c 0 ⟨n + 1, hn⟩) (outsAt c n (Nat.lt_of_succ_lt hn)).2.1 (outsAt c n (Nat.lt_of_succ_lt hn)).2.2).1,
        rb VS1 (runMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) (fun h => hl ((hcondLast ⟨n + 1, hn⟩).mp h)) (iblk V c 0 ⟨n + 1, hn⟩) (outsAt c n (Nat.lt_of_succ_lt hn)).2.1 (outsAt c n (Nat.lt_of_succ_lt hn)).2.2).2.1))

/-- `outsAt` at the first point. -/
theorem outsAt_first (c : Dev nD) (t : Fin cfg0.N) (h0 : t.val = 0) (hc0 : condFirst (grid0.coords t)) (hc1 : ¬condLast (grid0.coords t)) :
    (outsAt V c t.val t.isLt).2 = (rb VS0 (runFirst c (grid0.coords t) (ms0 t) (hs0 t) (ms1 t) (hs1 t) (ms2 t) (hs2 t) scM0 (Memref.isWhole_whole _) scM1 (Memref.isWhole_whole _) hc0 hc1 (iblk V c 0 t)).1, rb VS1 (runFirst c (grid0.coords t) (ms0 t) (hs0 t) (ms1 t) (hs1 t) (ms2 t) (hs2 t) scM0 (Memref.isWhole_whole _) scM1 (Memref.isWhole_whole _) hc0 hc1 (iblk V c 0 t)).2.1) := by
  obtain ⟨n, hn⟩ := t
  cases n with
  | zero => rfl
  | succ n => exact absurd h0 (Nat.succ_ne_zero n)

/-- `outsAt` at a middle point: the middle case over what the point before left. -/
theorem outsAt_mid (c : Dev nD) (t : Fin cfg0.N) (h0 : t.val ≠ 0) (hl : t.val ≠ 19) (hc0 : ¬condFirst (grid0.coords t)) (hc1 : ¬condLast (grid0.coords t)) :
    (outsAt V c t.val t.isLt).2 = (rb VS0 (runMid c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).1,
      rb VS1 (runMid c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.1) := by
  obtain ⟨n, hn⟩ := t
  cases n with
  | zero => exact absurd rfl h0
  | succ n => exact (congrArg Prod.snd (dif_neg hl)).trans rfl

/-- `outsAt` at the last point: the last case over what the point before left. -/
theorem outsAt_last (c : Dev nD) (t : Fin cfg0.N) (hl : t.val = 19) (hc0 : ¬condFirst (grid0.coords t)) (hc1 : condLast (grid0.coords t)) :
    outsAt V c t.val t.isLt = ((rb VO1 (runLast c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).1,
        rb VO2 (runLast c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.1),
      (rb VS0 (runLast c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.2.1,
        rb VS1 (runLast c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.2.2.1)) := by
  obtain ⟨n, hn⟩ := t
  cases n with
  | zero => exact absurd hl (show ¬ (0 : ℕ) = 19 by decide)
  | succ n => exact (dif_pos hl).trans rfl

/-! ## The invariant that carries the totals -/

/-- Before position `n`: before the first point the region's untouched scoped buffers (each total at anything); afterwards
    the same with each total at what the point before left in it. -/
def PhiS (c : Dev nD) : (n : ℕ) → n ≤ cfg0.N → sProp 𝕄
  | 0, _ => Pipeline.ΦA spec0 c
  | n + 1, hn => iprop(iprop(iprop(owns (c : Thread nD τ) scM0 fullShare (outsAt V c n hn).2.1 ∗ owns (c : Thread nD τ) scM1 fullShare (outsAt V c n hn).2.2) ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0 fullShare (outsAt V c n hn).2.1 ∗ owns (c : Thread nD τ) scM1 fullShare (outsAt V c n hn).2.2) ∗ Pipeline.scopedRestBut (Ix := Unit) (Name := ℕ) (U := UR sig nD τ) (Lvl := ℕ) (Val := Elt F) spec0 c [cc0_scratch0, cc0_scratch1]) ∗ (∃ r, prngReg c r)) := rfl
theorem PhiS_pos (c : Dev nD) (n : ℕ) (h : n ≤ cfg0.N) (hz : n ≠ 0) :
    PhiS V c n h = iprop(iprop(iprop(owns (c : Thread nD τ) scM0 fullShare (outsAt V c (n - 1) (by omega)).2.1 ∗ owns (c : Thread nD τ) scM1 fullShare (outsAt V c (n - 1) (by omega)).2.2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1.1
    | ⟨2, _⟩ => (outsAt V c t.val t.isLt).1.2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = (outsAt V c t.val t.isLt).1.1 := by dsimp only [dat]
theorem after2 (c : Dev nD) (t : Fin cfg0.N) : (dat V c).after 2 t = (outsAt V c t.val t.isLt).1.2 := by dsimp only [dat]
theorem before0 (c : Dev nD) (t : Fin cfg0.N) (d) : (dat V c).before 0 t d = iblk V c 0 t :=
  before0_of V (dat V c) (A_eq V c 0) (after0 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the closed forms of the two conditions say which case the point is in; the invariant hands the
    body the totals at what the point before left (at anything at the first point) and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl]
  rw [show (dat V c).Φ t.succ = PhiS V c (t.val + 1) t.isLt from rfl, PhiS_succ]
  have hN : t.val < 20 := lt_of_lt_of_eq t.isLt (show cfg0.N = 20 from N_0)
  rw [show (dat V c).leavesExact 0 t = owns (c : Thread nD τ) (ms0 t) fullShare ((dat V c).after 0 t) from by
    unfold Dat.leavesExact; rw [live0 t], after0]
  by_cases h0 : t.val = 0
  · have hc0 : condFirst (grid0.coords t) := (hcondFirst t).mpr h0
    have hc1 : ¬condLast (grid0.coords t) := fun h => by have := (hcondLast t).mp h; omega
    rw [Dat.leavesExact_idle (dat V c) 1 t (idle1 t hc1) (noFlush1 t hc1), Dat.leavesExact_idle (dat V c) 2 t (idle2 t hc1) (noFlush2 t hc1)]
    rw [outsAt_first V c t h0 hc0 hc1]
    (try dsimp only)
    rw [PhiS_castSucc V c t, PhiS_zero V c _ _ h0, PhiA_eq]
    iintro ⟨⟨⟨⟨HS0, HS1⟩, Hrest⟩, Hg⟩, Ho, ⟨%d0, H0⟩, ⟨%d1, H1⟩, ⟨%d2, H2⟩⟩
    iapply ((runFirst c (grid0.coords t) _ _ _ _ _ _ _ _ _ _ hc0 hc1 (iblk V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverFirst0 c _ _ _ _ _ _ _ _ _ _ _ _ _ _)
          · unfold owns; iexists _; isplitr
            swap; · iexact HS1
            ipureintro; exact View.read_writes_of_cover _ _ _ _ _ (scoverFirst1 c _ _ _ _ _ _ _ _ _ _ _ _ _ _)
        iexact Hrest
      iexact Hg
    isplitl [Ho]; · iexact Ho
    isplitl [H0]; · iexact H0
    isplitl [H1]; · iexists _; iexact H1
    iexists _; iexact H2
  · have hc0 : ¬condFirst (grid0.coords t) := fun h => h0 ((hcondFirst t).mp h)
    by_cases hl : t.val = 19
    · have hc1 : condLast (grid0.coords t) := (hcondLast t).mpr hl
      rw [show (dat V c).leavesExact 1 t = owns (c : Thread nD τ) (ms1 t) fullShare ((dat V c).after 1 t) from by
        unfold Dat.leavesExact; rw [live1 t hc1], after1]
      rw [show (dat V c).leavesExact 2 t = owns (c : Thread nD τ) (ms2 t) fullShare ((dat V c).after 2 t) from by
        unfold Dat.leavesExact; rw [live2 t hc1], after2]
      rw [outsAt_last V c t hl hc0 hc1]
      (try dsimp only)
      rw [PhiS_castSucc V c t, PhiS_pos V c _ _ h0]
      iintro ⟨⟨⟨⟨HS0, HS1⟩, Hrest⟩, Hg⟩, Ho, ⟨%d0, H0⟩, ⟨%d1, H1⟩, ⟨%d2, H2⟩⟩
      iapply ((runLast c (grid0.coords t) _ _ _ _ _ _ _ _ _ _ hc0 hc1 (iblk V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverLast0 c _ _ _ _ _ _ _ _ _ _ _ _ _ _ _ _)
            · unfold owns; iexists _; isplitr
              swap; · iexact HS1
              ipureintro; exact View.read_writes_of_cover _ _ _ _ _ (scoverLast1 c _ _ _ _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (coverLast1 c _ _ _ _ _ _ _ _ _ _ _ _ _ _ _ _)
      · unfold owns; iexists _; isplitr
        swap; · iexact H2
        ipureintro; exact View.read_writes_of_cover _ _ _ _ _ (coverLast2 c _ _ _ _ _ _ _ _ _ _ _ _ _ _ _ _)
    · have hc1 : ¬condLast (grid0.coords t) := fun h => hl ((hcondLast t).mp h)
      rw [Dat.leavesExact_idle (dat V c) 1 t (idle1 t hc1) (noFlush1 t hc1), Dat.leavesExact_idle (dat V c) 2 t (idle2 t hc1) (noFlush2 t hc1)]
      rw [outsAt_mid V c t h0 hl hc0 hc1]
      (try dsimp only)
      rw [PhiS_castSucc V c t, PhiS_pos V c _ _ h0]
      iintro ⟨⟨⟨⟨HS0, HS1⟩, Hrest⟩, Hg⟩, Ho, ⟨%d0, H0⟩, ⟨%d1, H1⟩, ⟨%d2, H2⟩⟩
      iapply ((runMid c (grid0.coords t) _ _ _ _ _ _ _ _ _ _ hc0 hc1 (iblk V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverMid0 c _ _ _ _ _ _ _ _ _ _ _ _ _ _ _ _)
            · unfold owns; iexists _; isplitr
              swap; · iexact HS1
              ipureintro; exact View.read_writes_of_cover _ _ _ _ _ (scoverMid1 c _ _ _ _ _ _ _ _ _ _ _ _ _ _ _ _)
          iexact Hrest
        iexact Hg
      isplitl [Ho]; · iexact Ho
      isplitl [H0]; · iexact H0
      isplitl [H1]; · iexists _; iexact H1
      iexists _; iexact H2

/-- The pipeline's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the untouched scoped buffers back: what the totals hold is forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.Kernel.Stats0

end
-- ==== Proof.K.Linear.lean ====
/-
  The second region: the kernel that normalises the features and multiplies by the weights, point by point.

  The grid has 20 points; point t reads rows 5000·t … 5000·t + 4999 of the features (128 columns), the four rows [1, 128]
  of statistics and affine parameters and the whole [128, 64] weight matrix (the same blocks at every point), and writes
  rows 5000·t … of the product: entry (r, o) of its block is
  ∑ₖ ((x[r, k] − mean[k]) · rsqrt(var[k] + ε) · γ[k] + β[k]) · W[k, o]  (a change of float format is the identity at the
  ideal instance, and the matrix unit starts from a zero accumulator).
  Here: the block each window holds at a point, what the body's one store leaves in the output block, the body's run on
  any staging buffers, and the pipeline's obligation at every point — for any contents `V` the region is entered with and
  at any float instance.
-/
import proofs.«104982_j16080357556242_1_alg».proof.Proof.Gen.Kernel.Launch
import proofs.«104982_j16080357556242_1_alg».proof.Proof.Gen.Kernel.Skeleton
import proofs.«104982_j16080357556242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the pipeline
    does not fetch, the block index has not moved since the point before. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the pipeline
    does not fetch, the block index has not moved since the point before. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the pipeline
    does not fetch, the block index has not moved since the point before. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the pipeline
    does not fetch, the block index has not moved since the point before. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the pipeline
    does not fetch, the block index has not moved since the point before. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where the pipeline
    does not fetch, the block index has not moved since the point before. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rin0 : Rect S5000x128 := Rect.unit (s := S5000x128) ![0, 0] S5000x128.size inb_S5000x128_S5000x128_0_0
abbrev rin1 : Rect S1x128 := Rect.unit (s := S1x128) ![0, 0] S1x128.size inb_S1x128_S1x128_0_0
abbrev rin2 : Rect S1x128 := Rect.unit (s := S1x128) ![0, 0] S1x128.size inb_S1x128_S1x128_0_0
abbrev rin3 : Rect S1x128 := Rect.unit (s := S1x128) ![0, 0] S1x128.size inb_S1x128_S1x128_0_0
abbrev rin4 : Rect S1x128 := Rect.unit (s := S1x128) ![0, 0] S1x128.size inb_S1x128_S1x128_0_0
abbrev rin5 : Rect S128x64 := Rect.unit (s := S128x64) ![0, 0] S128x64.size inb_S128x64_S128x64_0_0
abbrev rout : Rect S5000x64 := Rect.unit (s := S5000x64) ![0, 0] S5000x64.size inb_S5000x64_S5000x64_0_0

/-- The output block after the body, from the input blocks: its one store, of the body's arithmetic on the blocks it loaded. -/
def out (x0 : Vec F S5000x128 .f32) (x1 : Vec F S1x128 .f32) (x2 : Vec F S1x128 .f32) (x3 : Vec F S1x128 .f32) (x4 : Vec F S1x128 .f32) (x5 : Vec F S128x64 .f32) : Vec F S5000x64 .f32 :=
  View.canon [⟨rout, k1_pay1 (View.ld x0 rin0) (View.ld x1 rin1) (View.ld x2 rin2) (View.ld x3 rin3) (View.ld x4 rin4) (View.ld x5 rin5)⟩]

/-- The one store is of the whole block. -/
theorem cover (p0 : Vec F S5000x64 .f32) (y : S5000x64.Idx) :
    ∃ pc ∈ ([⟨rout, p0⟩] : List (View.Piece (Elt F) S5000x64 .f32)), y ∈ pc.1.set :=
  View.cover_of_tiled [⟨rout, p0⟩] S5000x64.size (by rfl) y

/-! ## The body's triple -/

set_option maxHeartbeats 2000000 in
/-- The body on whole staging memrefs, the inputs' at contents `x`, the output's at anything, runs to the continuation
    holding the inputs' as they were and the output's at `out` of them. -/
theorem sound_kernel (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S5000x64 .f32) (harg7 : arg7.IsWhole)
    (x0 : Vec F S5000x128 .f32) (x1 : Vec F S1x128 .f32) (x2 : Vec F S1x128 .f32) (x3 : Vec F S1x128 .f32) (x4 : Vec F S1x128 .f32) (x5 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out x0 x1 x2 x3 x4 x5)) -∗ K ⟨⟩))
      ⊢ wp frame (wpE (defs₀ (F := F)) Variants.none c none) E (cc1__bn_linear_kernel i arg1 harg1 arg2 harg2 arg3 harg3 arg4 harg4 arg5 harg5 arg6 harg6 arg7 harg7) K := by
  simp only [cc1__bn_linear_kernel_eq_skeleton]; unfold cc1__bn_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _)

/-! ## The pipeline's proof data -/

/-- The region's proof data on core `c`: the arrays as the region finds them; after the body at point `t` each input's
    buffer at its block and the output's at `out` of the input blocks; the invariant the scoped buffers no window stages
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = out (iblk V c 0 t) (iblk V c 1 t) (iblk V c 2 t) (iblk V c 3 t) (iblk V c 4 t) (iblk V c 5 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

set_option maxHeartbeats 1000000 in
/-- The body at any point: the inputs' memrefs hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.Linear

end
-- ==== Proof.K.Stats2.lean ====
/-
  The third region: the kernel that totals each column of the rectified activations and of their squares, point by point.

  The grid has 20 points; point t reads rows 5000·t … 5000·t + 4999 of the activations (64 columns) and replaces each entry
  by its maximum with zero. Two rows [1, 64] of the kernel's own — the running totals — are carried from point to point:
  reset to zero at the first point, increased at every point by the rectified block's column sums (of the entries, and of
  their squares), and copied into the two output rows at the last point, the only point that writes the outputs back.
  Here: the block the input window holds at a point; the body's run in each of its three cases (first, middle, last
  point); what the totals and outputs hold after each point, by recursion on the point; the invariant that carries the
  totals; and the pipeline's obligation at every point — for any contents `V` the region is entered with, at any float
  instance.
-/
import proofs.«104982_j16080357556242_1_alg».proof.Proof.Gen.Kernel.Launch
import proofs.«104982_j16080357556242_1_alg».proof.Proof.Gen.Kernel.Skeleton
import proofs.«104982_j16080357556242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input window's block -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- The body's first branch: the point is the first of the grid (the totals are reset there). -/
abbrev condFirst (i : grid2.Coords) : Prop := (Scalar.cmpi .ne (Scalar.extui (Scalar.cmpi .eq (BitVec.ofNat 32 (i 0).val) 0#32)) 0#32) = 1#1
theorem hcondFirst : ∀ t : Fin cfg2.N, condFirst (grid2.coords t) ↔ t.val = 0 :=
  (by decide +kernel : ∀ t : Fin grid2.N, condFirst (grid2.coords t) ↔ t.val = 0)
/-- The body's last branch: the point is the last of the grid (the totals are copied out there). -/
abbrev condLast (i : grid2.Coords) : Prop := k2_cond2 i = 1#1
theorem hcondLast : ∀ t : Fin cfg2.N, condLast (grid2.coords t) ↔ t.val = 19 :=
  (by decide +kernel : ∀ t : Fin grid2.N, condLast (grid2.coords t) ↔ t.val = 19)

/-- The input window is live at every point; -/
theorem live0 : ∀ t : Fin cfg2.N, cfg2.idle 0 (grid2.coords t) = false := by decide +kernel
/-- each output window is idle, and not written back, wherever the point is not the last, and live at the last. -/
theorem idle1 : ∀ t : Fin cfg2.N, ¬condLast (grid2.coords t) → cfg2.idle 1 (grid2.coords t) = true := by decide +kernel
theorem noFlush1 : ∀ t : Fin cfg2.N, ¬condLast (grid2.coords t) → (cfg2.win 1).flush t = false := by decide +kernel
theorem live1 : ∀ t : Fin cfg2.N, condLast (grid2.coords t) → cfg2.idle 1 (grid2.coords t) = false := by decide +kernel
theorem idle2 : ∀ t : Fin cfg2.N, ¬condLast (grid2.coords t) → cfg2.idle 2 (grid2.coords t) = true := by decide +kernel
theorem noFlush2 : ∀ t : Fin cfg2.N, ¬condLast (grid2.coords t) → (cfg2.win 2).flush t = false := by decide +kernel
theorem live2 : ∀ t : Fin cfg2.N, condLast (grid2.coords t) → cfg2.idle 2 (grid2.coords t) = false := by decide +kernel

/-! ## The memrefs the body is called with -/

abbrev VO1 : View sig .tc .vmem S1x64 .f32 := (Memref.whole cc2_stg1_0 : Memref sig .tc .vmem S1x64 .f32).view
abbrev VO2 : View sig .tc .vmem S1x64 .f32 := (Memref.whole cc2_stg2_0 : Memref sig .tc .vmem S1x64 .f32).view
abbrev ms0 (t : Fin cfg2.N) : Memref sig .tc .vmem S5000x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x64 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x64 .f32 := win2_2.stage (cfg2.slots t 2)
abbrev hs2 (t : Fin cfg2.N) : (ms2 t).IsWhole := hstage2_2 ((cfg2.slots t 2).cast nbuf2_2)
/-- The two running totals: whole scoped buffers of the kernel's own, carried from point to point. -/
abbrev scM0 : Memref sig .tc .vmem S1x64 .f32 := Memref.whole cc2_scratch0
abbrev scM1 : Memref sig .tc .vmem S1x64 .f32 := Memref.whole cc2_scratch1
abbrev VS0 : View sig .tc .vmem S1x64 .f32 := scM0.view
abbrev VS1 : View sig .tc .vmem S1x64 .f32 := scM1.view

/-- The region's untouched scoped buffers with the two running totals taken out, each owned at some contents. -/
theorem PhiA_eq (c : Dev nD) :
    (Pipeline.ΦA spec2 c : sProp 𝕄)
      = iprop(iprop(iprop((∃ d, owns (c : Thread nD τ) scM0 fullShare d) ∗ (∃ d, owns (c : Thread nD τ) scM1 fullShare d)) ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM0, scM1, owns_whole]; try rfl

/-! ## The body's run, case by case -/

set_option maxHeartbeats 4000000 in
/-- AT THE FIRST POINT (not the last): the totals, whatever they held, are reset and then take the block's column sums; the
    outputs' buffers are handed back untouched. The pieces each total ends with are what the run finds. -/
noncomputable def runFirst (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : condFirst i) (hc1 : ¬condLast i)
    (x0 : Vec F S5000x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, fun xi1 xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- AT A MIDDLE POINT: each total, at what the point before left, takes the block's column sums; the outputs' buffers are
    handed back untouched. -/
noncomputable def runMid (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : ¬condLast i)
    (x0 : Vec F S5000x64 .f32) (xs0 xs1 : Vec F S1x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, fun xi1 xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- AT THE LAST POINT (not the first): each total takes the block's column sums and is then copied into its output's buffer. -/
noncomputable def runLast (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i)
    (x0 : Vec F S5000x64 .f32) (xs0 xs1 : Vec F S1x64 .f32) :
    Σ' (L1 : List (View.Piece (Elt F) S1x64 .f32)), Σ' (L2 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, ?_, ?_, fun E K => ?run⟩
  case run =>
    simp only [cc2__stats_kernel_eq_skeleton]; unfold cc2__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

/-! ## What each case leaves, as contents -/

/-- The pieces a case leaves in a total cover its one row, so reading them back does not depend on what was there. -/
theorem scoverFirst0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : condFirst i) (hc1 : ¬condLast i) (x0 : Vec F S5000x64 .f32) (y : S1x64.Idx) :
    ∃ pc ∈ (runFirst c i arg1 harg1 arg2 harg2 arg3 harg3 arg4 harg4 arg5 harg5 hc0 hc1 x0).1, y ∈ pc.1.set :=
  View.cover_of_tiledL (runFirst c i arg1 harg1 arg2 harg2 arg3 harg3 arg4 harg4 arg5 harg5 hc0 hc1 x0).1 S1x64.size (by sl_kernel_rfl) y
theorem scoverFirst1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : condFirst i) (hc1 : ¬condLast i) (x0 : Vec F S5000x64 .f32) (y : S1x64.Idx) :
    ∃ pc ∈ (runFirst c i arg1 harg1 arg2 harg2 arg3 harg3 arg4 harg4 arg5 harg5 hc0 hc1 x0).2.1, y ∈ pc.1.set :=
  View.cover_of_tiledL (runFirst c i arg1 harg1 arg2 harg2 arg3 harg3 arg4 harg4 arg5 harg5 hc0 hc1 x0).2.1 S1x64.size (by sl_kernel_rfl) y
theorem scoverMid0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : ¬condLast i) (x0 : Vec F S5000x64 .f32) (xs0 xs1 : Vec F S1x64 .f32) (y : S1x64.Idx) :
    ∃ pc ∈ (runMid c i arg1 harg1 arg2 harg2 arg3 harg3 arg4 harg4 arg5 harg5 hc0 hc1 x0 xs0 xs1).1, y ∈ pc.1.set :=
  View.cover_of_tiledL (runMid c i arg1 harg1 arg2 harg2 arg3 harg3 arg4 harg4 arg5 harg5 hc0 hc1 x0 xs0 xs1).1 S1x64.size (by sl_kernel_rfl) y
theorem scoverMid1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : ¬condLast i) (x0 : Vec F S5000x64 .f32) (xs0 xs1 : Vec F S1x64 .f32) (y : S1x64.Idx) :
    ∃ pc ∈ (runMid c i arg1 harg1 arg2 harg2 arg3 harg3 arg4 harg4 arg5 harg5 hc0 hc1 x0 xs0 xs1).2.1, y ∈ pc.1.set :=
  View.cover_of_tiledL (runMid c i arg1 harg1 arg2 harg2 arg3 harg3 arg4 harg4 arg5 harg5 hc0 hc1 x0 xs0 xs1).2.1 S1x64.size (by sl_kernel_rfl) y
theorem coverLast1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i) (x0 : Vec F S5000x64 .f32) (xs0 xs1 : Vec F S1x64 .f32) (y : S1x64.Idx) :
    ∃ pc ∈ (runLast c i arg1 harg1 arg2 harg2 arg3 harg3 arg4 harg4 arg5 harg5 hc0 hc1 x0 xs0 xs1).1, y ∈ pc.1.set :=
  View.cover_of_tiledL (runLast c i arg1 harg1 arg2 harg2 arg3 harg3 arg4 harg4 arg5 harg5 hc0 hc1 x0 xs0 xs1).1 S1x64.size (by sl_kernel_rfl) y
theorem coverLast2 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i) (x0 : Vec F S5000x64 .f32) (xs0 xs1 : Vec F S1x64 .f32) (y : S1x64.Idx) :
    ∃ pc ∈ (runLast c i arg1 harg1 arg2 harg2 arg3 harg3 arg4 harg4 arg5 harg5 hc0 hc1 x0 xs0 xs1).2.1, y ∈ pc.1.set :=
  View.cover_of_tiledL (runLast c i arg1 harg1 arg2 harg2 arg3 harg3 arg4 harg4 arg5 harg5 hc0 hc1 x0 xs0 xs1).2.1 S1x64.size (by sl_kernel_rfl) y
theorem scoverLast0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i) (x0 : Vec F S5000x64 .f32) (xs0 xs1 : Vec F S1x64 .f32) (y : S1x64.Idx) :
    ∃ pc ∈ (runLast c i arg1 harg1 arg2 harg2 arg3 harg3 arg4 harg4 arg5 harg5 hc0 hc1 x0 xs0 xs1).2.2.1, y ∈ pc.1.set :=
  View.cover_of_tiledL (runLast c i arg1 harg1 arg2 harg2 arg3 harg3 arg4 harg4 arg5 harg5 hc0 hc1 x0 xs0 xs1).2.2.1 S1x64.size (by sl_kernel_rfl) y
theorem scoverLast1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i) (x0 : Vec F S5000x64 .f32) (xs0 xs1 : Vec F S1x64 .f32) (y : S1x64.Idx) :
    ∃ pc ∈ (runLast c i arg1 harg1 arg2 harg2 arg3 harg3 arg4 harg4 arg5 harg5 hc0 hc1 x0 xs0 xs1).2.2.2.1, y ∈ pc.1.set :=
  View.cover_of_tiledL (runLast c i arg1 harg1 arg2 harg2 arg3 harg3 arg4 harg4 arg5 harg5 hc0 hc1 x0 xs0 xs1).2.2.2.1 S1x64.size (by sl_kernel_rfl) y

/-- A list of pieces read back through a view over junk: the contents a buffer holds once the pieces cover it. -/
abbrev rb (v : View sig .tc .vmem S1x64 .f32) (L : List (View.Piece (Elt F) S1x64 .f32)) : Vec F S1x64 .f32 := v.read (Elt F) (v.writes (Elt F) v.junk L)

/-! ## What the totals and the outputs hold after each point -/

/-- THE ACCUMULATION. After the body at position `n`: the two outputs' buffers (a placeholder where the point stores
    nothing into them: nothing consults it there) and the two totals — the first point's case from nothing, every later
    point's case over what the point before left in the totals. -/
def outsAt (c : Dev nD) : (n : ℕ) → n < cfg2.N → (Vec F S1x64 .f32 × Vec F S1x64 .f32) × (Vec F S1x64 .f32 × Vec F S1x64 .f32)
  | 0, hn =>
    ((rb VO1 [], rb VO2 []),
     (rb VS0 (runFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) scM0 (Memref.isWhole_whole _) scM1 (Memref.isWhole_whole _) ((hcondFirst ⟨0, hn⟩).mpr rfl) (fun h => absurd ((hcondLast ⟨0, hn⟩).mp h) (show ¬ (0 : ℕ) = 19 by decide)) (iblk V c 0 ⟨0, hn⟩)).1,
      rb VS1 (runFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) scM0 (Memref.isWhole_whole _) scM1 (Memref.isWhole_whole _) ((hcondFirst ⟨0, hn⟩).mpr rfl) (fun h => absurd ((hcondLast ⟨0, hn⟩).mp h) (show ¬ (0 : ℕ) = 19 by decide)) (iblk V c 0 ⟨0, hn⟩)).2.1))
  | n + 1, hn =>
    if hl : n + 1 = 19 then
      ((rb VO1 (runLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).1,
        rb VO2 (runLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.1),
       (rb VS0 (runLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.2.1,
        rb VS1 (runLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.2.2.1))
    else
      ((rb VO1 [], rb VO2 []),
       (rb VS0 (runMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) (fun h => hl ((hcondLast ⟨n + 1, hn⟩).mp h)) (iblk V c 0 ⟨n + 1, hn⟩) (outsAt c n (Nat.lt_of_succ_lt hn)).2.1 (outsAt c n (Nat.lt_of_succ_lt hn)).2.2).1,
        rb VS1 (runMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) (fun h => hl ((hcondLast ⟨n + 1, hn⟩).mp h)) (iblk V c 0 ⟨n + 1, hn⟩) (outsAt c n (Nat.lt_of_succ_lt hn)).2.1 (outsAt c n (Nat.lt_of_succ_lt hn)).2.2).2.1))

/-- `outsAt` at the first point. -/
theorem outsAt_first (c : Dev nD) (t : Fin cfg2.N) (h0 : t.val = 0) (hc0 : condFirst (grid2.coords t)) (hc1 : ¬condLast (grid2.coords t)) :
    (outsAt V c t.val t.isLt).2 = (rb VS0 (runFirst c (grid2.coords t) (ms0 t) (hs0 t) (ms1 t) (hs1 t) (ms2 t) (hs2 t) scM0 (Memref.isWhole_whole _) scM1 (Memref.isWhole_whole _) hc0 hc1 (iblk V c 0 t)).1, rb VS1 (runFirst c (grid2.coords t) (ms0 t) (hs0 t) (ms1 t) (hs1 t) (ms2 t) (hs2 t) scM0 (Memref.isWhole_whole _) scM1 (Memref.isWhole_whole _) hc0 hc1 (iblk V c 0 t)).2.1) := by
  obtain ⟨n, hn⟩ := t
  cases n with
  | zero => rfl
  | succ n => exact absurd h0 (Nat.succ_ne_zero n)

/-- `outsAt` at a middle point: the middle case over what the point before left. -/
theorem outsAt_mid (c : Dev nD) (t : Fin cfg2.N) (h0 : t.val ≠ 0) (hl : t.val ≠ 19) (hc0 : ¬condFirst (grid2.coords t)) (hc1 : ¬condLast (grid2.coords t)) :
    (outsAt V c t.val t.isLt).2 = (rb VS0 (runMid c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).1,
      rb VS1 (runMid c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.1) := by
  obtain ⟨n, hn⟩ := t
  cases n with
  | zero => exact absurd rfl h0
  | succ n => exact (congrArg Prod.snd (dif_neg hl)).trans rfl

/-- `outsAt` at the last point: the last case over what the point before left. -/
theorem outsAt_last (c : Dev nD) (t : Fin cfg2.N) (hl : t.val = 19) (hc0 : ¬condFirst (grid2.coords t)) (hc1 : condLast (grid2.coords t)) :
    outsAt V c t.val t.isLt = ((rb VO1 (runLast c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).1,
        rb VO2 (runLast c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.1),
      (rb VS0 (runLast c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.2.1,
        rb VS1 (runLast c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.2.2.1)) := by
  obtain ⟨n, hn⟩ := t
  cases n with
  | zero => exact absurd hl (show ¬ (0 : ℕ) = 19 by decide)
  | succ n => exact (dif_pos hl).trans rfl

/-! ## The invariant that carries the totals -/

/-- Before position `n`: before the first point the region's untouched scoped buffers (each total at anything); afterwards
    the same with each total at what the point before left in it. -/
def PhiS (c : Dev nD) : (n : ℕ) → n ≤ cfg2.N → sProp 𝕄
  | 0, _ => Pipeline.ΦA spec2 c
  | n + 1, hn => iprop(iprop(iprop(owns (c : Thread nD τ) scM0 fullShare (outsAt V c n hn).2.1 ∗ owns (c : Thread nD τ) scM1 fullShare (outsAt V c n hn).2.2) ∗ Pipeline.scopedRestBut (Ix := Unit) (Name := ℕ) (U := UR sig nD τ) (Lvl := ℕ) (Val := Elt F) spec2 c [cc2_scratch0, cc2_scratch1]) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(iprop(owns (c : Thread nD τ) scM0 fullShare (outsAt V c n hn).2.1 ∗ owns (c : Thread nD τ) scM1 fullShare (outsAt V c n hn).2.2) ∗ Pipeline.scopedRestBut (Ix := Unit) (Name := ℕ) (U := UR sig nD τ) (Lvl := ℕ) (Val := Elt F) spec2 c [cc2_scratch0, cc2_scratch1]) ∗ (∃ r, prngReg c r)) := rfl
theorem PhiS_pos (c : Dev nD) (n : ℕ) (h : n ≤ cfg2.N) (hz : n ≠ 0) :
    PhiS V c n h = iprop(iprop(iprop(owns (c : Thread nD τ) scM0 fullShare (outsAt V c (n - 1) (by omega)).2.1 ∗ owns (c : Thread nD τ) scM1 fullShare (outsAt V c (n - 1) (by omega)).2.2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => (outsAt V c t.val t.isLt).1.1
    | ⟨2, _⟩ => (outsAt V c t.val t.isLt).1.2
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after0 (c : Dev nD) (t : Fin cfg2.N) : (dat V c).after 0 t = iblk V c 0 t := by dsimp only [dat]
theorem after1 (c : Dev nD) (t : Fin cfg2.N) : (dat V c).after 1 t = (outsAt V c t.val t.isLt).1.1 := by dsimp only [dat]
theorem after2 (c : Dev nD) (t : Fin cfg2.N) : (dat V c).after 2 t = (outsAt V c t.val t.isLt).1.2 := by dsimp only [dat]
theorem before0 (c : Dev nD) (t : Fin cfg2.N) (d) : (dat V c).before 0 t d = iblk V c 0 t :=
  before0_of V (dat V c) (A_eq V c 0) (after0 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the closed forms of the two conditions say which case the point is in; the invariant hands the
    body the totals at what the point before left (at anything at the first point) and takes them back at this point's. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0]
  rw [show (dat V c).owesAt () t.succ = (dat V c).owesAt () t.castSucc from rfl]
  rw [show (dat V c).Φ t.succ = PhiS V c (t.val + 1) t.isLt from rfl, PhiS_succ]
  have hN : t.val < 20 := lt_of_lt_of_eq t.isLt (show cfg2.N = 20 from N_2)
  rw [show (dat V c).leavesExact 0 t = owns (c : Thread nD τ) (ms0 t) fullShare ((dat V c).after 0 t) from by
    unfold Dat.leavesExact; rw [live0 t], after0]
  by_cases h0 : t.val = 0
  · have hc0 : condFirst (grid2.coords t) := (hcondFirst t).mpr h0
    have hc1 : ¬condLast (grid2.coords t) := fun h => by have := (hcondLast t).mp h; omega
    rw [Dat.leavesExact_idle (dat V c) 1 t (idle1 t hc1) (noFlush1 t hc1), Dat.leavesExact_idle (dat V c) 2 t (idle2 t hc1) (noFlush2 t hc1)]
    rw [outsAt_first V c t h0 hc0 hc1]
    (try dsimp only)
    rw [PhiS_castSucc V c t, PhiS_zero V c _ _ h0, PhiA_eq]
    iintro ⟨⟨⟨⟨HS0, HS1⟩, Hrest⟩, Hg⟩, Ho, ⟨%d0, H0⟩, ⟨%d1, H1⟩, ⟨%d2, H2⟩⟩
    iapply ((runFirst c (grid2.coords t) _ _ _ _ _ _ _ _ _ _ hc0 hc1 (iblk V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverFirst0 c _ _ _ _ _ _ _ _ _ _ _ _ _ _)
          · unfold owns; iexists _; isplitr
            swap; · iexact HS1
            ipureintro; exact View.read_writes_of_cover _ _ _ _ _ (scoverFirst1 c _ _ _ _ _ _ _ _ _ _ _ _ _ _)
        iexact Hrest
      iexact Hg
    isplitl [Ho]; · iexact Ho
    isplitl [H0]; · iexact H0
    isplitl [H1]; · iexists _; iexact H1
    iexists _; iexact H2
  · have hc0 : ¬condFirst (grid2.coords t) := fun h => h0 ((hcondFirst t).mp h)
    by_cases hl : t.val = 19
    · have hc1 : condLast (grid2.coords t) := (hcondLast t).mpr hl
      rw [show (dat V c).leavesExact 1 t = owns (c : Thread nD τ) (ms1 t) fullShare ((dat V c).after 1 t) from by
        unfold Dat.leavesExact; rw [live1 t hc1], after1]
      rw [show (dat V c).leavesExact 2 t = owns (c : Thread nD τ) (ms2 t) fullShare ((dat V c).after 2 t) from by
        unfold Dat.leavesExact; rw [live2 t hc1], after2]
      rw [outsAt_last V c t hl hc0 hc1]
      (try dsimp only)
      rw [PhiS_castSucc V c t, PhiS_pos V c _ _ h0]
      iintro ⟨⟨⟨⟨HS0, HS1⟩, Hrest⟩, Hg⟩, Ho, ⟨%d0, H0⟩, ⟨%d1, H1⟩, ⟨%d2, H2⟩⟩
      iapply ((runLast c (grid2.coords t) _ _ _ _ _ _ _ _ _ _ hc0 hc1 (iblk V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverLast0 c _ _ _ _ _ _ _ _ _ _ _ _ _ _ _ _)
            · unfold owns; iexists _; isplitr
              swap; · iexact HS1
              ipureintro; exact View.read_writes_of_cover _ _ _ _ _ (scoverLast1 c _ _ _ _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (coverLast1 c _ _ _ _ _ _ _ _ _ _ _ _ _ _ _ _)
      · unfold owns; iexists _; isplitr
        swap; · iexact H2
        ipureintro; exact View.read_writes_of_cover _ _ _ _ _ (coverLast2 c _ _ _ _ _ _ _ _ _ _ _ _ _ _ _ _)
    · have hc1 : ¬condLast (grid2.coords t) := fun h => hl ((hcondLast t).mp h)
      rw [Dat.leavesExact_idle (dat V c) 1 t (idle1 t hc1) (noFlush1 t hc1), Dat.leavesExact_idle (dat V c) 2 t (idle2 t hc1) (noFlush2 t hc1)]
      rw [outsAt_mid V c t h0 hl hc0 hc1]
      (try dsimp only)
      rw [PhiS_castSucc V c t, PhiS_pos V c _ _ h0]
      iintro ⟨⟨⟨⟨HS0, HS1⟩, Hrest⟩, Hg⟩, Ho, ⟨%d0, H0⟩, ⟨%d1, H1⟩, ⟨%d2, H2⟩⟩
      iapply ((runMid c (grid2.coords t) _ _ _ _ _ _ _ _ _ _ hc0 hc1 (iblk V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverMid0 c _ _ _ _ _ _ _ _ _ _ _ _ _ _ _ _)
            · unfold owns; iexists _; isplitr
              swap; · iexact HS1
              ipureintro; exact View.read_writes_of_cover _ _ _ _ _ (scoverMid1 c _ _ _ _ _ _ _ _ _ _ _ _ _ _ _ _)
          iexact Hrest
        iexact Hg
      isplitl [Ho]; · iexact Ho
      isplitl [H0]; · iexact H0
      isplitl [H1]; · iexists _; iexact H1
      iexists _; iexact H2

/-- The pipeline's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the untouched scoped buffers back: what the totals hold is forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 20 := N_2; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.Kernel.Stats2

end
-- ==== Proof.K.Norm.lean ====
/-
  The last region: the normalising kernel, point by point.

  The grid has 20 points; point t reads rows 5000·t … 5000·t + 4999 of the activations (64 columns) and the four rows
  [1, 64] of statistics and affine parameters (the same block at every point), and writes rows 5000·t … of the result:
  entry (r, j) of its block is  (max(a[r, j], 0) − mean[j]) · rsqrt(var[j] + ε) · γ[j] + β[j].
  Here: the block each window holds at a point, what the body's one store leaves in the output block, the body's run on
  any staging buffers, and the pipeline's obligation at every point — for any contents `V` the region is entered with and
  at any float instance.
-/
import proofs.«104982_j16080357556242_1_alg».proof.Proof.Gen.Kernel.Launch
import proofs.«104982_j16080357556242_1_alg».proof.Proof.Gen.Kernel.Skeleton
import proofs.«104982_j16080357556242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where the pipeline
    does not fetch, the block index has not moved since the point before. -/
theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the pipeline
    does not fetch, the block index has not moved since the point before. -/
theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the pipeline
    does not fetch, the block index has not moved since the point before. -/
theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the pipeline
    does not fetch, the block index has not moved since the point before. -/
theorem before3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the pipeline
    does not fetch, the block index has not moved since the point before. -/
theorem before4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rin0 : Rect S5000x64 := Rect.unit (s := S5000x64) ![0, 0] S5000x64.size inb_S5000x64_S5000x64_0_0
abbrev rin1 : Rect S1x64 := Rect.unit (s := S1x64) ![0, 0] S1x64.size inb_S1x64_S1x64_0_0
abbrev rin2 : Rect S1x64 := Rect.unit (s := S1x64) ![0, 0] S1x64.size inb_S1x64_S1x64_0_0
abbrev rin3 : Rect S1x64 := Rect.unit (s := S1x64) ![0, 0] S1x64.size inb_S1x64_S1x64_0_0
abbrev rin4 : Rect S1x64 := Rect.unit (s := S1x64) ![0, 0] S1x64.size inb_S1x64_S1x64_0_0
abbrev rout : Rect S5000x64 := Rect.unit (s := S5000x64) ![0, 0] S5000x64.size inb_S5000x64_S5000x64_0_0

/-- The output block after the body, from the input blocks: its one store, of the body's arithmetic on the blocks it loaded. -/
def out (x0 : Vec F S5000x64 .f32) (x1 : Vec F S1x64 .f32) (x2 : Vec F S1x64 .f32) (x3 : Vec F S1x64 .f32) (x4 : Vec F S1x64 .f32) : Vec F S5000x64 .f32 :=
  View.canon [⟨rout, k3_pay1 (View.ld x0 rin0) (View.ld x1 rin1) (View.ld x2 rin2) (View.ld x3 rin3) (View.ld x4 rin4)⟩]

/-- The one store is of the whole block. -/
theorem cover (p0 : Vec F S5000x64 .f32) (y : S5000x64.Idx) :
    ∃ pc ∈ ([⟨rout, p0⟩] : List (View.Piece (Elt F) S5000x64 .f32)), y ∈ pc.1.set :=
  View.cover_of_tiled [⟨rout, p0⟩] S5000x64.size (by rfl) y

/-! ## The body's triple -/

set_option maxHeartbeats 2000000 in
/-- The body on whole staging memrefs, the inputs' at contents `x`, the output's at anything, runs to the continuation
    holding the inputs' as they were and the output's at `out` of them. -/
theorem sound_kernel (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc3__relu_bn_kernel i arg1 harg1 arg2 harg2 arg3 harg3 arg4 harg4 arg5 harg5 arg6 harg6) K := by
  simp only [cc3__relu_bn_kernel_eq_skeleton]; unfold cc3__relu_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The region's proof data on core `c`: the arrays as the region finds them; after the body at point `t` each input's
    buffer at its block and the output's at `out` of the input blocks; the invariant the scoped buffers no window stages
    and the generator register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = out (iblk V c 0 t) (iblk V c 1 t) (iblk V c 2 t) (iblk V c 3 t) (iblk V c 4 t) := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d
theorem before3 (c : Dev nD) (t : Fin cfg3.N) (d) : (dat V c).before 3 t d = iblk V c 3 t :=
  before3_of V (dat V c) (A_eq V c 3) (after3 V c) t d
theorem before4 (c : Dev nD) (t : Fin cfg3.N) (d) : (dat V c).before 4 t d = iblk V c 4 t :=
  before4_of V (dat V c) (A_eq V c 4) (after4 V c) t d

/-! ## The body obligation, at a generic point -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

set_option maxHeartbeats 1000000 in
/-- The body at any point: the inputs' memrefs hold their blocks, so the triple applies; the invariant and the core's
    dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W3, bigSep_W3]
  exact sound_body V c t

end Cert.Kernel.Norm

end
-- ==== Proof.K.Whole.lean ====
/-
  The whole run of the program: its four kernel regions among six stretches of host operations.

  The contents of the TensorCore's unscoped buffers at each boundary are a fold through @main from the launch memory: a
  stretch of host operations applies them; a region leaves its arrays at what its pipeline's write-backs leave and every
  other buffer as entered. Each region is one segment over the thread state "every unscoped buffer at the boundary's
  contents, the generator register at some state, nothing owed", from its own module's proof data and body obligation; the
  two totalling regions carry their running totals in their invariant. The run's conclusion: every weakly fair execution
  terminates and every unscoped buffer ends at the last boundary's contents — at any float instance.
-/
import proofs.«104982_j16080357556242_1_alg».proof.Proof.K.Stats0
import proofs.«104982_j16080357556242_1_alg».proof.Proof.K.Linear
import proofs.«104982_j16080357556242_1_alg».proof.Proof.K.Stats2
import proofs.«104982_j16080357556242_1_alg».proof.Proof.K.Norm

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- What region 0 leaves: its arrays at what the pipeline's write-backs leave, every other buffer as entered. -/
def W2 (c : Dev nD) : Valuation τ sig (Elt F) :=
  Pipeline.withArrays spec0 c (W1 m ρ c) fun w => (Stats0.dat (V1 m ρ) c).arrAt w cfg0.N
theorem W2_arr (c : Dev nD) (w : Fin cfg0.W) :
    W2 m ρ c (Proc.devRef .tc (Pipeline.arrRef spec0 w)) = (Stats0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Stats0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- What region 1 leaves: its arrays at what the pipeline's write-backs leave, every other buffer as entered. -/
def W4 (c : Dev nD) : Valuation τ sig (Elt F) :=
  Pipeline.withArrays spec1 c (W3 m ρ c) fun w => (Linear.dat (V3 m ρ) c).arrAt w cfg1.N
theorem W4_arr (c : Dev nD) (w : Fin cfg1.W) :
    W4 m ρ c (Proc.devRef .tc (Pipeline.arrRef spec1 w)) = (Linear.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Linear.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev V7 : (c : Dev nD) → (b : Ref sig .tc) → Buf (Elt F) ((c : Thread nD τ).loc b) := fun c b => W7 m ρ c b

/-- What region 2 leaves: its arrays at what the pipeline's write-backs leave, every other buffer as entered. -/
def W8 (c : Dev nD) : Valuation τ sig (Elt F) :=
  Pipeline.withArrays spec2 c (W7 m ρ c) fun w => (Stats2.dat (V7 m ρ) c).arrAt w cfg2.N
theorem W8_arr (c : Dev nD) (w : Fin cfg2.W) :
    W8 m ρ c (Proc.devRef .tc (Pipeline.arrRef spec2 w)) = (Stats2.dat (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (Stats2.dat (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- What region 3 leaves: its arrays at what the pipeline's write-backs leave, every other buffer as entered. -/
def W10 (c : Dev nD) : Valuation τ sig (Elt F) :=
  Pipeline.withArrays spec3 c (W9 m ρ c) fun w => (Norm.dat (V9 m ρ) c).arrAt w cfg3.N
theorem W10_arr (c : Dev nD) (w : Fin cfg3.W) :
    W10 m ρ c (Proc.devRef .tc (Pipeline.arrRef spec3 w)) = (Norm.dat (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (Norm.dat (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Stats0.dat (V1 m ρ) c
  | ⟨1, _⟩ => fun c => Linear.dat (V3 m ρ) c
  | ⟨2, _⟩ => fun c => Stats2.dat (V7 m ρ) c
  | ⟨3, _⟩ => fun c => Norm.dat (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W1`, left with them at `W2`. Its
    arrays are split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Stats0.hin (V1 m ρ) c)
    unfold Pipeline.ΦA
    iintro ⟨Hp, -, Hr⟩
    isplitl [Hr]; · iexact Hr
    iexact Hp
  hout c := by
    rw [Pipeline.ownSems0_none]
    refine BIBase.Entails.trans (Stats0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Linear.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its
    arrays are split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Stats2.body_obligation (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Stats2.hin (V7 m ρ) c)
    unfold Pipeline.ΦA
    iintro ⟨Hp, -, Hr⟩
    isplitl [Hr]; · iexact Hr
    iexact Hp
  hout c := by
    rw [Pipeline.ownSems0_none]
    refine BIBase.Entails.trans (Stats2.hout (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its
    arrays are split out of the unscoped buffers and put back at the exit contents; the generator register goes into the
    region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Norm.body_obligation (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .region (reg3 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer of core `c` at the last boundary's contents `W10 c`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Whole

end
-- ==== Proof.K.Args.lean ====
/-
  The argument arrays end unchanged: each argument's buffer, followed back through the boundaries' contents from the last to
  the launch, is never written — no host operation writes an argument, and a region reads an argument only through an input
  window, whose array it leaves as it found it. With the whole run this is the program's frame claim, at any float instance.
-/
import proofs.«104982_j16080357556242_1_alg».proof.Proof.K.Whole
import proofs.«104982_j16080357556242_1_alg».proof.Proof.Gen.Kernel.Regions

set_option maxRecDepth 16384

noncomputable section

namespace Cert.Kernel.Args

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Argument 0's buffer ends at its launch contents: no host operation writes it, and a region either reads it
    through an input window or leaves it alone. -/
theorem W10_main_arg0 (c : Dev nD) : Whole.W10 m ρ c (Proc.devRef .tc main_arg0) = m ((c : Thread nD τ).loc main_arg0) :=
  calc Whole.W10 m ρ c (Proc.devRef .tc main_arg0)
    _ = Whole.W9 m ρ c (Proc.devRef .tc main_arg0) := Whole.W10_of_ne m ρ c main_arg0 (by decide)
    _ = Whole.W8 m ρ c (Proc.devRef .tc main_arg0) := StableHlo.after_of_writes_sub hostOps3 _ hostOps3_writes (by decide)
    _ = Whole.W7 m ρ c (Proc.devRef .tc main_arg0) := Whole.W8_of_ne m ρ c main_arg0 (by decide)
    _ = Whole.W6 m ρ c (Proc.devRef .tc main_arg0) := StableHlo.after_of_writes_sub hostOps2_2 _ hostOps2_2_writes (by decide)
    _ = Whole.W5 m ρ c (Proc.devRef .tc main_arg0) := StableHlo.after_of_writes_sub hostOps2_1 _ hostOps2_1_writes (by decide)
    _ = Whole.W4 m ρ c (Proc.devRef .tc main_arg0) := StableHlo.after_of_writes_sub hostOps2 _ hostOps2_writes (by decide)
    _ = Whole.W3 m ρ c (Proc.devRef .tc main_arg0) := (Whole.W4_arr m ρ c 0).trans (((Linear.dat (Whole.V3 m ρ) c).arrAt_in 0 rfl _).trans (Linear.A_eq (Whole.V3 m ρ) c 0))
    _ = Whole.W2 m ρ c (Proc.devRef .tc main_arg0) := StableHlo.after_of_writes_sub hostOps1 _ hostOps1_writes (by decide)
    _ = Whole.W1 m ρ c (Proc.devRef .tc main_arg0) := (Whole.W2_arr m ρ c 0).trans (((Stats0.dat (Whole.V1 m ρ) c).arrAt_in 0 rfl _).trans (Stats0.A_eq (Whole.V1 m ρ) c 0))
    _ = Whole.W0 m ρ c (Proc.devRef .tc main_arg0) := StableHlo.after_of_writes_sub hostOps0 _ hostOps0_writes (by decide)
    _ = m ((c : Thread nD τ).loc main_arg0) := rfl

/-- Argument 1's buffer ends at its launch contents: no host operation writes it, and a region either reads it
    through an input window or leaves it alone. -/
theorem W10_main_arg1 (c : Dev nD) : Whole.W10 m ρ c (Proc.devRef .tc main_arg1) = m ((c : Thread nD τ).loc main_arg1) :=
  calc Whole.W10 m ρ c (Proc.devRef .tc main_arg1)
    _ = Whole.W9 m ρ c (Proc.devRef .tc main_arg1) := Whole.W10_of_ne m ρ c main_arg1 (by decide)
    _ = Whole.W8 m ρ c (Proc.devRef .tc main_arg1) := StableHlo.after_of_writes_sub hostOps3 _ hostOps3_writes (by decide)
    _ = Whole.W7 m ρ c (Proc.devRef .tc main_arg1) := Whole.W8_of_ne m ρ c main_arg1 (by decide)
    _ = Whole.W6 m ρ c (Proc.devRef .tc main_arg1) := StableHlo.after_of_writes_sub hostOps2_2 _ hostOps2_2_writes (by decide)
    _ = Whole.W5 m ρ c (Proc.devRef .tc main_arg1) := StableHlo.after_of_writes_sub hostOps2_1 _ hostOps2_1_writes (by decide)
    _ = Whole.W4 m ρ c (Proc.devRef .tc main_arg1) := StableHlo.after_of_writes_sub hostOps2 _ hostOps2_writes (by decide)
    _ = Whole.W3 m ρ c (Proc.devRef .tc main_arg1) := Whole.W4_of_ne m ρ c main_arg1 (by decide)
    _ = Whole.W2 m ρ c (Proc.devRef .tc main_arg1) := StableHlo.after_of_writes_sub hostOps1 _ hostOps1_writes (by decide)
    _ = Whole.W1 m ρ c (Proc.devRef .tc main_arg1) := Whole.W2_of_ne m ρ c main_arg1 (by decide)
    _ = Whole.W0 m ρ c (Proc.devRef .tc main_arg1) := StableHlo.after_of_writes_sub hostOps0 _ hostOps0_writes (by decide)
    _ = m ((c : Thread nD τ).loc main_arg1) := rfl

/-- Argument 2's buffer ends at its launch contents: no host operation writes it, and a region either reads it
    through an input window or leaves it alone. -/
theorem W10_main_arg2 (c : Dev nD) : Whole.W10 m ρ c (Proc.devRef .tc main_arg2) = m ((c : Thread nD τ).loc main_arg2) :=
  calc Whole.W10 m ρ c (Proc.devRef .tc main_arg2)
    _ = Whole.W9 m ρ c (Proc.devRef .tc main_arg2) := Whole.W10_of_ne m ρ c main_arg2 (by decide)
    _ = Whole.W8 m ρ c (Proc.devRef .tc main_arg2) := StableHlo.after_of_writes_sub hostOps3 _ hostOps3_writes (by decide)
    _ = Whole.W7 m ρ c (Proc.devRef .tc main_arg2) := Whole.W8_of_ne m ρ c main_arg2 (by decide)
    _ = Whole.W6 m ρ c (Proc.devRef .tc main_arg2) := StableHlo.after_of_writes_sub hostOps2_2 _ hostOps2_2_writes (by decide)
    _ = Whole.W5 m ρ c (Proc.devRef .tc main_arg2) := StableHlo.after_of_writes_sub hostOps2_1 _ hostOps2_1_writes (by decide)
    _ = Whole.W4 m ρ c (Proc.devRef .tc main_arg2) := StableHlo.after_of_writes_sub hostOps2 _ hostOps2_writes (by decide)
    _ = Whole.W3 m ρ c (Proc.devRef .tc main_arg2) := Whole.W4_of_ne m ρ c main_arg2 (by decide)
    _ = Whole.W2 m ρ c (Proc.devRef .tc main_arg2) := StableHlo.after_of_writes_sub hostOps1 _ hostOps1_writes (by decide)
    _ = Whole.W1 m ρ c (Proc.devRef .tc main_arg2) := Whole.W2_of_ne m ρ c main_arg2 (by decide)
    _ = Whole.W0 m ρ c (Proc.devRef .tc main_arg2) := StableHlo.after_of_writes_sub hostOps0 _ hostOps0_writes (by decide)
    _ = m ((c : Thread nD τ).loc main_arg2) := rfl

/-- Argument 3's buffer ends at its launch contents: no host operation writes it, and a region either reads it
    through an input window or leaves it alone. -/
theorem W10_main_arg3 (c : Dev nD) : Whole.W10 m ρ c (Proc.devRef .tc main_arg3) = m ((c : Thread nD τ).loc main_arg3) :=
  calc Whole.W10 m ρ c (Proc.devRef .tc main_arg3)
    _ = Whole.W9 m ρ c (Proc.devRef .tc main_arg3) := Whole.W10_of_ne m ρ c main_arg3 (by decide)
    _ = Whole.W8 m ρ c (Proc.devRef .tc main_arg3) := StableHlo.after_of_writes_sub hostOps3 _ hostOps3_writes (by decide)
    _ = Whole.W7 m ρ c (Proc.devRef .tc main_arg3) := Whole.W8_of_ne m ρ c main_arg3 (by decide)
    _ = Whole.W6 m ρ c (Proc.devRef .tc main_arg3) := StableHlo.after_of_writes_sub hostOps2_2 _ hostOps2_2_writes (by decide)
    _ = Whole.W5 m ρ c (Proc.devRef .tc main_arg3) := StableHlo.after_of_writes_sub hostOps2_1 _ hostOps2_1_writes (by decide)
    _ = Whole.W4 m ρ c (Proc.devRef .tc main_arg3) := StableHlo.after_of_writes_sub hostOps2 _ hostOps2_writes (by decide)
    _ = Whole.W3 m ρ c (Proc.devRef .tc main_arg3) := Whole.W4_of_ne m ρ c main_arg3 (by decide)
    _ = Whole.W2 m ρ c (Proc.devRef .tc main_arg3) := StableHlo.after_of_writes_sub hostOps1 _ hostOps1_writes (by decide)
    _ = Whole.W1 m ρ c (Proc.devRef .tc main_arg3) := Whole.W2_of_ne m ρ c main_arg3 (by decide)
    _ = Whole.W0 m ρ c (Proc.devRef .tc main_arg3) := StableHlo.after_of_writes_sub hostOps0 _ hostOps0_writes (by decide)
    _ = m ((c : Thread nD τ).loc main_arg3) := rfl

/-- Argument 4's buffer ends at its launch contents: no host operation writes it, and a region either reads it
    through an input window or leaves it alone. -/
theorem W10_main_arg4 (c : Dev nD) : Whole.W10 m ρ c (Proc.devRef .tc main_arg4) = m ((c : Thread nD τ).loc main_arg4) :=
  calc Whole.W10 m ρ c (Proc.devRef .tc main_arg4)
    _ = Whole.W9 m ρ c (Proc.devRef .tc main_arg4) := Whole.W10_of_ne m ρ c main_arg4 (by decide)
    _ = Whole.W8 m ρ c (Proc.devRef .tc main_arg4) := StableHlo.after_of_writes_sub hostOps3 _ hostOps3_writes (by decide)
    _ = Whole.W7 m ρ c (Proc.devRef .tc main_arg4) := Whole.W8_of_ne m ρ c main_arg4 (by decide)
    _ = Whole.W6 m ρ c (Proc.devRef .tc main_arg4) := StableHlo.after_of_writes_sub hostOps2_2 _ hostOps2_2_writes (by decide)
    _ = Whole.W5 m ρ c (Proc.devRef .tc main_arg4) := StableHlo.after_of_writes_sub hostOps2_1 _ hostOps2_1_writes (by decide)
    _ = Whole.W4 m ρ c (Proc.devRef .tc main_arg4) := StableHlo.after_of_writes_sub hostOps2 _ hostOps2_writes (by decide)
    _ = Whole.W3 m ρ c (Proc.devRef .tc main_arg4) := (Whole.W4_arr m ρ c 5).trans (((Linear.dat (Whole.V3 m ρ) c).arrAt_in 5 rfl _).trans (Linear.A_eq (Whole.V3 m ρ) c 5))
    _ = Whole.W2 m ρ c (Proc.devRef .tc main_arg4) := StableHlo.after_of_writes_sub hostOps1 _ hostOps1_writes (by decide)
    _ = Whole.W1 m ρ c (Proc.devRef .tc main_arg4) := Whole.W2_of_ne m ρ c main_arg4 (by decide)
    _ = Whole.W0 m ρ c (Proc.devRef .tc main_arg4) := StableHlo.after_of_writes_sub hostOps0 _ hostOps0_writes (by decide)
    _ = m ((c : Thread nD τ).loc main_arg4) := rfl

/-- Argument 5's buffer ends at its launch contents: no host operation writes it, and a region either reads it
    through an input window or leaves it alone. -/
theorem W10_main_arg5 (c : Dev nD) : Whole.W10 m ρ c (Proc.devRef .tc main_arg5) = m ((c : Thread nD τ).loc main_arg5) :=
  calc Whole.W10 m ρ c (Proc.devRef .tc main_arg5)
    _ = Whole.W9 m ρ c (Proc.devRef .tc main_arg5) := Whole.W10_of_ne m ρ c main_arg5 (by decide)
    _ = Whole.W8 m ρ c (Proc.devRef .tc main_arg5) := StableHlo.after_of_writes_sub hostOps3 _ hostOps3_writes (by decide)
    _ = Whole.W7 m ρ c (Proc.devRef .tc main_arg5) := Whole.W8_of_ne m ρ c main_arg5 (by decide)
    _ = Whole.W6 m ρ c (Proc.devRef .tc main_arg5) := StableHlo.after_of_writes_sub hostOps2_2 _ hostOps2_2_writes (by decide)
    _ = Whole.W5 m ρ c (Proc.devRef .tc main_arg5) := StableHlo.after_of_writes_sub hostOps2_1 _ hostOps2_1_writes (by decide)
    _ = Whole.W4 m ρ c (Proc.devRef .tc main_arg5) := StableHlo.after_of_writes_sub hostOps2 _ hostOps2_writes (by decide)
    _ = Whole.W3 m ρ c (Proc.devRef .tc main_arg5) := Whole.W4_of_ne m ρ c main_arg5 (by decide)
    _ = Whole.W2 m ρ c (Proc.devRef .tc main_arg5) := StableHlo.after_of_writes_sub hostOps1 _ hostOps1_writes (by decide)
    _ = Whole.W1 m ρ c (Proc.devRef .tc main_arg5) := Whole.W2_of_ne m ρ c main_arg5 (by decide)
    _ = Whole.W0 m ρ c (Proc.devRef .tc main_arg5) := StableHlo.after_of_writes_sub hostOps0 _ hostOps0_writes (by decide)
    _ = m ((c : Thread nD τ).loc main_arg5) := rfl

/-- Argument 6's buffer ends at its launch contents: no host operation writes it, and a region either reads it
    through an input window or leaves it alone. -/
theorem W10_main_arg6 (c : Dev nD) : Whole.W10 m ρ c (Proc.devRef .tc main_arg6) = m ((c : Thread nD τ).loc main_arg6) :=
  calc Whole.W10 m ρ c (Proc.devRef .tc main_arg6)
    _ = Whole.W9 m ρ c (Proc.devRef .tc main_arg6) := Whole.W10_of_ne m ρ c main_arg6 (by decide)
    _ = Whole.W8 m ρ c (Proc.devRef .tc main_arg6) := StableHlo.after_of_writes_sub hostOps3 _ hostOps3_writes (by decide)
    _ = Whole.W7 m ρ c (Proc.devRef .tc main_arg6) := Whole.W8_of_ne m ρ c main_arg6 (by decide)
    _ = Whole.W6 m ρ c (Proc.devRef .tc main_arg6) := StableHlo.after_of_writes_sub hostOps2_2 _ hostOps2_2_writes (by decide)
    _ = Whole.W5 m ρ c (Proc.devRef .tc main_arg6) := StableHlo.after_of_writes_sub hostOps2_1 _ hostOps2_1_writes (by decide)
    _ = Whole.W4 m ρ c (Proc.devRef .tc main_arg6) := StableHlo.after_of_writes_sub hostOps2 _ hostOps2_writes (by decide)
    _ = Whole.W3 m ρ c (Proc.devRef .tc main_arg6) := Whole.W4_of_ne m ρ c main_arg6 (by decide)
    _ = Whole.W2 m ρ c (Proc.devRef .tc main_arg6) := StableHlo.after_of_writes_sub hostOps1 _ hostOps1_writes (by decide)
    _ = Whole.W1 m ρ c (Proc.devRef .tc main_arg6) := Whole.W2_of_ne m ρ c main_arg6 (by decide)
    _ = Whole.W0 m ρ c (Proc.devRef .tc main_arg6) := StableHlo.after_of_writes_sub hostOps0 _ hostOps0_writes (by decide)
    _ = m ((c : Thread nD τ).loc main_arg6) := rfl

/-- Argument 7's buffer ends at its launch contents: no host operation writes it, and a region either reads it
    through an input window or leaves it alone. -/
theorem W10_main_arg7 (c : Dev nD) : Whole.W10 m ρ c (Proc.devRef .tc main_arg7) = m ((c : Thread nD τ).loc main_arg7) :=
  calc Whole.W10 m ρ c (Proc.devRef .tc main_arg7)
    _ = Whole.W9 m ρ c (Proc.devRef .tc main_arg7) := Whole.W10_of_ne m ρ c main_arg7 (by decide)
    _ = Whole.W8 m ρ c (Proc.devRef .tc main_arg7) := StableHlo.after_of_writes_sub hostOps3 _ hostOps3_writes (by decide)
    _ = Whole.W7 m ρ c (Proc.devRef .tc main_arg7) := Whole.W8_of_ne m ρ c main_arg7 (by decide)
    _ = Whole.W6 m ρ c (Proc.devRef .tc main_arg7) := StableHlo.after_of_writes_sub hostOps2_2 _ hostOps2_2_writes (by decide)
    _ = Whole.W5 m ρ c (Proc.devRef .tc main_arg7) := StableHlo.after_of_writes_sub hostOps2_1 _ hostOps2_1_writes (by decide)
    _ = Whole.W4 m ρ c (Proc.devRef .tc main_arg7) := StableHlo.after_of_writes_sub hostOps2 _ hostOps2_writes (by decide)
    _ = Whole.W3 m ρ c (Proc.devRef .tc main_arg7) := Whole.W4_of_ne m ρ c main_arg7 (by decide)
    _ = Whole.W2 m ρ c (Proc.devRef .tc main_arg7) := StableHlo.after_of_writes_sub hostOps1 _ hostOps1_writes (by decide)
    _ = Whole.W1 m ρ c (Proc.devRef .tc main_arg7) := Whole.W2_of_ne m ρ c main_arg7 (by decide)
    _ = Whole.W0 m ρ c (Proc.devRef .tc main_arg7) := StableHlo.after_of_writes_sub hostOps0 _ hostOps0_writes (by decide)
    _ = m ((c : Thread nD τ).loc main_arg7) := rfl

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (Whole.mem_uc main_arg0 (by decide))).trans (W10_main_arg0 m ρ c),
      (h c _ (Whole.mem_uc main_arg1 (by decide))).trans (W10_main_arg1 m ρ c),
      (h c _ (Whole.mem_uc main_arg2 (by decide))).trans (W10_main_arg2 m ρ c),
      (h c _ (Whole.mem_uc main_arg3 (by decide))).trans (W10_main_arg3 m ρ c),
      (h c _ (Whole.mem_uc main_arg4 (by decide))).trans (W10_main_arg4 m ρ c),
      (h c _ (Whole.mem_uc main_arg5 (by decide))).trans (W10_main_arg5 m ρ c),
      (h c _ (Whole.mem_uc main_arg6 (by decide))).trans (W10_main_arg6 m ρ c),
      (h c _ (Whole.mem_uc main_arg7 (by decide))).trans (W10_main_arg7 m ρ c)⟩) (Whole.run m ρ)

end Cert.Kernel.Args

end
-- ==== Proof.KI.Stats0.lean ====
/-
  The first region: the kernel that totals each column of the features and of their squares, point by point.

  The grid has 20 points; point t reads rows 5000·t … 5000·t + 4999 of the features (128 columns). Two rows [1, 128] of the
  kernel's own — the running totals — are carried from point to point: reset to zero at the first point, increased at
  every point by the block's column sums (of the entries, and of their squares), and copied into the two output rows at the
  last point, the only point that writes the outputs back.
  Here: the block the input window holds at a point; the body's run in each of its three cases (first, middle, last
  point); what the totals and outputs hold after each point, by recursion on the point; the invariant that carries the
  totals; and the pipeline's obligation at every point — for any contents `V` the region is entered with, at any float
  instance.
-/
import proofs.«104982_j16080357556242_1_alg».proof.Proof.Gen.KernelIdeal.Launch
import proofs.«104982_j16080357556242_1_alg».proof.Proof.Gen.KernelIdeal.Skeleton
import proofs.«104982_j16080357556242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input window's block -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- The body's first branch: the point is the first of the grid (the totals are reset there). -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)
/-- The body's last branch: the point is the last of the grid (the totals are copied out there). -/
abbrev condLast (i : grid0.Coords) : Prop := k0_cond2 i = 1#1
theorem hcondLast : ∀ t : Fin cfg0.N, condLast (grid0.coords t) ↔ t.val = 19 :=
  (by decide +kernel : ∀ t : Fin grid0.N, condLast (grid0.coords t) ↔ t.val = 19)

/-- The input window is live at every point; -/
theorem live0 : ∀ t : Fin cfg0.N, cfg0.idle 0 (grid0.coords t) = false := by decide +kernel
/-- each output window is idle, and not written back, wherever the point is not the last, and live at the last. -/
theorem idle1 : ∀ t : Fin cfg0.N, ¬condLast (grid0.coords t) → cfg0.idle 1 (grid0.coords t) = true := by decide +kernel
theorem noFlush1 : ∀ t : Fin cfg0.N, ¬condLast (grid0.coords t) → (cfg0.win 1).flush t = false := by decide +kernel
theorem live1 : ∀ t : Fin cfg0.N, condLast (grid0.coords t) → cfg0.idle 1 (grid0.coords t) = false := by decide +kernel
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel

/-! ## The memrefs the body is called with -/

abbrev VO1 : View sig .tc .vmem S1x128 .f32 := (Memref.whole cc0_stg1_0 : Memref sig .tc .vmem S1x128 .f32).view
abbrev VO2 : View sig .tc .vmem S1x128 .f32 := (Memref.whole cc0_stg2_0 : Memref sig .tc .vmem S1x128 .f32).view
abbrev ms0 (t : Fin cfg0.N) : Memref sig .tc .vmem S5000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
/-- The two running totals: whole scoped buffers of the kernel's own, carried from point to point. -/
abbrev scM0 : Memref sig .tc .vmem S1x128 .f32 := Memref.whole cc0_scratch0
abbrev scM1 : Memref sig .tc .vmem S1x128 .f32 := Memref.whole cc0_scratch1
abbrev VS0 : View sig .tc .vmem S1x128 .f32 := scM0.view
abbrev VS1 : View sig .tc .vmem S1x128 .f32 := scM1.view

/-- The region's untouched scoped buffers with the two running totals taken out, each owned at some contents. -/
theorem PhiA_eq (c : Dev nD) :
    (Pipeline.ΦA spec0 c : sProp 𝕄)
      = iprop(iprop(iprop((∃ d, owns (c : Thread nD τ) scM0 fullShare d) ∗ (∃ d, owns (c : Thread nD τ) scM1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0, scM1, owns_whole]; try rfl

/-! ## The body's run, case by case -/

set_option maxHeartbeats 4000000 in
/-- AT THE FIRST POINT (not the last): the totals, whatever they held, are reset and then take the block's column sums; the
    outputs' buffers are handed back untouched. The pieces each total ends with are what the run finds. -/
noncomputable def runFirst (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : condFirst i) (hc1 : ¬condLast i)
    (x0 : Vec F S5000x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- AT A MIDDLE POINT: each total, at what the point before left, takes the block's column sums; the outputs' buffers are
    handed back untouched. -/
noncomputable def runMid (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : ¬condLast i)
    (x0 : Vec F S5000x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- AT THE LAST POINT (not the first): each total takes the block's column sums and is then copied into its output's buffer. -/
noncomputable def runLast (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i)
    (x0 : Vec F S5000x128 .f32) (xs0 xs1 : Vec F S1x128 .f32) :
    Σ' (L1 : List (View.Piece (Elt F) S1x128 .f32)), Σ' (L2 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

/-! ## What each case leaves, as contents -/

/-- The pieces a case leaves in a total cover its one row, so reading them back does not depend on what was there. -/
theorem scoverFirst0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : condFirst i) (hc1 : ¬condLast i) (x0 : Vec F S5000x128 .f32) (y : S1x128.Idx) :
    ∃ pc ∈ (runFirst c i arg1 harg1 arg2 harg2 arg3 harg3 arg4 harg4 arg5 harg5 hc0 hc1 x0).1, y ∈ pc.1.set :=
  View.cover_of_tiledL (runFirst c i arg1 harg1 arg2 harg2 arg3 harg3 arg4 harg4 arg5 harg5 hc0 hc1 x0).1 S1x128.size (by sl_kernel_rfl) y
theorem scoverFirst1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : condFirst i) (hc1 : ¬condLast i) (x0 : Vec F S5000x128 .f32) (y : S1x128.Idx) :
    ∃ pc ∈ (runFirst c i arg1 harg1 arg2 harg2 arg3 harg3 arg4 harg4 arg5 harg5 hc0 hc1 x0).2.1, y ∈ pc.1.set :=
  View.cover_of_tiledL (runFirst c i arg1 harg1 arg2 harg2 arg3 harg3 arg4 harg4 arg5 harg5 hc0 hc1 x0).2.1 S1x128.size (by sl_kernel_rfl) y
theorem scoverMid0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : ¬condLast i) (x0 : Vec F S5000x128 .f32) (xs0 xs1 : Vec F S1x128 .f32) (y : S1x128.Idx) :
    ∃ pc ∈ (runMid c i arg1 harg1 arg2 harg2 arg3 harg3 arg4 harg4 arg5 harg5 hc0 hc1 x0 xs0 xs1).1, y ∈ pc.1.set :=
  View.cover_of_tiledL (runMid c i arg1 harg1 arg2 harg2 arg3 harg3 arg4 harg4 arg5 harg5 hc0 hc1 x0 xs0 xs1).1 S1x128.size (by sl_kernel_rfl) y
theorem scoverMid1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : ¬condLast i) (x0 : Vec F S5000x128 .f32) (xs0 xs1 : Vec F S1x128 .f32) (y : S1x128.Idx) :
    ∃ pc ∈ (runMid c i arg1 harg1 arg2 harg2 arg3 harg3 arg4 harg4 arg5 harg5 hc0 hc1 x0 xs0 xs1).2.1, y ∈ pc.1.set :=
  View.cover_of_tiledL (runMid c i arg1 harg1 arg2 harg2 arg3 harg3 arg4 harg4 arg5 harg5 hc0 hc1 x0 xs0 xs1).2.1 S1x128.size (by sl_kernel_rfl) y
theorem coverLast1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i) (x0 : Vec F S5000x128 .f32) (xs0 xs1 : Vec F S1x128 .f32) (y : S1x128.Idx) :
    ∃ pc ∈ (runLast c i arg1 harg1 arg2 harg2 arg3 harg3 arg4 harg4 arg5 harg5 hc0 hc1 x0 xs0 xs1).1, y ∈ pc.1.set :=
  View.cover_of_tiledL (runLast c i arg1 harg1 arg2 harg2 arg3 harg3 arg4 harg4 arg5 harg5 hc0 hc1 x0 xs0 xs1).1 S1x128.size (by sl_kernel_rfl) y
theorem coverLast2 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i) (x0 : Vec F S5000x128 .f32) (xs0 xs1 : Vec F S1x128 .f32) (y : S1x128.Idx) :
    ∃ pc ∈ (runLast c i arg1 harg1 arg2 harg2 arg3 harg3 arg4 harg4 arg5 harg5 hc0 hc1 x0 xs0 xs1).2.1, y ∈ pc.1.set :=
  View.cover_of_tiledL (runLast c i arg1 harg1 arg2 harg2 arg3 harg3 arg4 harg4 arg5 harg5 hc0 hc1 x0 xs0 xs1).2.1 S1x128.size (by sl_kernel_rfl) y
theorem scoverLast0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i) (x0 : Vec F S5000x128 .f32) (xs0 xs1 : Vec F S1x128 .f32) (y : S1x128.Idx) :
    ∃ pc ∈ (runLast c i arg1 harg1 arg2 harg2 arg3 harg3 arg4 harg4 arg5 harg5 hc0 hc1 x0 xs0 xs1).2.2.1, y ∈ pc.1.set :=
  View.cover_of_tiledL (runLast c i arg1 harg1 arg2 harg2 arg3 harg3 arg4 harg4 arg5 harg5 hc0 hc1 x0 xs0 xs1).2.2.1 S1x128.size (by sl_kernel_rfl) y
theorem scoverLast1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬condFirst i) (hc1 : condLast i) (x0 : Vec F S5000x128 .f32) (xs0 xs1 : Vec F S1x128 .f32) (y : S1x128.Idx) :
    ∃ pc ∈ (runLast c i arg1 harg1 arg2 harg2 arg3 harg3 arg4 harg4 arg5 harg5 hc0 hc1 x0 xs0 xs1).2.2.2.1, y ∈ pc.1.set :=
  View.cover_of_tiledL (runLast c i arg1 harg1 arg2 harg2 arg3 harg3 arg4 harg4 arg5 harg5 hc0 hc1 x0 xs0 xs1).2.2.2.1 S1x128.size (by sl_kernel_rfl) y

/-- A list of pieces read back through a view over junk: the contents a buffer holds once the pieces cover it. -/
abbrev rb (v : View sig .tc .vmem S1x128 .f32) (L : List (View.Piece (Elt F) S1x128 .f32)) : Vec F S1x128 .f32 := v.read (Elt F) (v.writes (Elt F) v.junk L)

/-! ## What the totals and the outputs hold after each point -/

/-- THE ACCUMULATION. After the body at position `n`: the two outputs' buffers (a placeholder where the point stores
    nothing into them: nothing consults it there) and the two totals — the first point's case from nothing, every later
    point's case over what the point before left in the totals. -/
def outsAt (c : Dev nD) : (n : ℕ) → n < cfg0.N → (Vec F S1x128 .f32 × Vec F S1x128 .f32) × (Vec F S1x128 .f32 × Vec F S1x128 .f32)
  | 0, hn =>
    ((rb VO1 [], rb VO2 []),
     (rb VS0 (runFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM0 (Memref.isWhole_whole _) scM1 (Memref.isWhole_whole _) ((hcondFirst ⟨0, hn⟩).mpr rfl) (fun h => absurd ((hcondLast ⟨0, hn⟩).mp h) (show ¬ (0 : ℕ) = 19 by decide)) (iblk V c 0 ⟨0, hn⟩)).1,
      rb VS1 (runFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM0 (Memref.isWhole_whole _) scM1 (Memref.isWhole_whole _) ((hcondFirst ⟨0, hn⟩).mpr rfl) (fun h => absurd ((hcondLast ⟨0, hn⟩).mp h) (show ¬ (0 : ℕ) = 19 by decide)) (iblk V c 0 ⟨0, hn⟩)).2.1))
  | n + 1, hn =>
    if hl : n + 1 = 19 then
      ((rb VO1 (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).1,
        rb VO2 (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.1),
       (rb VS0 (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.2.1,
        rb VS1 (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.2.2.1))
    else
      ((rb VO1 [], rb VO2 []),
       (rb VS0 (runMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) (fun h => hl ((hcondLast ⟨n + 1, hn⟩).mp h)) (iblk V c 0 ⟨n + 1, hn⟩) (outsAt c n (Nat.lt_of_succ_lt hn)).2.1 (outsAt c n (Nat.lt_of_succ_lt hn)).2.2).1,
        rb VS1 (runMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) (fun h => hl ((hcondLast ⟨n + 1, hn⟩).mp h)) (iblk V c 0 ⟨n + 1, hn⟩) (outsAt c n (Nat.lt_of_succ_lt hn)).2.1 (outsAt c n (Nat.lt_of_succ_lt hn)).2.2).2.1))

/-- `outsAt` at the first point. -/
theorem outsAt_first (c : Dev nD) (t : Fin cfg0.N) (h0 : t.val = 0) (hc0 : condFirst (grid0.coords t)) (hc1 : ¬condLast (grid0.coords t)) :
    (outsAt V c t.val t.isLt).2 = (rb VS0 (runFirst c (grid0.coords t) (ms0 t) (hs0 t) (ms1 t) (hs1 t) (ms2 t) (hs2 t) scM0 (Memref.isWhole_whole _) scM1 (Memref.isWhole_whole _) hc0 hc1 (iblk V c 0 t)).1, rb VS1 (runFirst c (grid0.coords t) (ms0 t) (hs0 t) (ms1 t) (hs1 t) (ms2 t) (hs2 t) scM0 (Memref.isWhole_whole _) scM1 (Memref.isWhole_whole _) hc0 hc1 (iblk V c 0 t)).2.1) := by
  obtain ⟨n, hn⟩ := t
  cases n with
  | zero => rfl
  | succ n => exact absurd h0 (Nat.succ_ne_zero n)

/-- `outsAt` at a middle point: the middle case over what the point before left. -/
theorem outsAt_mid (c : Dev nD) (t : Fin cfg0.N) (h0 : t.val ≠ 0) (hl : t.val ≠ 19) (hc0 : ¬condFirst (grid0.coords t)) (hc1 : ¬condLast (grid0.coords t)) :
    (outsAt V c t.val t.isLt).2 = (rb VS0 (runMid c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).1,
      rb VS1 (runMid c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.1) := by
  obtain ⟨n, hn⟩ := t
  cases n with
  | zero => exact absurd rfl h0
  | succ n => exact (congrArg Prod.snd (dif_neg hl)).trans rfl

/-- `outsAt` at the last point: the last case over what the point before left. -/
theorem outsAt_last (c : Dev nD) (t : Fin cfg0.N) (hl : t.val = 19) (hc0 : ¬condFirst (grid0.coords t)) (hc1 : condLast (grid0.coords t)) :
    outsAt V c t.val t.isLt = ((rb VO1 (runLast c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).1,
        rb VO2 (runLast c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.1),
      (rb VS0 (runLast c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.2.1,
        rb VS1 (runLast c (grid0.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.2.2.1)) := by
  obtain ⟨n, hn⟩ := t
  cases n with
  | zero => exact absurd hl (show ¬ (0 : ℕ) = 19 by decide)
  | succ n => exact (dif_pos hl).trans rfl

/-! ## The invariant that carries the totals -/

/-- Before position `n`: before the first point the region's untouched scoped buffers (each total at anything); afterwards
    the same with each total at what the point before left in it. -/
def PhiS (c : Dev nD) : (n : ℕ) → n ≤ cfg0.N → sProp 𝕄
  | 0, _ => Pipeline.ΦA spec0 c
  | n + 1, hn => iprop(iprop(iprop(owns (c : Thread nD τ) scM0 fullShare (outsAt V c n hn).2.1 ∗ owns (c : Thread nD τ) scM1 fullShare (outsAt V c n hn).2.2) ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0 fullShare (outsAt V c n hn).2.1 ∗ owns (c : Thread nD τ) scM1 fullShare (outsAt V c n hn).2.2) ∗ Pipeline.scopedRestBut (Ix := Unit) (Name := ℕ) (U := UR sig nD τ) (Lvl := ℕ) (Val := Elt F) spec0 c [cc0_scratch0, cc0_scratch1]) ∗ (∃ r, prngReg c r)) := rfl
theorem PhiS_pos (c : Dev nD) (n : ℕ) (h : n ≤ cfg0.N) (hz : n ≠ 0) :
    PhiS V c n h = iprop(iprop(iprop(owns (c : Thread nD τ) scM0 fullShare (outsAt V c (n - 1) (by omega)).2.1 ∗ owns (c : Thread nD τ) scM1 fullShare (outsAt V c (n - 1) (by omega)).2.2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1.1
    | ⟨2, _⟩ => (outsAt V c t.val t.isLt).1.2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = (outsAt V c t.val t.isLt).1.1 := by dsimp only [dat]
theorem after2 (c : Dev nD) (t : Fin cfg0.N) : (dat V c).after 2 t = (outsAt V c t.val t.isLt).1.2 := by dsimp only [dat]
theorem before0 (c : Dev nD) (t : Fin cfg0.N) (d) : (dat V c).before 0 t d = iblk V c 0 t :=
  before0_of V (dat V c) (A_eq V c 0) (after0 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the closed forms of the two conditions say which case the point is in; the invariant hands the
    body the totals at what the point before left (at anything at the first point) and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl]
  rw [show (dat V c).Φ t.succ = PhiS V c (t.val + 1) t.isLt from rfl, PhiS_succ]
  have hN : t.val < 20 := lt_of_lt_of_eq t.isLt (show cfg0.N = 20 from N_0)
  rw [show (dat V c).leavesExact 0 t = owns (c : Thread nD τ) (ms0 t) fullShare ((dat V c).after 0 t) from by
    unfold Dat.leavesExact; rw [live0 t], after0]
  by_cases h0 : t.val = 0
  · have hc0 : condFirst (grid0.coords t) := (hcondFirst t).mpr h0
    have hc1 : ¬condLast (grid0.coords t) := fun h => by have := (hcondLast t).mp h; omega
    rw [Dat.leavesExact_idle (dat V c) 1 t (idle1 t hc1) (noFlush1 t hc1), Dat.leavesExact_idle (dat V c) 2 t (idle2 t hc1) (noFlush2 t hc1)]
    rw [outsAt_first V c t h0 hc0 hc1]
    (try dsimp only)
    rw [PhiS_castSucc V c t, PhiS_zero V c _ _ h0, PhiA_eq]
    iintro ⟨⟨⟨⟨HS0, HS1⟩, Hrest⟩, Hg⟩, Ho, ⟨%d0, H0⟩, ⟨%d1, H1⟩, ⟨%d2, H2⟩⟩
    iapply ((runFirst c (grid0.coords t) _ _ _ _ _ _ _ _ _ _ hc0 hc1 (iblk V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverFirst0 c _ _ _ _ _ _ _ _ _ _ _ _ _ _)
          · unfold owns; iexists _; isplitr
            swap; · iexact HS1
            ipureintro; exact View.read_writes_of_cover _ _ _ _ _ (scoverFirst1 c _ _ _ _ _ _ _ _ _ _ _ _ _ _)
        iexact Hrest
      iexact Hg
    isplitl [Ho]; · iexact Ho
    isplitl [H0]; · iexact H0
    isplitl [H1]; · iexists _; iexact H1
    iexists _; iexact H2
  · have hc0 : ¬condFirst (grid0.coords t) := fun h => h0 ((hcondFirst t).mp h)
    by_cases hl : t.val = 19
    · have hc1 : condLast (grid0.coords t) := (hcondLast t).mpr hl
      rw [show (dat V c).leavesExact 1 t = owns (c : Thread nD τ) (ms1 t) fullShare ((dat V c).after 1 t) from by
        unfold Dat.leavesExact; rw [live1 t hc1], after1]
      rw [show (dat V c).leavesExact 2 t = owns (c : Thread nD τ) (ms2 t) fullShare ((dat V c).after 2 t) from by
        unfold Dat.leavesExact; rw [live2 t hc1], after2]
      rw [outsAt_last V c t hl hc0 hc1]
      (try dsimp only)
      rw [PhiS_castSucc V c t, PhiS_pos V c _ _ h0]
      iintro ⟨⟨⟨⟨HS0, HS1⟩, Hrest⟩, Hg⟩, Ho, ⟨%d0, H0⟩, ⟨%d1, H1⟩, ⟨%d2, H2⟩⟩
      iapply ((runLast c (grid0.coords t) _ _ _ _ _ _ _ _ _ _ hc0 hc1 (iblk V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverLast0 c _ _ _ _ _ _ _ _ _ _ _ _ _ _ _ _)
            · unfold owns; iexists _; isplitr
              swap; · iexact HS1
              ipureintro; exact View.read_writes_of_cover _ _ _ _ _ (scoverLast1 c _ _ _ _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (coverLast1 c _ _ _ _ _ _ _ _ _ _ _ _ _ _ _ _)
      · unfold owns; iexists _; isplitr
        swap; · iexact H2
        ipureintro; exact View.read_writes_of_cover _ _ _ _ _ (coverLast2 c _ _ _ _ _ _ _ _ _ _ _ _ _ _ _ _)
    · have hc1 : ¬condLast (grid0.coords t) := fun h => hl ((hcondLast t).mp h)
      rw [Dat.leavesExact_idle (dat V c) 1 t (idle1 t hc1) (noFlush1 t hc1), Dat.leavesExact_idle (dat V c) 2 t (idle2 t hc1) (noFlush2 t hc1)]
      rw [outsAt_mid V c t h0 hl hc0 hc1]
      (try dsimp only)
      rw [PhiS_castSucc V c t, PhiS_pos V c _ _ h0]
      iintro ⟨⟨⟨⟨HS0, HS1⟩, Hrest⟩, Hg⟩, Ho, ⟨%d0, H0⟩, ⟨%d1, H1⟩, ⟨%d2, H2⟩⟩
      iapply ((runMid c (grid0.coords t) _ _ _ _ _ _ _ _ _ _ hc0 hc1 (iblk V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverMid0 c _ _ _ _ _ _ _ _ _ _ _ _ _ _ _ _)
            · unfold owns; iexists _; isplitr
              swap; · iexact HS1
              ipureintro; exact View.read_writes_of_cover _ _ _ _ _ (scoverMid1 c _ _ _ _ _ _ _ _ _ _ _ _ _ _ _ _)
          iexact Hrest
        iexact Hg
      isplitl [Ho]; · iexact Ho
      isplitl [H0]; · iexact H0
      isplitl [H1]; · iexists _; iexact H1
      iexists _; iexact H2

/-- The pipeline's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the untouched scoped buffers back: what the totals hold is forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.Stats0

end
-- ==== Proof.KI.Linear.lean ====
/-
  The second region: the kernel that normalises the features and multiplies by the weights, point by point.

  The grid has 20 points; point t reads rows 5000·t … 5000·t + 4999 of the features (128 columns), the four rows [1, 128]
  of statistics and affine parameters and the whole [128, 64] weight matrix (the same blocks at every point), and writes
  rows 5000·t … of the product: entry (r, o) of its block is
  ∑ₖ ((x[r, k] − mean[k]) · rsqrt(var[k] + ε) · γ[k] + β[k]) · W[k, o]  (a change of float format is the identity at the
  ideal instance, and the matrix unit starts from a zero accumulator).
  Here: the block each window holds at a point, what the body's one store leaves in the output block, the body's run on
  any staging buffers, and the pipeline's obligation at every point — for any contents `V` the region is entered with and
  at any float instance.
-/
import proofs.«104982_j16080357556242_1_alg».proof.Proof.Gen.KernelIdeal.Launch
import proofs.«104982_j16080357556242_1_alg».proof.Proof.Gen.KernelIdeal.Skeleton
import proofs.«104982_j16080357556242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the pipeline
    does not fetch, the block index has not moved since the point before. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the pipeline
    does not fetch, the block index has not moved since the point before. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the pipeline
    does not fetch, the block index has not moved since the point before. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the pipeline
    does not fetch, the block index has not moved since the point before. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the pipeline
    does not fetch, the block index has not moved since the point before. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where the pipeline
    does not fetch, the block index has not moved since the point before. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rin0 : Rect S5000x128 := Rect.unit (s := S5000x128) ![0, 0] S5000x128.size inb_S5000x128_S5000x128_0_0
abbrev rin1 : Rect S1x128 := Rect.unit (s := S1x128) ![0, 0] S1x128.size inb_S1x128_S1x128_0_0
abbrev rin2 : Rect S1x128 := Rect.unit (s := S1x128) ![0, 0] S1x128.size inb_S1x128_S1x128_0_0
abbrev rin3 : Rect S1x128 := Rect.unit (s := S1x128) ![0, 0] S1x128.size inb_S1x128_S1x128_0_0
abbrev rin4 : Rect S1x128 := Rect.unit (s := S1x128) ![0, 0] S1x128.size inb_S1x128_S1x128_0_0
abbrev rin5 : Rect S128x64 := Rect.unit (s := S128x64) ![0, 0] S128x64.size inb_S128x64_S128x64_0_0
abbrev rout : Rect S5000x64 := Rect.unit (s := S5000x64) ![0, 0] S5000x64.size inb_S5000x64_S5000x64_0_0

/-- The output block after the body, from the input blocks: its one store, of the body's arithmetic on the blocks it loaded. -/
def out (x0 : Vec F S5000x128 .f32) (x1 : Vec F S1x128 .f32) (x2 : Vec F S1x128 .f32) (x3 : Vec F S1x128 .f32) (x4 : Vec F S1x128 .f32) (x5 : Vec F S128x64 .f32) : Vec F S5000x64 .f32 :=
  View.canon [⟨rout, k1_pay1 (View.ld x0 rin0) (View.ld x1 rin1) (View.ld x2 rin2) (View.ld x3 rin3) (View.ld x4 rin4) (View.ld x5 rin5)⟩]

/-- The one store is of the whole block. -/
theorem cover (p0 : Vec F S5000x64 .f32) (y : S5000x64.Idx) :
    ∃ pc ∈ ([⟨rout, p0⟩] : List (View.Piece (Elt F) S5000x64 .f32)), y ∈ pc.1.set :=
  View.cover_of_tiled [⟨rout, p0⟩] S5000x64.size (by rfl) y

/-! ## The body's triple -/

set_option maxHeartbeats 2000000 in
/-- The body on whole staging memrefs, the inputs' at contents `x`, the output's at anything, runs to the continuation
    holding the inputs' as they were and the output's at `out` of them. -/
theorem sound_kernel (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S5000x64 .f32) (harg7 : arg7.IsWhole)
    (x0 : Vec F S5000x128 .f32) (x1 : Vec F S1x128 .f32) (x2 : Vec F S1x128 .f32) (x3 : Vec F S1x128 .f32) (x4 : Vec F S1x128 .f32) (x5 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out x0 x1 x2 x3 x4 x5)) -∗ K ⟨⟩))
      ⊢ wp frame (wpE (defs₀ (F := F)) Variants.none c none) E (cc1__bn_linear_kernel i arg1 harg1 arg2 harg2 arg3 harg3 arg4 harg4 arg5 harg5 arg6 harg6 arg7 harg7) K := by
  simp only [cc1__bn_linear_kernel_eq_skeleton]; unfold cc1__bn_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _)

/-! ## The pipeline's proof data -/

/-- The region's proof data on core `c`: the arrays as the region finds them; after the body at point `t` each input's
    buffer at its block and the output's at `out` of the input blocks; the invariant the scoped buffers no window stages
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = out (iblk V c 0 t) (iblk V c 1 t) (iblk V c 2 t) (iblk V c 3 t) (iblk V c 4 t) (iblk V c 5 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

set_option maxHeartbeats 1000000 in
/-- The body at any point: the inputs' memrefs hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.Linear

end
-- ==== Proof.KI.Stats2.lean ====
/-
  The third region: the kernel that totals each column of the rectified activations and of their squares, point by point.

  The grid has 20 points; point t reads rows 5000·t … 5000·t + 4999 of the activations (64 columns) and replaces each entry
  by its maximum with zero. Two rows [1, 64] of the kernel's own — the running totals — are carried from point to point:
  reset to zero at the first point, increased at every point by the rectified block's column sums (of the entries, and of
  their squares), and copied into the two output rows at the last point, the only point that writes the outputs back.
  Here: the block the input window holds at a point; the body's run in each of its three cases (first, middle, last
  point); what the totals and outputs hold after each point, by recursion on the point; the invariant that carries the
  totals; and the pipeline's obligation at every point — for any contents `V` the region is entered with, at any float
  instance.
-/
import proofs.«104982_j16080357556242_1_alg».proof.Proof.Gen.KernelIdeal.Launch
import proofs.«104982_j16080357556242_1_alg».proof.Proof.Gen.KernelIdeal.Skeleton
import proofs.«104982_j16080357556242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input window's block -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- The body's first branch: the point is the first of the grid (the totals are reset there). -/
abbrev condFirst (i : grid2.Coords) : Prop := (Scalar.cmpi .ne (Scalar.extui (Scalar.cmpi .eq (BitVec.ofNat 32 (i 0).val) 0#32)) 0#32) = 1#1
theorem hcondFirst : ∀ t : Fin cfg2.N, condFirst (grid2.coords t) ↔ t.val = 0 :=
  (by decide +kernel : ∀ t : Fin grid2.N, condFirst (grid2.coords t) ↔ t.val = 0)
/-- The body's last branch: the point is the last of the grid (the totals are copied out there). -/
abbrev condLast (i : grid2.Coords) : Prop := k2_cond2 i = 1#1
theorem hcondLast : ∀ t : Fin cfg2.N, condLast (grid2.coords t) ↔ t.val = 19 :=
  (by decide +kernel : ∀ t : Fin grid2.N, condLast (grid2.coords t) ↔ t.val = 19)

/-- The input window is live at every point; -/
theorem live0 : ∀ t : Fin cfg2.N, cfg2.idle 0 (grid2.coords t) = false := by decide +kernel
/-- each output window is idle, and not written back, wherever the point is not the last, and live at the last. -/
theorem idle1 : ∀ t : Fin cfg2.N, ¬condLast (grid2.coords t) → cfg2.idle 1 (grid2.coords t) = true := by decide +kernel
theorem noFlush1 : ∀ t : Fin cfg2.N, ¬condLast (grid2.coords t) → (cfg2.win 1).flush t = false := by decide +kernel
theorem live1 : ∀ t : Fin cfg2.N, condLast (grid2.coords t) → cfg2.idle 1 (grid2.coords t) = false := by decide +kernel
theorem idle2 : ∀ t : Fin cfg2.N, ¬condLast (grid2.coords t) → cfg2.idle 2 (grid2.coords t) = true := by decide +kernel
theorem noFlush2 : ∀ t : Fin cfg2.N, ¬condLast (grid2.coords t) → (cfg2.win 2).flush t = false := by decide +kernel
theorem live2 : ∀ t : Fin cfg2.N, condLast (grid2.coords t) → cfg2.idle 2 (grid2.coords t) = false := by decide +kernel

/-! ## The memrefs the body is called with -/

abbrev VO1 : View sig .tc .vmem S1x64 .f32 := (Memref.whole cc2_stg1_0 : Memref sig .tc .vmem S1x64 .f32).view
abbrev VO2 : View sig .tc .vmem S1x64 .f32 := (Memref.whole cc2_stg2_0 : Memref sig .tc .vmem S1x64 .f32).view
abbrev ms0 (t : Fin cfg2.N) : Memref sig .tc .vmem S5000x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x64 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x64 .f32 := win2_2.stage (cfg2.slots t 2)
abbrev hs2 (t : Fin cfg2.N) : (ms2 t).IsWhole := hstage2_2 ((cfg2.slots t 2).cast nbuf2_2)
/-- The two running totals: whole scoped buffers of the kernel's own, carried from point to point. -/
abbrev scM0 : Memref sig .tc .vmem S1x64 .f32 := Memref.whole cc2_scratch0
abbrev scM1 : Memref sig .tc .vmem S1x64 .f32 := Memref.whole cc2_scratch1
abbrev VS0 : View sig .tc .vmem S1x64 .f32 := scM0.view
abbrev VS1 : View sig .tc .vmem S1x64 .f32 := scM1.view

/-- The region's untouched scoped buffers with the two running totals taken out, each owned at some contents. -/
theorem PhiA_eq (c : Dev nD) :
    (Pipeline.ΦA spec2 c : sProp 𝕄)
      = iprop(iprop(iprop((∃ d, owns (c : Thread nD τ) scM0 fullShare d) ∗ (∃ d, owns (c : Thread nD τ) scM1 fullShare d)) ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM0, scM1, owns_whole]; try rfl

/-! ## The body's run, case by case -/

set_option maxHeartbeats 4000000 in
/-- AT THE FIRST POINT (not the last): the totals, whatever they held, are reset and then take the block's column sums; the
    outputs' buffers are handed back untouched. The pieces each total ends with are what the run finds. -/
noncomputable def runFirst (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : condFirst i) (hc1 : ¬condLast i)
    (x0 : Vec F S5000x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, fun xi1 xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- AT A MIDDLE POINT: each total, at what the point before left, takes the block's column sums; the outputs' buffers are
    handed back untouched. -/
noncomputable def runMid (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : ¬condLast i)
    (x0 : Vec F S5000x64 .f32) (xs0 xs1 : Vec F S1x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, fun xi1 xi2 E K => ?run⟩
  case run =>
    simp only [cc2__stats_kernel_eq_skeleton]; unfold cc2__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- AT THE LAST POINT (not the first): each total takes the block's column sums and is then copied into its output's buffer. -/
noncomputable def runLast (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i)
    (x0 : Vec F S5000x64 .f32) (xs0 xs1 : Vec F S1x64 .f32) :
    Σ' (L1 : List (View.Piece (Elt F) S1x64 .f32)), Σ' (L2 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__stats_kernel i arg1 harg1 arg2 harg2 arg3 harg3 arg4 harg4 arg5 harg5) K } := by
  refine ⟨?_, ?_, ?_, ?_, fun E K => ?run⟩
  case run =>
    simp only [cc2__stats_kernel_eq_skeleton]; unfold cc2__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

/-! ## What each case leaves, as contents -/

/-- The pieces a case leaves in a total cover its one row, so reading them back does not depend on what was there. -/
theorem scoverFirst0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : condFirst i) (hc1 : ¬condLast i) (x0 : Vec F S5000x64 .f32) (y : S1x64.Idx) :
    ∃ pc ∈ (runFirst c i arg1 harg1 arg2 harg2 arg3 harg3 arg4 harg4 arg5 harg5 hc0 hc1 x0).1, y ∈ pc.1.set :=
  View.cover_of_tiledL (runFirst c i arg1 harg1 arg2 harg2 arg3 harg3 arg4 harg4 arg5 harg5 hc0 hc1 x0).1 S1x64.size (by sl_kernel_rfl) y
theorem scoverFirst1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : condFirst i) (hc1 : ¬condLast i) (x0 : Vec F S5000x64 .f32) (y : S1x64.Idx) :
    ∃ pc ∈ (runFirst c i arg1 harg1 arg2 harg2 arg3 harg3 arg4 harg4 arg5 harg5 hc0 hc1 x0).2.1, y ∈ pc.1.set :=
  View.cover_of_tiledL (runFirst c i arg1 harg1 arg2 harg2 arg3 harg3 arg4 harg4 arg5 harg5 hc0 hc1 x0).2.1 S1x64.size (by sl_kernel_rfl) y
theorem scoverMid0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : ¬condLast i) (x0 : Vec F S5000x64 .f32) (xs0 xs1 : Vec F S1x64 .f32) (y : S1x64.Idx) :
    ∃ pc ∈ (runMid c i arg1 harg1 arg2 harg2 arg3 harg3 arg4 harg4 arg5 harg5 hc0 hc1 x0 xs0 xs1).1, y ∈ pc.1.set :=
  View.cover_of_tiledL (runMid c i arg1 harg1 arg2 harg2 arg3 harg3 arg4 harg4 arg5 harg5 hc0 hc1 x0 xs0 xs1).1 S1x64.size (by sl_kernel_rfl) y
theorem scoverMid1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : ¬condLast i) (x0 : Vec F S5000x64 .f32) (xs0 xs1 : Vec F S1x64 .f32) (y : S1x64.Idx) :
    ∃ pc ∈ (runMid c i arg1 harg1 arg2 harg2 arg3 harg3 arg4 harg4 arg5 harg5 hc0 hc1 x0 xs0 xs1).2.1, y ∈ pc.1.set :=
  View.cover_of_tiledL (runMid c i arg1 harg1 arg2 harg2 arg3 harg3 arg4 harg4 arg5 harg5 hc0 hc1 x0 xs0 xs1).2.1 S1x64.size (by sl_kernel_rfl) y
theorem coverLast1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i) (x0 : Vec F S5000x64 .f32) (xs0 xs1 : Vec F S1x64 .f32) (y : S1x64.Idx) :
    ∃ pc ∈ (runLast c i arg1 harg1 arg2 harg2 arg3 harg3 arg4 harg4 arg5 harg5 hc0 hc1 x0 xs0 xs1).1, y ∈ pc.1.set :=
  View.cover_of_tiledL (runLast c i arg1 harg1 arg2 harg2 arg3 harg3 arg4 harg4 arg5 harg5 hc0 hc1 x0 xs0 xs1).1 S1x64.size (by sl_kernel_rfl) y
theorem coverLast2 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i) (x0 : Vec F S5000x64 .f32) (xs0 xs1 : Vec F S1x64 .f32) (y : S1x64.Idx) :
    ∃ pc ∈ (runLast c i arg1 harg1 arg2 harg2 arg3 harg3 arg4 harg4 arg5 harg5 hc0 hc1 x0 xs0 xs1).2.1, y ∈ pc.1.set :=
  View.cover_of_tiledL (runLast c i arg1 harg1 arg2 harg2 arg3 harg3 arg4 harg4 arg5 harg5 hc0 hc1 x0 xs0 xs1).2.1 S1x64.size (by sl_kernel_rfl) y
theorem scoverLast0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i) (x0 : Vec F S5000x64 .f32) (xs0 xs1 : Vec F S1x64 .f32) (y : S1x64.Idx) :
    ∃ pc ∈ (runLast c i arg1 harg1 arg2 harg2 arg3 harg3 arg4 harg4 arg5 harg5 hc0 hc1 x0 xs0 xs1).2.2.1, y ∈ pc.1.set :=
  View.cover_of_tiledL (runLast c i arg1 harg1 arg2 harg2 arg3 harg3 arg4 harg4 arg5 harg5 hc0 hc1 x0 xs0 xs1).2.2.1 S1x64.size (by sl_kernel_rfl) y
theorem scoverLast1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬condFirst i) (hc1 : condLast i) (x0 : Vec F S5000x64 .f32) (xs0 xs1 : Vec F S1x64 .f32) (y : S1x64.Idx) :
    ∃ pc ∈ (runLast c i arg1 harg1 arg2 harg2 arg3 harg3 arg4 harg4 arg5 harg5 hc0 hc1 x0 xs0 xs1).2.2.2.1, y ∈ pc.1.set :=
  View.cover_of_tiledL (runLast c i arg1 harg1 arg2 harg2 arg3 harg3 arg4 harg4 arg5 harg5 hc0 hc1 x0 xs0 xs1).2.2.2.1 S1x64.size (by sl_kernel_rfl) y

/-- A list of pieces read back through a view over junk: the contents a buffer holds once the pieces cover it. -/
abbrev rb (v : View sig .tc .vmem S1x64 .f32) (L : List (View.Piece (Elt F) S1x64 .f32)) : Vec F S1x64 .f32 := v.read (Elt F) (v.writes (Elt F) v.junk L)

/-! ## What the totals and the outputs hold after each point -/

/-- THE ACCUMULATION. After the body at position `n`: the two outputs' buffers (a placeholder where the point stores
    nothing into them: nothing consults it there) and the two totals — the first point's case from nothing, every later
    point's case over what the point before left in the totals. -/
def outsAt (c : Dev nD) : (n : ℕ) → n < cfg2.N → (Vec F S1x64 .f32 × Vec F S1x64 .f32) × (Vec F S1x64 .f32 × Vec F S1x64 .f32)
  | 0, hn =>
    ((rb VO1 [], rb VO2 []),
     (rb VS0 (runFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) scM0 (Memref.isWhole_whole _) scM1 (Memref.isWhole_whole _) ((hcondFirst ⟨0, hn⟩).mpr rfl) (fun h => absurd ((hcondLast ⟨0, hn⟩).mp h) (show ¬ (0 : ℕ) = 19 by decide)) (iblk V c 0 ⟨0, hn⟩)).1,
      rb VS1 (runFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) scM0 (Memref.isWhole_whole _) scM1 (Memref.isWhole_whole _) ((hcondFirst ⟨0, hn⟩).mpr rfl) (fun h => absurd ((hcondLast ⟨0, hn⟩).mp h) (show ¬ (0 : ℕ) = 19 by decide)) (iblk V c 0 ⟨0, hn⟩)).2.1))
  | n + 1, hn =>
    if hl : n + 1 = 19 then
      ((rb VO1 (runLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).1,
        rb VO2 (runLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.1),
       (rb VS0 (runLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.2.1,
        rb VS1 (runLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) ((hcondLast ⟨n + 1, hn⟩).mpr hl) (iblk V c 0 ⟨n + 1, hn⟩) (outsAt c n (Nat.lt_of_succ_lt hn)).2.1 (outsAt c n (Nat.lt_of_succ_lt hn)).2.2).2.2.2.1))
    else
      ((rb VO1 [], rb VO2 []),
       (rb VS0 (runMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) (fun h => hl ((hcondLast ⟨n + 1, hn⟩).mp h)) (iblk V c 0 ⟨n + 1, hn⟩) (outsAt c n (Nat.lt_of_succ_lt hn)).2.1 (outsAt c n (Nat.lt_of_succ_lt hn)).2.2).1,
        rb VS1 (runMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM0 (Memref.isWhole_whole _) scM1 (Memref.isWhole_whole _) (fun h => absurd ((hcondFirst ⟨n + 1, hn⟩).mp h) (Nat.succ_ne_zero n)) (fun h => hl ((hcondLast ⟨n + 1, hn⟩).mp h)) (iblk V c 0 ⟨n + 1, hn⟩) (outsAt c n (Nat.lt_of_succ_lt hn)).2.1 (outsAt c n (Nat.lt_of_succ_lt hn)).2.2).2.1))

/-- `outsAt` at the first point. -/
theorem outsAt_first (c : Dev nD) (t : Fin cfg2.N) (h0 : t.val = 0) (hc0 : condFirst (grid2.coords t)) (hc1 : ¬condLast (grid2.coords t)) :
    (outsAt V c t.val t.isLt).2 = (rb VS0 (runFirst c (grid2.coords t) (ms0 t) (hs0 t) (ms1 t) (hs1 t) (ms2 t) (hs2 t) scM0 (Memref.isWhole_whole _) scM1 (Memref.isWhole_whole _) hc0 hc1 (iblk V c 0 t)).1, rb VS1 (runFirst c (grid2.coords t) (ms0 t) (hs0 t) (ms1 t) (hs1 t) (ms2 t) (hs2 t) scM0 (Memref.isWhole_whole _) scM1 (Memref.isWhole_whole _) hc0 hc1 (iblk V c 0 t)).2.1) := by
  obtain ⟨n, hn⟩ := t
  cases n with
  | zero => rfl
  | succ n => exact absurd h0 (Nat.succ_ne_zero n)

/-- `outsAt` at a middle point: the middle case over what the point before left. -/
theorem outsAt_mid (c : Dev nD) (t : Fin cfg2.N) (h0 : t.val ≠ 0) (hl : t.val ≠ 19) (hc0 : ¬condFirst (grid2.coords t)) (hc1 : ¬condLast (grid2.coords t)) :
    (outsAt V c t.val t.isLt).2 = (rb VS0 (runMid c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).1,
      rb VS1 (runMid c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.1) := by
  obtain ⟨n, hn⟩ := t
  cases n with
  | zero => exact absurd rfl h0
  | succ n => exact (congrArg Prod.snd (dif_neg hl)).trans rfl

/-- `outsAt` at the last point: the last case over what the point before left. -/
theorem outsAt_last (c : Dev nD) (t : Fin cfg2.N) (hl : t.val = 19) (hc0 : ¬condFirst (grid2.coords t)) (hc1 : condLast (grid2.coords t)) :
    outsAt V c t.val t.isLt = ((rb VO1 (runLast c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).1,
        rb VO2 (runLast c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.1),
      (rb VS0 (runLast c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.2.1,
        rb VS1 (runLast c (grid2.coords t) (ms0 t) (hs0 t) (ms1 t) (hs1 t) (ms2 t) (hs2 t) scM0 (Memref.isWhole_whole _) scM1 (Memref.isWhole_whole _) hc0 hc1 (iblk V c 0 t) (outsAt V c (t.val - 1) (Nat.lt_of_le_of_lt (Nat.sub_le _ _) t.isLt)).2.1 (outsAt V c (t.val - 1) (Nat.lt_of_le_of_lt (Nat.sub_le _ _) t.isLt)).2.2).2.2.2.1)) := by
  obtain ⟨n, hn⟩ := t
  cases n with
  | zero => exact absurd hl (show ¬ (0 : ℕ) = 19 by decide)
  | succ n => exact (dif_pos hl).trans rfl

/-! ## The invariant that carries the totals -/

/-- Before position `n`: before the first point the region's untouched scoped buffers (each total at anything); afterwards
    the same with each total at what the point before left in it. -/
def PhiS (c : Dev nD) : (n : ℕ) → n ≤ cfg2.N → sProp 𝕄
  | 0, _ => Pipeline.ΦA spec2 c
  | n + 1, hn => iprop(iprop(iprop(owns (c : Thread nD τ) scM0 fullShare (outsAt V c n hn).2.1 ∗ owns (c : Thread nD τ) scM1 fullShare (outsAt V c n hn).2.2) ∗ Pipeline.scopedRestBut (Ix := Unit) (Name := ℕ) (U := UR sig nD τ) (Lvl := ℕ) (Val := Elt F) spec2 c [cc2_scratch0, cc2_scratch1]) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(iprop(owns (c : Thread nD τ) scM0 fullShare (outsAt V c n hn).2.1 ∗ owns (c : Thread nD τ) scM1 fullShare (outsAt V c n hn).2.2) ∗ Pipeline.scopedRestBut (Ix := Unit) (Name := ℕ) (U := UR sig nD τ) (Lvl := ℕ) (Val := Elt F) spec2 c [cc2_scratch0, cc2_scratch1]) ∗ (∃ r, prngReg c r)) := rfl
theorem PhiS_pos (c : Dev nD) (n : ℕ) (h : n ≤ cfg2.N) (hz : n ≠ 0) :
    PhiS V c n h = iprop(iprop(iprop(owns (c : Thread nD τ) scM0 fullShare (outsAt V c (n - 1) (by omega)).2.1 ∗ owns (c : Thread nD τ) scM1 fullShare (outsAt V c (n - 1) (by omega)).2.2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => (outsAt V c t.val t.isLt).1.1
    | ⟨2, _⟩ => (outsAt V c t.val t.isLt).1.2
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after0 (c : Dev nD) (t : Fin cfg2.N) : (dat V c).after 0 t = iblk V c 0 t := by dsimp only [dat]
theorem after1 (c : Dev nD) (t : Fin cfg2.N) : (dat V c).after 1 t = (outsAt V c t.val t.isLt).1.1 := by dsimp only [dat]
theorem after2 (c : Dev nD) (t : Fin cfg2.N) : (dat V c).after 2 t = (outsAt V c t.val t.isLt).1.2 := by dsimp only [dat]
theorem before0 (c : Dev nD) (t : Fin cfg2.N) (d) : (dat V c).before 0 t d = iblk V c 0 t :=
  before0_of V (dat V c) (A_eq V c 0) (after0 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the closed forms of the two conditions say which case the point is in; the invariant hands the
    body the totals at what the point before left (at anything at the first point) and takes them back at this point's. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0]
  rw [show (dat V c).owesAt () t.succ = (dat V c).owesAt () t.castSucc from rfl]
  rw [show (dat V c).Φ t.succ = PhiS V c (t.val + 1) t.isLt from rfl, PhiS_succ]
  have hN : t.val < 20 := lt_of_lt_of_eq t.isLt (show cfg2.N = 20 from N_2)
  rw [show (dat V c).leavesExact 0 t = owns (c : Thread nD τ) (ms0 t) fullShare ((dat V c).after 0 t) from by
    unfold Dat.leavesExact; rw [live0 t], after0]
  by_cases h0 : t.val = 0
  · have hc0 : condFirst (grid2.coords t) := (hcondFirst t).mpr h0
    have hc1 : ¬condLast (grid2.coords t) := fun h => by have := (hcondLast t).mp h; omega
    rw [Dat.leavesExact_idle (dat V c) 1 t (idle1 t hc1) (noFlush1 t hc1), Dat.leavesExact_idle (dat V c) 2 t (idle2 t hc1) (noFlush2 t hc1)]
    rw [outsAt_first V c t h0 hc0 hc1]
    (try dsimp only)
    rw [PhiS_castSucc V c t, PhiS_zero V c _ _ h0, PhiA_eq]
    iintro ⟨⟨⟨⟨HS0, HS1⟩, Hrest⟩, Hg⟩, Ho, ⟨%d0, H0⟩, ⟨%d1, H1⟩, ⟨%d2, H2⟩⟩
    iapply ((runFirst c (grid2.coords t) _ _ _ _ _ _ _ _ _ _ hc0 hc1 (iblk V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverFirst0 c _ _ _ _ _ _ _ _ _ _ _ _ _ _)
          · unfold owns; iexists _; isplitr
            swap; · iexact HS1
            ipureintro; exact View.read_writes_of_cover _ _ _ _ _ (scoverFirst1 c _ _ _ _ _ _ _ _ _ _ _ _ _ _)
        iexact Hrest
      iexact Hg
    isplitl [Ho]; · iexact Ho
    isplitl [H0]; · iexact H0
    isplitl [H1]; · iexists _; iexact H1
    iexists _; iexact H2
  · have hc0 : ¬condFirst (grid2.coords t) := fun h => h0 ((hcondFirst t).mp h)
    by_cases hl : t.val = 19
    · have hc1 : condLast (grid2.coords t) := (hcondLast t).mpr hl
      rw [show (dat V c).leavesExact 1 t = owns (c : Thread nD τ) (ms1 t) fullShare ((dat V c).after 1 t) from by
        unfold Dat.leavesExact; rw [live1 t hc1], after1]
      rw [show (dat V c).leavesExact 2 t = owns (c : Thread nD τ) (ms2 t) fullShare ((dat V c).after 2 t) from by
        unfold Dat.leavesExact; rw [live2 t hc1], after2]
      rw [outsAt_last V c t hl hc0 hc1]
      (try dsimp only)
      rw [PhiS_castSucc V c t, PhiS_pos V c _ _ h0]
      iintro ⟨⟨⟨⟨HS0, HS1⟩, Hrest⟩, Hg⟩, Ho, ⟨%d0, H0⟩, ⟨%d1, H1⟩, ⟨%d2, H2⟩⟩
      iapply ((runLast c (grid2.coords t) _ _ _ _ _ _ _ _ _ _ hc0 hc1 (iblk V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverLast0 c _ _ _ _ _ _ _ _ _ _ _ _ _ _ _ _)
            · unfold owns; iexists _; isplitr
              swap; · iexact HS1
              ipureintro; exact View.read_writes_of_cover _ _ _ _ _ (scoverLast1 c _ _ _ _ _ _ _ _ _ _ _ _ _ _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (coverLast1 c _ _ _ _ _ _ _ _ _ _ _ _ _ _ _ _)
      · unfold owns; iexists _; isplitr
        swap; · iexact H2
        ipureintro; exact View.read_writes_of_cover _ _ _ _ _ (coverLast2 c _ _ _ _ _ _ _ _ _ _ _ _ _ _ _ _)
    · have hc1 : ¬condLast (grid2.coords t) := fun h => hl ((hcondLast t).mp h)
      rw [Dat.leavesExact_idle (dat V c) 1 t (idle1 t hc1) (noFlush1 t hc1), Dat.leavesExact_idle (dat V c) 2 t (idle2 t hc1) (noFlush2 t hc1)]
      rw [outsAt_mid V c t h0 hl hc0 hc1]
      (try dsimp only)
      rw [PhiS_castSucc V c t, PhiS_pos V c _ _ h0]
      iintro ⟨⟨⟨⟨HS0, HS1⟩, Hrest⟩, Hg⟩, Ho, ⟨%d0, H0⟩, ⟨%d1, H1⟩, ⟨%d2, H2⟩⟩
      iapply ((runMid c (grid2.coords t) _ _ _ _ _ _ _ _ _ _ hc0 hc1 (iblk V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverMid0 c _ _ _ _ _ _ _ _ _ _ _ _ _ _ _ _)
            · unfold owns; iexists _; isplitr
              swap; · iexact HS1
              ipureintro; exact View.read_writes_of_cover _ _ _ _ _ (scoverMid1 c _ _ _ _ _ _ _ _ _ _ _ _ _ _ _ _)
          iexact Hrest
        iexact Hg
      isplitl [Ho]; · iexact Ho
      isplitl [H0]; · iexact H0
      isplitl [H1]; · iexists _; iexact H1
      iexists _; iexact H2

/-- The pipeline's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the untouched scoped buffers back: what the totals hold is forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 20 := N_2; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.Stats2

end
-- ==== Proof.KI.Norm.lean ====
/-
  The last region: the normalising kernel, point by point.

  The grid has 20 points; point t reads rows 5000·t … 5000·t + 4999 of the activations (64 columns) and the four rows
  [1, 64] of statistics and affine parameters (the same block at every point), and writes rows 5000·t … of the result:
  entry (r, j) of its block is  (max(a[r, j], 0) − mean[j]) · rsqrt(var[j] + ε) · γ[j] + β[j].
  Here: the block each window holds at a point, what the body's one store leaves in the output block, the body's run on
  any staging buffers, and the pipeline's obligation at every point — for any contents `V` the region is entered with and
  at any float instance.
-/
import proofs.«104982_j16080357556242_1_alg».proof.Proof.Gen.KernelIdeal.Launch
import proofs.«104982_j16080357556242_1_alg».proof.Proof.Gen.KernelIdeal.Skeleton
import proofs.«104982_j16080357556242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where the pipeline
    does not fetch, the block index has not moved since the point before. -/
theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the pipeline
    does not fetch, the block index has not moved since the point before. -/
theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the pipeline
    does not fetch, the block index has not moved since the point before. -/
theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the pipeline
    does not fetch, the block index has not moved since the point before. -/
theorem before3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the pipeline
    does not fetch, the block index has not moved since the point before. -/
theorem before4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rin0 : Rect S5000x64 := Rect.unit (s := S5000x64) ![0, 0] S5000x64.size inb_S5000x64_S5000x64_0_0
abbrev rin1 : Rect S1x64 := Rect.unit (s := S1x64) ![0, 0] S1x64.size inb_S1x64_S1x64_0_0
abbrev rin2 : Rect S1x64 := Rect.unit (s := S1x64) ![0, 0] S1x64.size inb_S1x64_S1x64_0_0
abbrev rin3 : Rect S1x64 := Rect.unit (s := S1x64) ![0, 0] S1x64.size inb_S1x64_S1x64_0_0
abbrev rin4 : Rect S1x64 := Rect.unit (s := S1x64) ![0, 0] S1x64.size inb_S1x64_S1x64_0_0
abbrev rout : Rect S5000x64 := Rect.unit (s := S5000x64) ![0, 0] S5000x64.size inb_S5000x64_S5000x64_0_0

/-- The output block after the body, from the input blocks: its one store, of the body's arithmetic on the blocks it loaded. -/
def out (x0 : Vec F S5000x64 .f32) (x1 : Vec F S1x64 .f32) (x2 : Vec F S1x64 .f32) (x3 : Vec F S1x64 .f32) (x4 : Vec F S1x64 .f32) : Vec F S5000x64 .f32 :=
  View.canon [⟨rout, k3_pay1 (View.ld x0 rin0) (View.ld x1 rin1) (View.ld x2 rin2) (View.ld x3 rin3) (View.ld x4 rin4)⟩]

/-- The one store is of the whole block. -/
theorem cover (p0 : Vec F S5000x64 .f32) (y : S5000x64.Idx) :
    ∃ pc ∈ ([⟨rout, p0⟩] : List (View.Piece (Elt F) S5000x64 .f32)), y ∈ pc.1.set :=
  View.cover_of_tiled [⟨rout, p0⟩] S5000x64.size (by rfl) y

/-! ## The body's triple -/

set_option maxHeartbeats 2000000 in
/-- The body on whole staging memrefs, the inputs' at contents `x`, the output's at anything, runs to the continuation
    holding the inputs' as they were and the output's at `out` of them. -/
theorem sound_kernel (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) -∗ K ⟨⟩))
      ⊢ wp frame (wpE (defs₀ (F := F)) Variants.none c none) E (cc3__relu_bn_kernel i arg1 harg1 arg2 harg2 arg3 harg3 arg4 harg4 arg5 harg5 arg6 harg6) K := by
  simp only [cc3__relu_bn_kernel_eq_skeleton]; unfold cc3__relu_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The region's proof data on core `c`: the arrays as the region finds them; after the body at point `t` each input's
    buffer at its block and the output's at `out` of the input blocks; the invariant the scoped buffers no window stages
    and the generator register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = out (iblk V c 0 t) (iblk V c 1 t) (iblk V c 2 t) (iblk V c 3 t) (iblk V c 4 t) := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d
theorem before3 (c : Dev nD) (t : Fin cfg3.N) (d) : (dat V c).before 3 t d = iblk V c 3 t :=
  before3_of V (dat V c) (A_eq V c 3) (after3 V c) t d
theorem before4 (c : Dev nD) (t : Fin cfg3.N) (d) : (dat V c).before 4 t d = iblk V c 4 t :=
  before4_of V (dat V c) (A_eq V c 4) (after4 V c) t d

/-! ## The body obligation, at a generic point -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

set_option maxHeartbeats 1000000 in
/-- The body at any point: the inputs' memrefs hold their blocks, so the triple applies; the invariant and the core's
    dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W3, bigSep_W3]
  exact sound_body V c t

end Cert.KernelIdeal.Norm

end
-- ==== Proof.KI.Whole.lean ====
/-
  The whole run of the program: its four kernel regions among six stretches of host operations.

  The contents of the TensorCore's unscoped buffers at each boundary are a fold through @main from the launch memory: a
  stretch of host operations applies them; a region leaves its arrays at what its pipeline's write-backs leave and every
  other buffer as entered. Each region is one segment over the thread state "every unscoped buffer at the boundary's
  contents, the generator register at some state, nothing owed", from its own module's proof data and body obligation; the
  two totalling regions carry their running totals in their invariant. The run's conclusion: every weakly fair execution
  terminates and every unscoped buffer ends at the last boundary's contents — at any float instance.
-/
import proofs.«104982_j16080357556242_1_alg».proof.Proof.KI.Stats0
import proofs.«104982_j16080357556242_1_alg».proof.Proof.KI.Linear
import proofs.«104982_j16080357556242_1_alg».proof.Proof.KI.Stats2
import proofs.«104982_j16080357556242_1_alg».proof.Proof.KI.Norm

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- What region 0 leaves: its arrays at what the pipeline's write-backs leave, every other buffer as entered. -/
def W2 (c : Dev nD) : Valuation τ sig (Elt F) :=
  Pipeline.withArrays spec0 c (W1 m ρ c) fun w => (Stats0.dat (V1 m ρ) c).arrAt w cfg0.N
theorem W2_arr (c : Dev nD) (w : Fin cfg0.W) :
    W2 m ρ c (Proc.devRef .tc (Pipeline.arrRef spec0 w)) = (Stats0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Stats0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- What region 1 leaves: its arrays at what the pipeline's write-backs leave, every other buffer as entered. -/
def W4 (c : Dev nD) : Valuation τ sig (Elt F) :=
  Pipeline.withArrays spec1 c (W3 m ρ c) fun w => (Linear.dat (V3 m ρ) c).arrAt w cfg1.N
theorem W4_arr (c : Dev nD) (w : Fin cfg1.W) :
    W4 m ρ c (Proc.devRef .tc (Pipeline.arrRef spec1 w)) = (Linear.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Linear.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev V7 : (c : Dev nD) → (b : Ref sig .tc) → Buf (Elt F) ((c : Thread nD τ).loc b) := fun c b => W7 m ρ c b

/-- What region 2 leaves: its arrays at what the pipeline's write-backs leave, every other buffer as entered. -/
def W8 (c : Dev nD) : Valuation τ sig (Elt F) :=
  Pipeline.withArrays spec2 c (W7 m ρ c) fun w => (Stats2.dat (V7 m ρ) c).arrAt w cfg2.N
theorem W8_arr (c : Dev nD) (w : Fin cfg2.W) :
    W8 m ρ c (Proc.devRef .tc (Pipeline.arrRef spec2 w)) = (Stats2.dat (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (Stats2.dat (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- What region 3 leaves: its arrays at what the pipeline's write-backs leave, every other buffer as entered. -/
def W10 (c : Dev nD) : Valuation τ sig (Elt F) :=
  Pipeline.withArrays spec3 c (W9 m ρ c) fun w => (Norm.dat (V9 m ρ) c).arrAt w cfg3.N
theorem W10_arr (c : Dev nD) (w : Fin cfg3.W) :
    W10 m ρ c (Proc.devRef .tc (Pipeline.arrRef spec3 w)) = (Norm.dat (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (Norm.dat (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Stats0.dat (V1 m ρ) c
  | ⟨1, _⟩ => fun c => Linear.dat (V3 m ρ) c
  | ⟨2, _⟩ => fun c => Stats2.dat (V7 m ρ) c
  | ⟨3, _⟩ => fun c => Norm.dat (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W1`, left with them at `W2`. Its
    arrays are split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Stats0.hin (V1 m ρ) c)
    unfold Pipeline.ΦA
    iintro ⟨Hp, -, Hr⟩
    isplitl [Hr]; · iexact Hr
    iexact Hp
  hout c := by
    rw [Pipeline.ownSems0_none]
    refine BIBase.Entails.trans (Stats0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Linear.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its
    arrays are split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Stats2.body_obligation (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Stats2.hin (V7 m ρ) c)
    unfold Pipeline.ΦA
    iintro ⟨Hp, -, Hr⟩
    isplitl [Hr]; · iexact Hr
    iexact Hp
  hout c := by
    rw [Pipeline.ownSems0_none]
    refine BIBase.Entails.trans (Stats2.hout (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its
    arrays are split out of the unscoped buffers and put back at the exit contents; the generator register goes into the
    region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Norm.body_obligation (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)),
    .region (reg3 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer of core `c` at the last boundary's contents `W10 c`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Whole

end
-- ==== Proof.KI.Args.lean ====
/-
  The argument arrays end unchanged: each argument's buffer, followed back through the boundaries' contents from the last to
  the launch, is never written — no host operation writes an argument, and a region reads an argument only through an input
  window, whose array it leaves as it found it. With the whole run this is the program's frame claim, at any float instance.
-/
import proofs.«104982_j16080357556242_1_alg».proof.Proof.KI.Whole
import proofs.«104982_j16080357556242_1_alg».proof.Proof.Gen.KernelIdeal.Regions

set_option maxRecDepth 16384

noncomputable section

namespace Cert.KernelIdeal.Args

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Argument 0's buffer ends at its launch contents: no host operation writes it, and a region either reads it
    through an input window or leaves it alone. -/
theorem W10_main_arg0 (c : Dev nD) : Whole.W10 m ρ c (Proc.devRef .tc main_arg0) = m ((c : Thread nD τ).loc main_arg0) :=
  calc Whole.W10 m ρ c (Proc.devRef .tc main_arg0)
    _ = Whole.W9 m ρ c (Proc.devRef .tc main_arg0) := Whole.W10_of_ne m ρ c main_arg0 (by decide)
    _ = Whole.W8 m ρ c (Proc.devRef .tc main_arg0) := StableHlo.after_of_writes_sub hostOps3 _ hostOps3_writes (by decide)
    _ = Whole.W7 m ρ c (Proc.devRef .tc main_arg0) := Whole.W8_of_ne m ρ c main_arg0 (by decide)
    _ = Whole.W6 m ρ c (Proc.devRef .tc main_arg0) := StableHlo.after_of_writes_sub hostOps2_2 _ hostOps2_2_writes (by decide)
    _ = Whole.W5 m ρ c (Proc.devRef .tc main_arg0) := StableHlo.after_of_writes_sub hostOps2_1 _ hostOps2_1_writes (by decide)
    _ = Whole.W4 m ρ c (Proc.devRef .tc main_arg0) := StableHlo.after_of_writes_sub hostOps2 _ hostOps2_writes (by decide)
    _ = Whole.W3 m ρ c (Proc.devRef .tc main_arg0) := (Whole.W4_arr m ρ c 0).trans (((Linear.dat (Whole.V3 m ρ) c).arrAt_in 0 rfl _).trans (Linear.A_eq (Whole.V3 m ρ) c 0))
    _ = Whole.W2 m ρ c (Proc.devRef .tc main_arg0) := StableHlo.after_of_writes_sub hostOps1 _ hostOps1_writes (by decide)
    _ = Whole.W1 m ρ c (Proc.devRef .tc main_arg0) := (Whole.W2_arr m ρ c 0).trans (((Stats0.dat (Whole.V1 m ρ) c).arrAt_in 0 rfl _).trans (Stats0.A_eq (Whole.V1 m ρ) c 0))
    _ = Whole.W0 m ρ c (Proc.devRef .tc main_arg0) := StableHlo.after_of_writes_sub hostOps0 _ hostOps0_writes (by decide)
    _ = m ((c : Thread nD τ).loc main_arg0) := rfl

/-- Argument 1's buffer ends at its launch contents: no host operation writes it, and a region either reads it
    through an input window or leaves it alone. -/
theorem W10_main_arg1 (c : Dev nD) : Whole.W10 m ρ c (Proc.devRef .tc main_arg1) = m ((c : Thread nD τ).loc main_arg1) :=
  calc Whole.W10 m ρ c (Proc.devRef .tc main_arg1)
    _ = Whole.W9 m ρ c (Proc.devRef .tc main_arg1) := Whole.W10_of_ne m ρ c main_arg1 (by decide)
    _ = Whole.W8 m ρ c (Proc.devRef .tc main_arg1) := StableHlo.after_of_writes_sub hostOps3 _ hostOps3_writes (by decide)
    _ = Whole.W7 m ρ c (Proc.devRef .tc main_arg1) := Whole.W8_of_ne m ρ c main_arg1 (by decide)
    _ = Whole.W6 m ρ c (Proc.devRef .tc main_arg1) := StableHlo.after_of_writes_sub hostOps2_2 _ hostOps2_2_writes (by decide)
    _ = Whole.W5 m ρ c (Proc.devRef .tc main_arg1) := StableHlo.after_of_writes_sub hostOps2_1 _ hostOps2_1_writes (by decide)
    _ = Whole.W4 m ρ c (Proc.devRef .tc main_arg1) := StableHlo.after_of_writes_sub hostOps2 _ hostOps2_writes (by decide)
    _ = Whole.W3 m ρ c (Proc.devRef .tc main_arg1) := Whole.W4_of_ne m ρ c main_arg1 (by decide)
    _ = Whole.W2 m ρ c (Proc.devRef .tc main_arg1) := StableHlo.after_of_writes_sub hostOps1 _ hostOps1_writes (by decide)
    _ = Whole.W1 m ρ c (Proc.devRef .tc main_arg1) := Whole.W2_of_ne m ρ c main_arg1 (by decide)
    _ = Whole.W0 m ρ c (Proc.devRef .tc main_arg1) := StableHlo.after_of_writes_sub hostOps0 _ hostOps0_writes (by decide)
    _ = m ((c : Thread nD τ).loc main_arg1) := rfl

/-- Argument 2's buffer ends at its launch contents: no host operation writes it, and a region either reads it
    through an input window or leaves it alone. -/
theorem W10_main_arg2 (c : Dev nD) : Whole.W10 m ρ c (Proc.devRef .tc main_arg2) = m ((c : Thread nD τ).loc main_arg2) :=
  calc Whole.W10 m ρ c (Proc.devRef .tc main_arg2)
    _ = Whole.W9 m ρ c (Proc.devRef .tc main_arg2) := Whole.W10_of_ne m ρ c main_arg2 (by decide)
    _ = Whole.W8 m ρ c (Proc.devRef .tc main_arg2) := StableHlo.after_of_writes_sub hostOps3 _ hostOps3_writes (by decide)
    _ = Whole.W7 m ρ c (Proc.devRef .tc main_arg2) := Whole.W8_of_ne m ρ c main_arg2 (by decide)
    _ = Whole.W6 m ρ c (Proc.devRef .tc main_arg2) := StableHlo.after_of_writes_sub hostOps2_2 _ hostOps2_2_writes (by decide)
    _ = Whole.W5 m ρ c (Proc.devRef .tc main_arg2) := StableHlo.after_of_writes_sub hostOps2_1 _ hostOps2_1_writes (by decide)
    _ = Whole.W4 m ρ c (Proc.devRef .tc main_arg2) := StableHlo.after_of_writes_sub hostOps2 _ hostOps2_writes (by decide)
    _ = Whole.W3 m ρ c (Proc.devRef .tc main_arg2) := Whole.W4_of_ne m ρ c main_arg2 (by decide)
    _ = Whole.W2 m ρ c (Proc.devRef .tc main_arg2) := StableHlo.after_of_writes_sub hostOps1 _ hostOps1_writes (by decide)
    _ = Whole.W1 m ρ c (Proc.devRef .tc main_arg2) := Whole.W2_of_ne m ρ c main_arg2 (by decide)
    _ = Whole.W0 m ρ c (Proc.devRef .tc main_arg2) := StableHlo.after_of_writes_sub hostOps0 _ hostOps0_writes (by decide)
    _ = m ((c : Thread nD τ).loc main_arg2) := rfl

/-- Argument 3's buffer ends at its launch contents: no host operation writes it, and a region either reads it
    through an input window or leaves it alone. -/
theorem W10_main_arg3 (c : Dev nD) : Whole.W10 m ρ c (Proc.devRef .tc main_arg3) = m ((c : Thread nD τ).loc main_arg3) :=
  calc Whole.W10 m ρ c (Proc.devRef .tc main_arg3)
    _ = Whole.W9 m ρ c (Proc.devRef .tc main_arg3) := Whole.W10_of_ne m ρ c main_arg3 (by decide)
    _ = Whole.W8 m ρ c (Proc.devRef .tc main_arg3) := StableHlo.after_of_writes_sub hostOps3 _ hostOps3_writes (by decide)
    _ = Whole.W7 m ρ c (Proc.devRef .tc main_arg3) := Whole.W8_of_ne m ρ c main_arg3 (by decide)
    _ = Whole.W6 m ρ c (Proc.devRef .tc main_arg3) := StableHlo.after_of_writes_sub hostOps2_2 _ hostOps2_2_writes (by decide)
    _ = Whole.W5 m ρ c (Proc.devRef .tc main_arg3) := StableHlo.after_of_writes_sub hostOps2_1 _ hostOps2_1_writes (by decide)
    _ = Whole.W4 m ρ c (Proc.devRef .tc main_arg3) := StableHlo.after_of_writes_sub hostOps2 _ hostOps2_writes (by decide)
    _ = Whole.W3 m ρ c (Proc.devRef .tc main_arg3) := Whole.W4_of_ne m ρ c main_arg3 (by decide)
    _ = Whole.W2 m ρ c (Proc.devRef .tc main_arg3) := StableHlo.after_of_writes_sub hostOps1 _ hostOps1_writes (by decide)
    _ = Whole.W1 m ρ c (Proc.devRef .tc main_arg3) := Whole.W2_of_ne m ρ c main_arg3 (by decide)
    _ = Whole.W0 m ρ c (Proc.devRef .tc main_arg3) := StableHlo.after_of_writes_sub hostOps0 _ hostOps0_writes (by decide)
    _ = m ((c : Thread nD τ).loc main_arg3) := rfl

/-- Argument 4's buffer ends at its launch contents: no host operation writes it, and a region either reads it
    through an input window or leaves it alone. -/
theorem W10_main_arg4 (c : Dev nD) : Whole.W10 m ρ c (Proc.devRef .tc main_arg4) = m ((c : Thread nD τ).loc main_arg4) :=
  calc Whole.W10 m ρ c (Proc.devRef .tc main_arg4)
    _ = Whole.W9 m ρ c (Proc.devRef .tc main_arg4) := Whole.W10_of_ne m ρ c main_arg4 (by decide)
    _ = Whole.W8 m ρ c (Proc.devRef .tc main_arg4) := StableHlo.after_of_writes_sub hostOps3 _ hostOps3_writes (by decide)
    _ = Whole.W7 m ρ c (Proc.devRef .tc main_arg4) := Whole.W8_of_ne m ρ c main_arg4 (by decide)
    _ = Whole.W6 m ρ c (Proc.devRef .tc main_arg4) := StableHlo.after_of_writes_sub hostOps2_2 _ hostOps2_2_writes (by decide)
    _ = Whole.W5 m ρ c (Proc.devRef .tc main_arg4) := StableHlo.after_of_writes_sub hostOps2_1 _ hostOps2_1_writes (by decide)
    _ = Whole.W4 m ρ c (Proc.devRef .tc main_arg4) := StableHlo.after_of_writes_sub hostOps2 _ hostOps2_writes (by decide)
    _ = Whole.W3 m ρ c (Proc.devRef .tc main_arg4) := (Whole.W4_arr m ρ c 5).trans (((Linear.dat (Whole.V3 m ρ) c).arrAt_in 5 rfl _).trans (Linear.A_eq (Whole.V3 m ρ) c 5))
    _ = Whole.W2 m ρ c (Proc.devRef .tc main_arg4) := StableHlo.after_of_writes_sub hostOps1 _ hostOps1_writes (by decide)
    _ = Whole.W1 m ρ c (Proc.devRef .tc main_arg4) := Whole.W2_of_ne m ρ c main_arg4 (by decide)
    _ = Whole.W0 m ρ c (Proc.devRef .tc main_arg4) := StableHlo.after_of_writes_sub hostOps0 _ hostOps0_writes (by decide)
    _ = m ((c : Thread nD τ).loc main_arg4) := rfl

/-- Argument 5's buffer ends at its launch contents: no host operation writes it, and a region either reads it
    through an input window or leaves it alone. -/
theorem W10_main_arg5 (c : Dev nD) : Whole.W10 m ρ c (Proc.devRef .tc main_arg5) = m ((c : Thread nD τ).loc main_arg5) :=
  calc Whole.W10 m ρ c (Proc.devRef .tc main_arg5)
    _ = Whole.W9 m ρ c (Proc.devRef .tc main_arg5) := Whole.W10_of_ne m ρ c main_arg5 (by decide)
    _ = Whole.W8 m ρ c (Proc.devRef .tc main_arg5) := StableHlo.after_of_writes_sub hostOps3 _ hostOps3_writes (by decide)
    _ = Whole.W7 m ρ c (Proc.devRef .tc main_arg5) := Whole.W8_of_ne m ρ c main_arg5 (by decide)
    _ = Whole.W6 m ρ c (Proc.devRef .tc main_arg5) := StableHlo.after_of_writes_sub hostOps2_2 _ hostOps2_2_writes (by decide)
    _ = Whole.W5 m ρ c (Proc.devRef .tc main_arg5) := StableHlo.after_of_writes_sub hostOps2_1 _ hostOps2_1_writes (by decide)
    _ = Whole.W4 m ρ c (Proc.devRef .tc main_arg5) := StableHlo.after_of_writes_sub hostOps2 _ hostOps2_writes (by decide)
    _ = Whole.W3 m ρ c (Proc.devRef .tc main_arg5) := Whole.W4_of_ne m ρ c main_arg5 (by decide)
    _ = Whole.W2 m ρ c (Proc.devRef .tc main_arg5) := StableHlo.after_of_writes_sub hostOps1 _ hostOps1_writes (by decide)
    _ = Whole.W1 m ρ c (Proc.devRef .tc main_arg5) := Whole.W2_of_ne m ρ c main_arg5 (by decide)
    _ = Whole.W0 m ρ c (Proc.devRef .tc main_arg5) := StableHlo.after_of_writes_sub hostOps0 _ hostOps0_writes (by decide)
    _ = m ((c : Thread nD τ).loc main_arg5) := rfl

/-- Argument 6's buffer ends at its launch contents: no host operation writes it, and a region either reads it
    through an input window or leaves it alone. -/
theorem W10_main_arg6 (c : Dev nD) : Whole.W10 m ρ c (Proc.devRef .tc main_arg6) = m ((c : Thread nD τ).loc main_arg6) :=
  calc Whole.W10 m ρ c (Proc.devRef .tc main_arg6)
    _ = Whole.W9 m ρ c (Proc.devRef .tc main_arg6) := Whole.W10_of_ne m ρ c main_arg6 (by decide)
    _ = Whole.W8 m ρ c (Proc.devRef .tc main_arg6) := StableHlo.after_of_writes_sub hostOps3 _ hostOps3_writes (by decide)
    _ = Whole.W7 m ρ c (Proc.devRef .tc main_arg6) := Whole.W8_of_ne m ρ c main_arg6 (by decide)
    _ = Whole.W6 m ρ c (Proc.devRef .tc main_arg6) := StableHlo.after_of_writes_sub hostOps2_2 _ hostOps2_2_writes (by decide)
    _ = Whole.W5 m ρ c (Proc.devRef .tc main_arg6) := StableHlo.after_of_writes_sub hostOps2_1 _ hostOps2_1_writes (by decide)
    _ = Whole.W4 m ρ c (Proc.devRef .tc main_arg6) := StableHlo.after_of_writes_sub hostOps2 _ hostOps2_writes (by decide)
    _ = Whole.W3 m ρ c (Proc.devRef .tc main_arg6) := Whole.W4_of_ne m ρ c main_arg6 (by decide)
    _ = Whole.W2 m ρ c (Proc.devRef .tc main_arg6) := StableHlo.after_of_writes_sub hostOps1 _ hostOps1_writes (by decide)
    _ = Whole.W1 m ρ c (Proc.devRef .tc main_arg6) := Whole.W2_of_ne m ρ c main_arg6 (by decide)
    _ = Whole.W0 m ρ c (Proc.devRef .tc main_arg6) := StableHlo.after_of_writes_sub hostOps0 _ hostOps0_writes (by decide)
    _ = m ((c : Thread nD τ).loc main_arg6) := rfl

/-- Argument 7's buffer ends at its launch contents: no host operation writes it, and a region either reads it
    through an input window or leaves it alone. -/
theorem W10_main_arg7 (c : Dev nD) : Whole.W10 m ρ c (Proc.devRef .tc main_arg7) = m ((c : Thread nD τ).loc main_arg7) :=
  calc Whole.W10 m ρ c (Proc.devRef .tc main_arg7)
    _ = Whole.W9 m ρ c (Proc.devRef .tc main_arg7) := Whole.W10_of_ne m ρ c main_arg7 (by decide)
    _ = Whole.W8 m ρ c (Proc.devRef .tc main_arg7) := StableHlo.after_of_writes_sub hostOps3 _ hostOps3_writes (by decide)
    _ = Whole.W7 m ρ c (Proc.devRef .tc main_arg7) := Whole.W8_of_ne m ρ c main_arg7 (by decide)
    _ = Whole.W6 m ρ c (Proc.devRef .tc main_arg7) := StableHlo.after_of_writes_sub hostOps2_2 _ hostOps2_2_writes (by decide)
    _ = Whole.W5 m ρ c (Proc.devRef .tc main_arg7) := StableHlo.after_of_writes_sub hostOps2_1 _ hostOps2_1_writes (by decide)
    _ = Whole.W4 m ρ c (Proc.devRef .tc main_arg7) := StableHlo.after_of_writes_sub hostOps2 _ hostOps2_writes (by decide)
    _ = Whole.W3 m ρ c (Proc.devRef .tc main_arg7) := Whole.W4_of_ne m ρ c main_arg7 (by decide)
    _ = Whole.W2 m ρ c (Proc.devRef .tc main_arg7) := StableHlo.after_of_writes_sub hostOps1 _ hostOps1_writes (by decide)
    _ = Whole.W1 m ρ c (Proc.devRef .tc main_arg7) := Whole.W2_of_ne m ρ c main_arg7 (by decide)
    _ = Whole.W0 m ρ c (Proc.devRef .tc main_arg7) := StableHlo.after_of_writes_sub hostOps0 _ hostOps0_writes (by decide)
    _ = m ((c : Thread nD τ).loc main_arg7) := rfl

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (Whole.mem_uc main_arg0 (by decide))).trans (W10_main_arg0 m ρ c),
      (h c _ (Whole.mem_uc main_arg1 (by decide))).trans (W10_main_arg1 m ρ c),
      (h c _ (Whole.mem_uc main_arg2 (by decide))).trans (W10_main_arg2 m ρ c),
      (h c _ (Whole.mem_uc main_arg3 (by decide))).trans (W10_main_arg3 m ρ c),
      (h c _ (Whole.mem_uc main_arg4 (by decide))).trans (W10_main_arg4 m ρ c),
      (h c _ (Whole.mem_uc main_arg5 (by decide))).trans (W10_main_arg5 m ρ c),
      (h c _ (Whole.mem_uc main_arg6 (by decide))).trans (W10_main_arg6 m ρ c),
      (h c _ (Whole.mem_uc main_arg7 (by decide))).trans (W10_main_arg7 m ρ c)⟩) (Whole.run m ρ)

end Cert.KernelIdeal.Args

end
-- ==== Proof.KI.HostBasics.lean ====
/-
  What the idealized kernel program's host operations outside the graph-convolution stage compute, read off the boundaries'
  contents: before the first region the host reshapes the four affine parameter vectors into rows; after the first and after
  the third region it divides each pair of column totals by the number of rows (100000) to get a mean and a mean of squares,
  and takes  mean of squares − mean²  as the variance.
-/
import proofs.«104982_j16080357556242_1_alg».proof.Proof.KI.Whole
import proofs.«104982_j16080357556242_1_alg».proof.Proof.Gen.KernelIdeal.Regions
import Idealize.ShloMosaic.Lib.StableHlo.Run
import Idealize.ShloMosaic.PureOps.Ideal
import Idealize.ShloMosaic.PureOps.Ideal.Laws

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The first stretch: the affine parameters as rows -/

theorem W1_v0 (c : Dev nD) : Whole.W1 m ρ c (Proc.devRef .tc main_v0)
    = shapeCast S1x128 (m ((c : Thread nD τ).loc main_arg2)) shapeCasts_S128_S1x128 := by
  show StableHlo.after hostOps0 (Whole.W0 m ρ c) (Proc.devRef .tc main_v0) = _
  after_results; rfl
theorem W1_v1 (c : Dev nD) : Whole.W1 m ρ c (Proc.devRef .tc main_v1)
    = shapeCast S1x128 (m ((c : Thread nD τ).loc main_arg3)) shapeCasts_S128_S1x128 := by
  show StableHlo.after hostOps0 (Whole.W0 m ρ c) (Proc.devRef .tc main_v1) = _
  after_results; rfl
theorem W1_v2 (c : Dev nD) : Whole.W1 m ρ c (Proc.devRef .tc main_v2)
    = shapeCast S1x64 (m ((c : Thread nD τ).loc main_arg6)) shapeCasts_S64_S1x64 := by
  show StableHlo.after hostOps0 (Whole.W0 m ρ c) (Proc.devRef .tc main_v2) = _
  after_results; rfl
theorem W1_v3 (c : Dev nD) : Whole.W1 m ρ c (Proc.devRef .tc main_v3)
    = shapeCast S1x64 (m ((c : Thread nD τ).loc main_arg7)) shapeCasts_S64_S1x64 := by
  show StableHlo.after hostOps0 (Whole.W0 m ρ c) (Proc.devRef .tc main_v3) = _
  after_results; rfl

/-! ## The second and the last stretch: mean and variance from the two totals -/

/-- The row of means from a row of totals. -/
def meanOf {s : Shape} (tot : FVec Ideal s .f32) (hb : S_.BroadcastsInDim s (![] : Fin 0 → Fin s.rank)) : FVec Ideal s .f32 :=
  Host.divf tot (broadcastInDim s ![] hb (constant (F := Ideal) S_ .f32 0x47C35000#32))
/-- The row of variances from the rows of totals and of totals of squares: the mean of squares less the squared mean. -/
def varOf {s : Shape} (tot totsq : FVec Ideal s .f32) (hb : S_.BroadcastsInDim s (![] : Fin 0 → Fin s.rank)) : FVec Ideal s .f32 :=
  subf (meanOf totsq hb) (mulf (meanOf tot hb) (meanOf tot hb))

theorem W3_v6 (c : Dev nD) : Whole.W3 m ρ c (Proc.devRef .tc main_v6)
    = meanOf (Whole.W2 m ρ c (Proc.devRef .tc main_v4_0)) bcast_S_S1x128 := by
  show StableHlo.after hostOps1 (Whole.W2 m ρ c) (Proc.devRef .tc main_v6) = _
  after_results; rfl
theorem W3_v10 (c : Dev nD) : Whole.W3 m ρ c (Proc.devRef .tc main_v10)
    = varOf (Whole.W2 m ρ c (Proc.devRef .tc main_v4_0)) (Whole.W2 m ρ c (Proc.devRef .tc main_v4_1)) bcast_S_S1x128 := by
  show StableHlo.after hostOps1 (Whole.W2 m ρ c) (Proc.devRef .tc main_v10) = _
  after_results; rfl
theorem W9_v60 (c : Dev nD) : Whole.W9 m ρ c (Proc.devRef .tc main_v60)
    = meanOf (Whole.W8 m ρ c (Proc.devRef .tc main_v58_0)) bcast_S_S1x64 := by
  show StableHlo.after hostOps3 (Whole.W8 m ρ c) (Proc.devRef .tc main_v60) = _
  after_results; rfl
theorem W9_v64 (c : Dev nD) : Whole.W9 m ρ c (Proc.devRef .tc main_v64)
    = varOf (Whole.W8 m ρ c (Proc.devRef .tc main_v58_0)) (Whole.W8 m ρ c (Proc.devRef .tc main_v58_1)) bcast_S_S1x64 := by
  show StableHlo.after hostOps3 (Whole.W8 m ρ c) (Proc.devRef .tc main_v64) = _
  after_results; rfl

end Cert.KernelIdeal.HostReads

end
-- ==== Proof.Mid.lean ====
/-
  The graph-convolution stage both programs run on the host between the two normalisations, as ONE function of the
  projected features `h` [100000, 64], the edge list `ei` [2, 1600000] and the bias [64].

  With self loops appended (edge e ≥ 1600000 joins node e − 1600000 to itself), `row` and `col` are the edges' sources and
  targets; `deg` counts the edges into each node (an accumulating scatter of ones), `dinv` is `deg ^ (−1/2)` where `deg > 0` and
  0 elsewhere, an edge's weight is `dinv[row] · dinv[col]` (a negative index wraps once; a gather clamps), its message the
  source's row of `h` times that weight, and the result sums the messages into their targets' rows and adds the bias.
  Both programs apply exactly these operations, so the certificate never opens them except to see that they keep finite
  entries finite.
-/
import proofs.«104982_j16080357556242_1_alg».proof.ReferenceIdeal
import proofs.«104982_j16080357556242_1_alg».proof.Proof.Gen.ReferenceIdeal

noncomputable section

namespace Cert.ReferenceIdeal.Mid

open Cert.ReferenceIdeal Cert.ReferenceIdeal.Gen Idealize.ShloMosaic

variable {F : FTy → Type} [FloatOps F]

/-- The edges' targets, self loops appended. -/
def col (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edges' sources, self loops appended. -/
def row (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- A negative index wraps once: 100000 is added to it. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- How many edges end at each node: ones summed into their targets. -/
def deg (ei : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (col ei)) (broadcastInDim S1700000 ![] bcast_S_S1700000 (constant S_ .f32 0x3F800000#32))

/-- `deg ^ (−1/2)` where the degree is positive, 0 elsewhere. -/
def dinv (ei : IVec S2x1600000 32) : FVec F S100000 .f32 :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))

/-- An edge's weight: the product of its two ends' `dinv`. -/
def norm (ei : IVec S2x1600000 32) : FVec F S1700000 .f32 :=
  mulf (Host.gather gather_S100000_S1700000x1_S1700000_n_0_n_n_0_1_1 (dinv ei) (broadcastInDim S1700000x1 ![0] bcast_S1700000_S1700000x1_0 (wrap (row ei))))
    (Host.gather gather_S100000_S1700000x1_S1700000_n_0_n_n_0_1_1 (dinv ei) (broadcastInDim S1700000x1 ![0] bcast_S1700000_S1700000x1_0 (wrap (col ei))))

/-- An edge's message: its source's row of `h`, times the edge's weight. -/
def msgs (h : FVec F S100000x64 .f32) (ei : IVec S2x1600000 32) : FVec F S1700000x64 .f32 :=
  mulf (Host.gather gather_S100000x64_S1700000x1_S1700000x64_1_0_n_n_0_1_164 h (broadcastInDim S1700000x1 ![0] bcast_S1700000_S1700000x1_0 (wrap (row ei))))
    (broadcastInDim S1700000x64 ![0, 1] bcast_S1700000x1_S1700000x64_0_1 (broadcastInDim S1700000x1 ![0] bcast_S1700000_S1700000x1_0 (norm ei)))

/-- The stage's result: the messages summed into their targets' rows, plus the bias. -/
def out (h : FVec F S100000x64 .f32) (ei : IVec S2x1600000 32) (bias : FVec F S64 .f32) : FVec F S100000x64 .f32 :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (col ei)) (msgs h ei))
    (broadcastInDim S100000x64 ![0, 1] bcast_S1x64_S100000x64_0_1 (broadcastInDim S1x64 ![1] bcast_S64_S1x64_1 bias))

/-- The same stage with the edges' ends and the nodes' `dinv` as parameters: what the last of the host's three stretches
    computes from the first two's results. -/
def outOf (h : FVec F S100000x64 .f32) (rowv colv : IVec S1700000 32) (dinvv : FVec F S100000 .f32) (bias : FVec F S64 .f32) : FVec F S100000x64 .f32 :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 colv)
      (mulf (Host.gather gather_S100000x64_S1700000x1_S1700000x64_1_0_n_n_0_1_164 h (broadcastInDim S1700000x1 ![0] bcast_S1700000_S1700000x1_0 (wrap rowv)))
        (broadcastInDim S1700000x64 ![0, 1] bcast_S1700000x1_S1700000x64_0_1 (broadcastInDim S1700000x1 ![0] bcast_S1700000_S1700000x1_0
          (mulf (Host.gather gather_S100000_S1700000x1_S1700000_n_0_n_n_0_1_1 dinvv (broadcastInDim S1700000x1 ![0] bcast_S1700000_S1700000x1_0 (wrap rowv)))
            (Host.gather gather_S100000_S1700000x1_S1700000_n_0_n_n_0_1_1 dinvv (broadcastInDim S1700000x1 ![0] bcast_S1700000_S1700000x1_0 (wrap colv))))))))
    (broadcastInDim S100000x64 ![0, 1] bcast_S1x64_S100000x64_0_1 (broadcastInDim S1x64 ![1] bcast_S64_S1x64_1 bias))

theorem out_outOf (h : FVec F S100000x64 .f32) (ei : IVec S2x1600000 32) (bias : FVec F S64 .f32) :
    out h ei bias = outOf h (row ei) (col ei) (dinv ei) bias := rfl

end Cert.ReferenceIdeal.Mid

end
-- ==== Proof.KI.HostMid.lean ====
/-
  The first two of the host's three stretches between the second and the third region: the edges' sources and targets with self loops appended, the nodes' degrees, and `dinv` — the pieces of the graph-convolution stage `Mid.out` that depend on the edge list alone.
-/
import proofs.«104982_j16080357556242_1_alg».proof.Proof.KI.HostBasics
import proofs.«104982_j16080357556242_1_alg».proof.Proof.Mid

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- After the first middle stretch: the edges' sources, -/
theorem W5_v15 (c : Dev nD) : Whole.W5 m ρ c (Proc.devRef .tc main_v15) = Cert.ReferenceIdeal.Mid.row (Whole.W4 m ρ c (Proc.devRef .tc main_arg1)) := by
  show StableHlo.after hostOps2 (Whole.W4 m ρ c) (Proc.devRef .tc main_v15) = _
  generalize Whole.W4 m ρ c = W
  after_results
  all_goals rfl
/-- their targets, -/
theorem W5_v18 (c : Dev nD) : Whole.W5 m ρ c (Proc.devRef .tc main_v18) = Cert.ReferenceIdeal.Mid.col (Whole.W4 m ρ c (Proc.devRef .tc main_arg1)) := by
  show StableHlo.after hostOps2 (Whole.W4 m ρ c) (Proc.devRef .tc main_v18) = _
  generalize Whole.W4 m ρ c = W
  after_results
  all_goals rfl
/-- the nodes' degrees, -/
theorem W5_v22 (c : Dev nD) : Whole.W5 m ρ c (Proc.devRef .tc main_v22) = Cert.ReferenceIdeal.Mid.deg (F := Ideal) (Whole.W4 m ρ c (Proc.devRef .tc main_arg1)) := by
  show StableHlo.after hostOps2 (Whole.W4 m ρ c) (Proc.devRef .tc main_v22) = _
  generalize Whole.W4 m ρ c = W
  after_results
  all_goals rfl
/-- where they are positive, their reciprocal square roots, and a zero. -/
theorem W5_v24 (c : Dev nD) : Whole.W5 m ρ c (Proc.devRef .tc main_v24)
    = cmpf (F := Ideal) .ogt (Whole.W5 m ρ c (Proc.devRef .tc main_v22)) (broadcastInDim S100000 ![] bcast_S_S100000 (constant (F := Ideal) S_ .f32 0x00000000#32)) := by
  show StableHlo.after hostOps2 (Whole.W4 m ρ c) (Proc.devRef .tc main_v24) = cmpf (F := Ideal) .ogt (StableHlo.after hostOps2 (Whole.W4 m ρ c) (Proc.devRef .tc main_v22)) _
  generalize Whole.W4 m ρ c = W
  after_results
  all_goals rfl
theorem W5_v25 (c : Dev nD) : Whole.W5 m ρ c (Proc.devRef .tc main_v25) = Host.rsqrt (F := Ideal) (φ := .f32) (Whole.W5 m ρ c (Proc.devRef .tc main_v22) : FVec Ideal S100000 .f32) := by
  show StableHlo.after hostOps2 (Whole.W4 m ρ c) (Proc.devRef .tc main_v25) = Host.rsqrt (F := Ideal) (φ := .f32) (StableHlo.after hostOps2 (Whole.W4 m ρ c) (Proc.devRef .tc main_v22) : FVec Ideal S100000 .f32)
  generalize Whole.W4 m ρ c = W
  after_results
  all_goals rfl
theorem W5_cst4 (c : Dev nD) : Whole.W5 m ρ c (Proc.devRef .tc main_cst_4) = constant (F := Ideal) S_ .f32 0x00000000#32 := by
  show StableHlo.after hostOps2 (Whole.W4 m ρ c) (Proc.devRef .tc main_cst_4) = _
  generalize Whole.W4 m ρ c = W
  after_results
  all_goals rfl

/-- After the second middle stretch: `dinv`. -/
theorem W6_v26 (c : Dev nD) : Whole.W6 m ρ c (Proc.devRef .tc main_v26) = Cert.ReferenceIdeal.Mid.dinv (F := Ideal) (Whole.W4 m ρ c (Proc.devRef .tc main_arg1)) := by
  have h : Whole.W6 m ρ c (Proc.devRef .tc main_v26)
      = select (Whole.W5 m ρ c (Proc.devRef .tc main_v24)) (Whole.W5 m ρ c (Proc.devRef .tc main_v25))
          (broadcastInDim S100000 ![] bcast_S_S100000 (id (Whole.W5 m ρ c (Proc.devRef .tc main_cst_4)))) := by
    show StableHlo.after hostOps2_1 (Whole.W5 m ρ c) (Proc.devRef .tc main_v26) = _
    generalize Whole.W5 m ρ c = W
    after_results
    rfl
  rw [h, W5_v24, W5_v25, W5_cst4, W5_v22]
  rfl

end Cert.KernelIdeal.HostReads

end
-- ==== Proof.KI.HostMid3.lean ====
/-
  The last of the host's three stretches between the second and the third region: from the second region's output, the edges' ends, `dinv` and the bias it computes the graph-convolution stage's result (`Mid.outOf`).
-/
import proofs.«104982_j16080357556242_1_alg».proof.Proof.KI.Whole
import proofs.«104982_j16080357556242_1_alg».proof.Proof.Mid
import Idealize.ShloMosaic.Lib.StableHlo.Run
import Idealize.ShloMosaic.PureOps.Ideal

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

set_option maxHeartbeats 4000000 in
/-- After the third: the stage's result from the buffers the first two left. -/
theorem W7_v57_of (c : Dev nD) : Whole.W7 m ρ c (Proc.devRef .tc main_v57)
    = Cert.ReferenceIdeal.Mid.outOf (F := Ideal) (Whole.W6 m ρ c (Proc.devRef .tc main_v11)) (Whole.W6 m ρ c (Proc.devRef .tc main_v15)) (Whole.W6 m ρ c (Proc.devRef .tc main_v18))
        (Whole.W6 m ρ c (Proc.devRef .tc main_v26)) (Whole.W6 m ρ c (Proc.devRef .tc main_arg5)) := by
  show StableHlo.after hostOps2_2 (Whole.W6 m ρ c) (Proc.devRef .tc main_v57) = _
  generalize Whole.W6 m ρ c = W
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  all_goals rfl

end Cert.KernelIdeal.HostReads

end
-- ==== Proof.KI.HostReads.lean ====
/-
  The host's three stretches between the second and the third region compute the graph-convolution stage `Mid.out`, which both programs share, of the second region's output, the edge list and the bias.
-/
import proofs.«104982_j16080357556242_1_alg».proof.Proof.KI.HostMid
import proofs.«104982_j16080357556242_1_alg».proof.Proof.KI.HostMid3

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The buffers the later stretches read, followed back. -/
theorem W6_keep (c : Dev nD) (b : Ref sig .tc) (h21 : b ∉ hostOps2_1_W) : Whole.W6 m ρ c (Proc.devRef .tc b) = Whole.W5 m ρ c (Proc.devRef .tc b) :=
  StableHlo.after_of_writes_sub hostOps2_1 _ hostOps2_1_writes h21
theorem W5_keep (c : Dev nD) (b : Ref sig .tc) (h2 : b ∉ hostOps2_W) : Whole.W5 m ρ c (Proc.devRef .tc b) = Whole.W4 m ρ c (Proc.devRef .tc b) :=
  StableHlo.after_of_writes_sub hostOps2 _ hostOps2_writes h2

/-- THE MIDDLE STRETCHES compute the shared graph-convolution stage of the second region's output, the edge list and the bias. -/
theorem W7_v57 (c : Dev nD) : Whole.W7 m ρ c (Proc.devRef .tc main_v57)
    = Cert.ReferenceIdeal.Mid.out (F := Ideal) (Whole.W4 m ρ c (Proc.devRef .tc main_v11)) (Whole.W4 m ρ c (Proc.devRef .tc main_arg1)) (Whole.W4 m ρ c (Proc.devRef .tc main_arg5)) := by
  rw [W7_v57_of, W6_v26, W6_keep m ρ c main_v11 (by decide), W5_keep m ρ c main_v11 (by decide), W6_keep m ρ c main_v15 (by decide), W5_v15,
    W6_keep m ρ c main_v18 (by decide), W5_v18, W6_keep m ρ c main_arg5 (by decide), W5_keep m ρ c main_arg5 (by decide)]
  exact (Cert.ReferenceIdeal.Mid.out_outOf _ _ _).symm

end Cert.KernelIdeal.HostReads

end
-- ==== Proof.KI.NormValue.lean ====
/-
  The last region's value: what its output array holds after the run, as one function of the arrays it is entered with.

  Entry (i, j) of the result is  (max(a[i, j], 0) − mean[j]) · rsqrt(var[j] + ε) · γ[j] + β[j]  on the extended reals, where
  a is the activations' array and mean, var, γ, β are the four rows [1, 64]. Point t's block holds rows 5000·t … 5000·t + 4999
  of that function, every point writes its block back, and the twenty blocks cover the array (row i lies in block i / 5000).
-/
import proofs.«104982_j16080357556242_1_alg».proof.Proof.KI.Norm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One entry of the normalised, rectified activations: from the entry `x` and its column's mean, variance, scale and shift. -/
def entry (x mean var g b : EReal) : EReal :=
  ((max x (Ideal.ofBits .f32 0x00000000#32) - mean) * Ideal.rsqrt (var + Ideal.ofBits .f32 0x3727C5AC#32)) * g + b

/-- The whole result array, index by index. -/
def G (a : S100000x64.Idx → EReal) (mean var g b : S1x64.Idx → EReal) : S100000x64.Idx → EReal :=
  fun i => entry (a i) (mean (ix2 (0 : Fin 1) (⟨(i 1).val, (i 1).isLt⟩ : Fin 64))) (var (ix2 (0 : Fin 1) (⟨(i 1).val, (i 1).isLt⟩ : Fin 64)))
    (g (ix2 (0 : Fin 1) (⟨(i 1).val, (i 1).isLt⟩ : Fin 64))) (b (ix2 (0 : Fin 1) (⟨(i 1).val, (i 1).isLt⟩ : Fin 64)))

/-- The body's arithmetic at row `r`, column `q` of a block. -/
theorem pay_apply (x0 : FVec Ideal S5000x64 .f32) (x1 x2 x3 x4 : FVec Ideal S1x64 .f32) (r : Fin 5000) (q : Fin 64) :
    k3_pay1 (F := Ideal) x0 x1 x2 x3 x4 (ix2 r q)
      = entry (x0 (ix2 r q)) (x1 (ix2 (0 : Fin 1) q)) (x2 (ix2 (0 : Fin 1) q)) (x3 (ix2 (0 : Fin 1) q)) (x4 (ix2 (0 : Fin 1) q)) := by
  unfold k3_pay1 entry
  simp only [shapeCast_self]
  show ((max (x0 (ix2 r q)) _ - broadcastTo S5000x64 x1 broadcasts_S1x64_S5000x64 (ix2 r q))
      * broadcastTo S5000x64 (rsqrt (addf x2 (broadcast S1x64 (Scalar.ofBits .f32 0x3727C5AC#32)))) broadcasts_S1x64_S5000x64 (ix2 r q))
      * broadcastTo S5000x64 x3 broadcasts_S1x64_S5000x64 (ix2 r q) + broadcastTo S5000x64 x4 broadcasts_S1x64_S5000x64 (ix2 r q) = _
  rw [broadcastTo_1b_ab_apply x1, broadcastTo_1b_ab_apply x3, broadcastTo_1b_ab_apply x4, broadcastTo_1b_ab_apply]
  rfl

/-- The index maps over the grid: the activations' window moves with the output's; the four rows' windows stay at block
    0; the output's block row is the point's number. -/
theorem idx_facts : ∀ t : Fin cfg3.N, win3_0.index t (0 : Fin 2) = win3_5.index t (0 : Fin 2) ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 2000000 in
/-- WHAT POINT `t` WRITES BACK is block `t` of `G` of the arrays as the region finds them. -/
theorem flushed_eq (c : Dev nD) (t : Fin cfg3.N) :
    (Norm.dat V c).flushed 5 t = ((cfg3.win 5).blk t).view.read (Elt Ideal) (G (V c main_v57) (V c main_v60) (V c main_v64) (V c main_v2) (V c main_v3)) := by
  show (cfg3.win 5).cut (grid3.coords t) ((Norm.dat V c).after 5 t) = _
  rw [Norm.after5]
  unfold Norm.out
  rw [View.canon_unit_zero hz]
  simp only [View.ld_unit_zero (S := S5000x64) hz, View.ld_unit_zero (S := S1x64) hz]
  obtain ⟨e0, e1, e2, e3, e4, e5, e6, e7, e8, e9, e10, e11⟩ := idx_facts t
  funext j
  obtain ⟨r, q, rfl⟩ : ∃ (r : Fin 5000) (q : Fin 64), j = ix2 r q := ⟨j 0, j 1, eq_ix2 j⟩
  refine (pay_apply _ _ _ _ _ r q).trans ?_
  have hq : ((((cfg3.win 5).blk t).view.emb (ix2 r q)) 1).val = q.val := by
    show win3_5.index t (1 : Fin 2) * 64 + 1 * q.val = q.val
    omega
  have h0 : ((cfg3.win 0).blk t).view.emb (ix2 r q) = ((cfg3.win 5).blk t).view.emb (ix2 r q) := by
    funext a; apply Fin.ext
    match a with
    | ⟨0, _⟩ => show win3_0.index t (0 : Fin 2) * 5000 + 1 * r.val = win3_5.index t (0 : Fin 2) * 5000 + 1 * r.val; omega
    | ⟨1, _⟩ => show win3_0.index t (1 : Fin 2) * 64 + 1 * q.val = win3_5.index t (1 : Fin 2) * 64 + 1 * q.val; omega
  have g0 : Norm.iblk V c 0 t (ix2 r q) = V c main_v57 (((cfg3.win 5).blk t).view.emb (ix2 r q)) :=
    (show V c main_v57 (((cfg3.win 0).blk t).view.emb (ix2 r q)) = _ from congrArg (V c main_v57) h0)
  have h1 : ((cfg3.win 1).blk t).view.emb (ix2 (0 : Fin 1) q)
      = ix2 (0 : Fin 1) (⟨((((cfg3.win 5).blk t).view.emb (ix2 r q)) 1).val, ((((cfg3.win 5).blk t).view.emb (ix2 r q)) 1).isLt⟩ : Fin 64) := by
    funext a; apply Fin.ext
    match a with
    | ⟨0, _⟩ => show win3_1.index t (0 : Fin 2) * 1 + 1 * 0 = 0; omega
    | ⟨1, _⟩ => show win3_1.index t (1 : Fin 2) * 64 + 1 * q.val = ((((cfg3.win 5).blk t).view.emb (ix2 r q)) 1).val; rw [hq]; omega
  have g1 : Norm.iblk V c 1 t (ix2 (0 : Fin 1) q) = V c main_v60 (ix2 (0 : Fin 1) (⟨((((cfg3.win 5).blk t).view.emb (ix2 r q)) 1).val, ((((cfg3.win 5).blk t).view.emb (ix2 r q)) 1).isLt⟩ : Fin 64)) :=
    (show V c main_v60 (((cfg3.win 1).blk t).view.emb (ix2 (0 : Fin 1) q)) = _ from congrArg (V c main_v60) h1)
  have h2 : ((cfg3.win 2).blk t).view.emb (ix2 (0 : Fin 1) q)
      = ix2 (0 : Fin 1) (⟨((((cfg3.win 5).blk t).view.emb (ix2 r q)) 1).val, ((((cfg3.win 5).blk t).view.emb (ix2 r q)) 1).isLt⟩ : Fin 64) := by
    funext a; apply Fin.ext
    match a with
    | ⟨0, _⟩ => show win3_2.index t (0 : Fin 2) * 1 + 1 * 0 = 0; omega
    | ⟨1, _⟩ => show win3_2.index t (1 : Fin 2) * 64 + 1 * q.val = ((((cfg3.win 5).blk t).view.emb (ix2 r q)) 1).val; rw [hq]; omega
  have g2 : Norm.iblk V c 2 t (ix2 (0 : Fin 1) q) = V c main_v64 (ix2 (0 : Fin 1) (⟨((((cfg3.win 5).blk t).view.emb (ix2 r q)) 1).val, ((((cfg3.win 5).blk t).view.emb (ix2 r q)) 1).isLt⟩ : Fin 64)) :=
    (show V c main_v64 (((cfg3.win 2).blk t).view.emb (ix2 (0 : Fin 1) q)) = _ from congrArg (V c main_v64) h2)
  have h3 : ((cfg3.win 3).blk t).view.emb (ix2 (0 : Fin 1) q)
      = ix2 (0 : Fin 1) (⟨((((cfg3.win 5).blk t).view.emb (ix2 r q)) 1).val, ((((cfg3.win 5).blk t).view.emb (ix2 r q)) 1).isLt⟩ : Fin 64) := by
    funext a; apply Fin.ext
    match a with
    | ⟨0, _⟩ => show win3_3.index t (0 : Fin 2) * 1 + 1 * 0 = 0; omega
    | ⟨1, _⟩ => show win3_3.index t (1 : Fin 2) * 64 + 1 * q.val = ((((cfg3.win 5).blk t).view.emb (ix2 r q)) 1).val; rw [hq]; omega
  have g3 : Norm.iblk V c 3 t (ix2 (0 : Fin 1) q) = V c main_v2 (ix2 (0 : Fin 1) (⟨((((cfg3.win 5).blk t).view.emb (ix2 r q)) 1).val, ((((cfg3.win 5).blk t).view.emb (ix2 r q)) 1).isLt⟩ : Fin 64)) :=
    (show V c main_v2 (((cfg3.win 3).blk t).view.emb (ix2 (0 : Fin 1) q)) = _ from congrArg (V c main_v2) h3)
  have h4 : ((cfg3.win 4).blk t).view.emb (ix2 (0 : Fin 1) q)
      = ix2 (0 : Fin 1) (⟨((((cfg3.win 5).blk t).view.emb (ix2 r q)) 1).val, ((((cfg3.win 5).blk t).view.emb (ix2 r q)) 1).isLt⟩ : Fin 64) := by
    funext a; apply Fin.ext
    match a with
    | ⟨0, _⟩ => show win3_4.index t (0 : Fin 2) * 1 + 1 * 0 = 0; omega
    | ⟨1, _⟩ => show win3_4.index t (1 : Fin 2) * 64 + 1 * q.val = ((((cfg3.win 5).blk t).view.emb (ix2 r q)) 1).val; rw [hq]; omega
  have g4 : Norm.iblk V c 4 t (ix2 (0 : Fin 1) q) = V c main_v3 (ix2 (0 : Fin 1) (⟨((((cfg3.win 5).blk t).view.emb (ix2 r q)) 1).val, ((((cfg3.win 5).blk t).view.emb (ix2 r q)) 1).isLt⟩ : Fin 64)) :=
    (show V c main_v3 (((cfg3.win 4).blk t).view.emb (ix2 (0 : Fin 1) q)) = _ from congrArg (V c main_v3) h4)
  rw [g0, g1, g2, g3, g4]
  rfl

/-- An index of the array is in point `t`'s block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v65).slice (win3_5.rect t)).set ↔ _
  rw [View.set_slice_whole, Rect.mem_set_unit]
  exact Iff.rfl

/-- Every index of the array lies in some point's block: row `i` in block `i / 5000`. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_5 _, ?_⟩
  rw [mem_blk]
  obtain ⟨-, -, -, -, -, -, -, -, -, -, e10, e11⟩ := idx_facts ⟨(i 0).val / 5000, by rw [hN]; omega⟩
  intro a
  match a with
  | ⟨0, _⟩ => show win3_5.index _ (0 : Fin 2) * 5000 ≤ (i 0).val ∧ (i 0).val < win3_5.index _ (0 : Fin 2) * 5000 + 5000; rw [e10]; dsimp only; omega
  | ⟨1, _⟩ => show win3_5.index _ (1 : Fin 2) * 64 ≤ (i 1).val ∧ (i 1).val < win3_5.index _ (1 : Fin 2) * 64 + 64; rw [e11]; omega

/-- THE ARRAY after the region: `G` of the arrays it was entered with. -/
theorem final (c : Dev nD) :
    (Norm.dat V c).arrAt 5 cfg3.N = G (V c main_v57) (V c main_v60) (V c main_v64) (V c main_v2) (V c main_v3) :=
  (Norm.dat V c).arrAt_eq_of_cover 5 (G (V c main_v57) (V c main_v60) (V c main_v64) (V c main_v2) (V c main_v3))
    (fun t _ => flushed_eq V c t) cover

end Cert.KernelIdeal.NormValue

end
-- ==== Proof.KI.LinearValue.lean ====
/-
  The second region's value: what its output array holds after the run, as one function of the arrays it is entered with.

  Entry (i, o) of the result is  ∑ₖ ((x[i, k] − mean[k]) · rsqrt(var[k] + ε) · γ[k] + β[k]) · W[k, o]  on the extended reals (the
  change of float format before the matrix unit is the identity there, and the unit starts from a zero accumulator).
  Point t's block holds rows 5000·t … 5000·t + 4999 of that function, every point writes its block back, and the twenty
  blocks cover the array (row i lies in block i / 5000).
-/
import proofs.«104982_j16080357556242_1_alg».proof.Proof.KI.Linear
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinearValue

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- One normalised feature: from the entry `x` and its column's mean, variance, scale and shift. -/
def xn (x mean var g b : EReal) : EReal :=
  ((x - mean) * Ideal.rsqrt (var + Ideal.ofBits .f32 0x3727C5AC#32)) * g + b

/-- The whole result array, index by index: each row of normalised features times the weight matrix. -/
def G (x : S100000x128.Idx → EReal) (mean var g b : S1x128.Idx → EReal) (W : S128x64.Idx → EReal) : S100000x64.Idx → EReal :=
  fun i => ∑ k : Fin 128, xn (x (ix2 (⟨(i 0).val, (i 0).isLt⟩ : Fin 100000) k)) (mean (ix2 (0 : Fin 1) k)) (var (ix2 (0 : Fin 1) k))
    (g (ix2 (0 : Fin 1) k)) (b (ix2 (0 : Fin 1) k)) * W (ix2 k (⟨(i 1).val, (i 1).isLt⟩ : Fin 64))

/-! The matrix unit's index maps: the left operand is read at (row, k), the right at (k, column). -/
theorem lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

set_option maxHeartbeats 1000000 in
/-- The body's arithmetic at row `r`, column `o` of a block. -/
theorem pay_apply (x0 : FVec Ideal S5000x128 .f32) (x1 x2 x3 x4 : FVec Ideal S1x128 .f32) (w : FVec Ideal S128x64 .f32) (r : Fin 5000) (o : Fin 64) :
    k1_pay1 (F := Ideal) x0 x1 x2 x3 x4 w (ix2 r o)
      = ∑ k : Fin 128, xn (x0 (ix2 r k)) (x1 (ix2 (0 : Fin 1) k)) (x2 (ix2 (0 : Fin 1) k)) (x3 (ix2 (0 : Fin 1) k)) (x4 (ix2 (0 : Fin 1) k)) * w (ix2 k o) := by
  unfold k1_pay1
  simp only [shapeCast_self]
  refine (Ideal.matmul_constant_zero_apply dot_S5000x128_S128x64_S5000x64_1_0_0_1_n_n none _ _ (ix2 r o)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r o) ((contrEquiv1 dot_S5000x128_S128x64_S5000x64_1_0_0_1_n_n 128 rfl rfl).symm k) = ix2 r k := funext fun a => Fin.ext (by
    match a with
    | ⟨0, _⟩ => exact lhs0 _ _
    | ⟨1, _⟩ => exact (lhs1 _ _).trans hk)
  have er : dot_S5000x128_S128x64_S5000x64_1_0_0_1_n_n.rhsIdx (ix2 r o) ((contrEquiv1 dot_S5000x128_S128x64_S5000x64_1_0_0_1_n_n 128 rfl rfl).symm k) = ix2 k o := funext fun a => Fin.ext (by
    match a with
    | ⟨0, _⟩ => exact (rhs0 _ _).trans hk
    | ⟨1, _⟩ => exact rhs1 _ _)
  rw [el, er]
  unfold xn
  show (((x0 (ix2 r k) - broadcastTo S5000x128 x1 broadcasts_S1x128_S5000x128 (ix2 r k))
      * broadcastTo S5000x128 (rsqrt (addf x2 (broadcast S1x128 (Scalar.ofBits .f32 0x3727C5AC#32)))) broadcasts_S1x128_S5000x128 (ix2 r k))
      * broadcastTo S5000x128 x3 broadcasts_S1x128_S5000x128 (ix2 r k) + broadcastTo S5000x128 x4 broadcasts_S1x128_S5000x128 (ix2 r k)) * w (ix2 k o) = _
  rw [broadcastTo_1b_ab_apply x1, broadcastTo_1b_ab_apply x3, broadcastTo_1b_ab_apply x4, broadcastTo_1b_ab_apply]
  rfl

/-- The index maps over the grid: the features' window moves with the output's; the four rows' windows and the weights'
    stay at block 0; the output's block row is the point's number. -/
theorem idx_facts : ∀ t : Fin cfg1.N, win1_0.index t (0 : Fin 2) = win1_6.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 4000000 in
/-- WHAT POINT `t` WRITES BACK is block `t` of `G` of the arrays as the region finds them. -/
theorem flushed_eq (c : Dev nD) (t : Fin cfg1.N) :
    (Linear.dat V c).flushed 6 t = ((cfg1.win 6).blk t).view.read (Elt Ideal) (G (V c main_arg0) (V c main_v6) (V c main_v10) (V c main_v0) (V c main_v1) (V c main_arg4)) := by
  show (cfg1.win 6).cut (grid1.coords t) ((Linear.dat V c).after 6 t) = _
  rw [Linear.after6]
  unfold Linear.out
  rw [View.canon_unit_zero hz]
  simp only [View.ld_unit_zero (S := S5000x128) hz, View.ld_unit_zero (S := S1x128) hz, View.ld_unit_zero (S := S128x64) hz]
  obtain ⟨e0, e1, e2, e3, e4, e5, e6, e7, e8, e9, e10, e11, e12, e13⟩ := idx_facts t
  funext j
  obtain ⟨r, o, rfl⟩ : ∃ (r : Fin 5000) (o : Fin 64), j = ix2 r o := ⟨j 0, j 1, eq_ix2 j⟩
  refine (pay_apply _ _ _ _ _ _ r o).trans ?_
  have hi0 : ((((cfg1.win 6).blk t).view.emb (ix2 r o)) 0).val = win1_6.index t (0 : Fin 2) * 5000 + 1 * r.val := rfl
  have hi1 : ((((cfg1.win 6).blk t).view.emb (ix2 r o)) 1).val = o.val := by
    show win1_6.index t (1 : Fin 2) * 64 + 1 * o.val = o.val
    omega
  show _ = G (V c main_arg0) (V c main_v6) (V c main_v10) (V c main_v0) (V c main_v1) (V c main_arg4) (((cfg1.win 6).blk t).view.emb (ix2 r o))
  unfold G
  refine Finset.sum_congr rfl fun k _ => ?_
  have h0 : ((cfg1.win 0).blk t).view.emb (ix2 r k)
      = ix2 (⟨((((cfg1.win 6).blk t).view.emb (ix2 r o)) 0).val, ((((cfg1.win 6).blk t).view.emb (ix2 r o)) 0).isLt⟩ : Fin 100000) k := by
    funext a; apply Fin.ext
    match a with
    | ⟨0, _⟩ => show win1_0.index t (0 : Fin 2) * 5000 + 1 * r.val = ((((cfg1.win 6).blk t).view.emb (ix2 r o)) 0).val; rw [hi0]; omega
    | ⟨1, _⟩ => show win1_0.index t (1 : Fin 2) * 128 + 1 * k.val = k.val; omega
  have g0 : Linear.iblk V c 0 t (ix2 r k) = V c main_arg0 (ix2 (⟨((((cfg1.win 6).blk t).view.emb (ix2 r o)) 0).val, ((((cfg1.win 6).blk t).view.emb (ix2 r o)) 0).isLt⟩ : Fin 100000) k) :=
    (show V c main_arg0 (((cfg1.win 0).blk t).view.emb (ix2 r k)) = _ from congrArg (V c main_arg0) h0)
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have g1 : Linear.iblk V c 1 t (ix2 (0 : Fin 1) k) = V c main_v6 (ix2 (0 : Fin 1) k) :=
    (show V c main_v6 (((cfg1.win 1).blk t).view.emb (ix2 (0 : Fin 1) k)) = _ from congrArg (V c main_v6) h1)
  have h2 : ((cfg1.win 2).blk t).view.emb (ix2 (0 : Fin 1) k) = ix2 (0 : Fin 1) k := by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have g2 : Linear.iblk V c 2 t (ix2 (0 : Fin 1) k) = V c main_v10 (ix2 (0 : Fin 1) k) :=
    (show V c main_v10 (((cfg1.win 2).blk t).view.emb (ix2 (0 : Fin 1) k)) = _ from congrArg (V c main_v10) h2)
  have h3 : ((cfg1.win 3).blk t).view.emb (ix2 (0 : Fin 1) k) = ix2 (0 : Fin 1) k := by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have g3 : Linear.iblk V c 3 t (ix2 (0 : Fin 1) k) = V c main_v0 (ix2 (0 : Fin 1) k) :=
    (show V c main_v0 (((cfg1.win 3).blk t).view.emb (ix2 (0 : Fin 1) k)) = _ from congrArg (V c main_v0) h3)
  have h4 : ((cfg1.win 4).blk t).view.emb (ix2 (0 : Fin 1) k) = ix2 (0 : Fin 1) k := by
    funext a; apply Fin.ext
    match a with
    | ⟨0, _⟩ => show win1_4.index t (0 : Fin 2) * 1 + 1 * 0 = 0; omega
    | ⟨1, _⟩ => show win1_4.index t (1 : Fin 2) * 128 + 1 * k.val = k.val; omega
  have g4 : Linear.iblk V c 4 t (ix2 (0 : Fin 1) k) = V c main_v1 (ix2 (0 : Fin 1) k) :=
    (show V c main_v1 (((cfg1.win 4).blk t).view.emb (ix2 (0 : Fin 1) k)) = _ from congrArg (V c main_v1) h4)
  have h5 : ((cfg1.win 5).blk t).view.emb (ix2 k o)
      = ix2 k (⟨((((cfg1.win 6).blk t).view.emb (ix2 r o)) 1).val, ((((cfg1.win 6).blk t).view.emb (ix2 r o)) 1).isLt⟩ : Fin 64) := by
    funext a; apply Fin.ext
    match a with
    | ⟨0, _⟩ => show win1_5.index t (0 : Fin 2) * 128 + 1 * k.val = k.val; omega
    | ⟨1, _⟩ => show win1_5.index t (1 : Fin 2) * 64 + 1 * o.val = ((((cfg1.win 6).blk t).view.emb (ix2 r o)) 1).val; rw [hi1]; omega
  have g5 : Linear.iblk V c 5 t (ix2 k o) = V c main_arg4 (ix2 k (⟨((((cfg1.win 6).blk t).view.emb (ix2 r o)) 1).val, ((((cfg1.win 6).blk t).view.emb (ix2 r o)) 1).isLt⟩ : Fin 64)) :=
    (show V c main_arg4 (((cfg1.win 5).blk t).view.emb (ix2 k o)) = _ from congrArg (V c main_arg4) h5)
  rw [g0, g1, g2, g3, g4, g5]

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v11).slice (win1_6.rect t)).set ↔ _
  rw [View.set_slice_whole, Rect.mem_set_unit]
  exact Iff.rfl

/-- Every index of the array lies in some point's block: row `i` in block `i / 5000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_6 _, ?_⟩
  rw [mem_blk]
  obtain ⟨-, -, -, -, -, -, -, -, -, -, -, -, e12, e13⟩ := idx_facts ⟨(i 0).val / 5000, by rw [hN]; omega⟩
  intro a
  match a with
  | ⟨0, _⟩ => show win1_6.index _ (0 : Fin 2) * 5000 ≤ (i 0).val ∧ (i 0).val < win1_6.index _ (0 : Fin 2) * 5000 + 5000; rw [e12]; dsimp only; omega
  | ⟨1, _⟩ => show win1_6.index _ (1 : Fin 2) * 64 ≤ (i 1).val ∧ (i 1).val < win1_6.index _ (1 : Fin 2) * 64 + 64; rw [e13]; omega

/-- THE ARRAY after the region: `G` of the arrays it was entered with. -/
theorem final (c : Dev nD) :
    (Linear.dat V c).arrAt 6 cfg1.N = G (V c main_arg0) (V c main_v6) (V c main_v10) (V c main_v0) (V c main_v1) (V c main_arg4) :=
  (Linear.dat V c).arrAt_eq_of_cover 6 (G (V c main_arg0) (V c main_v6) (V c main_v10) (V c main_v0) (V c main_v1) (V c main_arg4))
    (fun t _ => flushed_eq V c t) cover

end Cert.KernelIdeal.LinearValue

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.KI.Stats0Value.lean ====
/-
  The first region's value: what its two output rows hold after the run, as functions of the features' array.

  Entry (0, q) of the first output is the sum over the 100000 rows i of a[i, q]; of the second, the sum of a[i, q]·a[i, q],
  on the extended reals (where addition is commutative and associative, so no finiteness is asked). Each case of the body
  leaves in a total the block's column sums added to what the total held (zero at the first point); so after point n a total
  holds the sum over the points 0 … n of their blocks' column sums; block t is rows 5000·t … 5000·t + 4999 of the array; the
  last point copies the totals into the outputs, it alone writes them back, and its block is the whole row.
-/
import proofs.«104982_j16080357556242_1_alg».proof.Proof.KI.Stats0
import proofs.«104982_j16080357556242_1_alg».proof.Proof.LibTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stats0Value

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)
open scoped BigOperators

theorem hz : (![0, 0] : Fin 2 → Nat) = fun _ => 0 := funext fun a => by fin_cases a <;> rfl

/-! ## What each case leaves in a total, and in an output: a payload of the block and of the total before -/

section pieces
variable {F : FTy → Type} [FloatOps F]

/-- At the first point the first total is reset and then takes the block's column sums. -/
theorem first0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : Stats0.condFirst i) (hc1 : ¬Stats0.condLast i) (x0 : Vec F S5000x128 .f32) (v : View sig .tc .vmem S1x128 .f32) :
    Stats0.rb v (Stats0.runFirst c i arg1 harg1 arg2 harg2 arg3 harg3 arg4 harg4 arg5 harg5 hc0 hc1 x0).1 = k0_pay3 x0 k0_pay1 := by
  unfold Stats0.rb
  rw [View.read_writes_eq_canon _ _ _ (Stats0.scoverFirst0 c i arg1 harg1 arg2 harg2 arg3 harg3 arg4 harg4 arg5 harg5 hc0 hc1 x0)]
  unfold Stats0.runFirst
  dsimp only
  sl_unfold_words
  rw [View.canon_cons_unit_zero hz, View.readCov_unit_zero (S := S1x128) _ hz]
  simp only [View.readAt_eq_ld, harg1.read_unread, View.ld_unit_zero (S := S5000x128) hz]

/-- At the first point the second total is reset and then takes the column sums of the squares. -/
theorem first1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : Stats0.condFirst i) (hc1 : ¬Stats0.condLast i) (x0 : Vec F S5000x128 .f32) (v : View sig .tc .vmem S1x128 .f32) :
    Stats0.rb v (Stats0.runFirst c i arg1 harg1 arg2 harg2 arg3 harg3 arg4 harg4 arg5 harg5 hc0 hc1 x0).2.1 = k0_pay4 x0 k0_pay2 := by
  unfold Stats0.rb
  rw [View.read_writes_eq_canon _ _ _ (Stats0.scoverFirst1 c i arg1 harg1 arg2 harg2 arg3 harg3 arg4 harg4 arg5 harg5 hc0 hc1 x0)]
  unfold Stats0.runFirst
  dsimp only
  sl_unfold_words
  rw [View.canon_cons_unit_zero hz, View.readCov_unit_zero (S := S1x128) _ hz]
  simp only [View.readAt_eq_ld, harg1.read_unread, View.ld_unit_zero (S := S5000x128) hz]

/-- At a middle point the first total takes the block's column sums over what it held. -/
theorem mid0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬Stats0.condFirst i) (hc1 : ¬Stats0.condLast i) (x0 : Vec F S5000x128 .f32) (xs0 xs1 : Vec F S1x128 .f32) (v : View sig .tc .vmem S1x128 .f32) :
    Stats0.rb v (Stats0.runMid c i arg1 harg1 arg2 harg2 arg3 harg3 arg4 harg4 arg5 harg5 hc0 hc1 x0 xs0 xs1).1 = k0_pay3 x0 xs0 := by
  unfold Stats0.rb
  rw [View.read_writes_eq_canon _ _ _ (Stats0.scoverMid0 c i arg1 harg1 arg2 harg2 arg3 harg3 arg4 harg4 arg5 harg5 hc0 hc1 x0 xs0 xs1)]
  unfold Stats0.runMid
  dsimp only
  sl_unfold_words
  rw [View.canon_unit_zero hz]
  simp only [View.readAt_eq_ld, harg1.read_unread, harg4.read_unread, View.ld_unit_zero (S := S5000x128) hz, View.ld_unit_zero (S := S1x128) hz]

/-- At a middle point the second total takes the column sums of the squares over what it held. -/
theorem mid1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬Stats0.condFirst i) (hc1 : ¬Stats0.condLast i) (x0 : Vec F S5000x128 .f32) (xs0 xs1 : Vec F S1x128 .f32) (v : View sig .tc .vmem S1x128 .f32) :
    Stats0.rb v (Stats0.runMid c i arg1 harg1 arg2 harg2 arg3 harg3 arg4 harg4 arg5 harg5 hc0 hc1 x0 xs0 xs1).2.1 = k0_pay4 x0 xs1 := by
  unfold Stats0.rb
  rw [View.read_writes_eq_canon _ _ _ (Stats0.scoverMid1 c i arg1 harg1 arg2 harg2 arg3 harg3 arg4 harg4 arg5 harg5 hc0 hc1 x0 xs0 xs1)]
  unfold Stats0.runMid
  dsimp only
  sl_unfold_words
  rw [View.canon_unit_zero hz]
  simp only [View.readAt_eq_ld, harg1.read_unread, harg5.read_unread, View.ld_unit_zero (S := S5000x128) hz, View.ld_unit_zero (S := S1x128) hz]

/-- At the last point the first output receives the first total's new contents. -/
theorem lastO1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬Stats0.condFirst i) (hc1 : Stats0.condLast i) (x0 : Vec F S5000x128 .f32) (xs0 xs1 : Vec F S1x128 .f32) (v : View sig .tc .vmem S1x128 .f32) :
    Stats0.rb v (Stats0.runLast c i arg1 harg1 arg2 harg2 arg3 harg3 arg4 harg4 arg5 harg5 hc0 hc1 x0 xs0 xs1).1 = k0_pay3 x0 xs0 := by
  unfold Stats0.rb
  rw [View.read_writes_eq_canon _ _ _ (Stats0.coverLast1 c i arg1 harg1 arg2 harg2 arg3 harg3 arg4 harg4 arg5 harg5 hc0 hc1 x0 xs0 xs1)]
  unfold Stats0.runLast
  dsimp only
  sl_unfold_words
  rw [View.canon_unit_zero hz, View.readCov_unit_zero (S := S1x128) _ hz]
  simp only [View.readAt_eq_ld, harg1.read_unread, harg4.read_unread, View.ld_unit_zero (S := S5000x128) hz, View.ld_unit_zero (S := S1x128) hz]

/-- At the last point the second output receives the second total's new contents. -/
theorem lastO2 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬Stats0.condFirst i) (hc1 : Stats0.condLast i) (x0 : Vec F S5000x128 .f32) (xs0 xs1 : Vec F S1x128 .f32) (v : View sig .tc .vmem S1x128 .f32) :
    Stats0.rb v (Stats0.runLast c i arg1 harg1 arg2 harg2 arg3 harg3 arg4 harg4 arg5 harg5 hc0 hc1 x0 xs0 xs1).2.1 = k0_pay4 x0 xs1 := by
  unfold Stats0.rb
  rw [View.read_writes_eq_canon _ _ _ (Stats0.coverLast2 c i arg1 harg1 arg2 harg2 arg3 harg3 arg4 harg4 arg5 harg5 hc0 hc1 x0 xs0 xs1)]
  unfold Stats0.runLast
  dsimp only
  sl_unfold_words
  rw [View.canon_unit_zero hz, View.readCov_unit_zero (S := S1x128) _ hz]
  simp only [View.readAt_eq_ld, harg1.read_unread, harg5.read_unread, View.ld_unit_zero (S := S5000x128) hz, View.ld_unit_zero (S := S1x128) hz]

/-- At the last point the first total takes the block's column sums over what it held. -/
theorem lastS0 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬Stats0.condFirst i) (hc1 : Stats0.condLast i) (x0 : Vec F S5000x128 .f32) (xs0 xs1 : Vec F S1x128 .f32) (v : View sig .tc .vmem S1x128 .f32) :
    Stats0.rb v (Stats0.runLast c i arg1 harg1 arg2 harg2 arg3 harg3 arg4 harg4 arg5 harg5 hc0 hc1 x0 xs0 xs1).2.2.1 = k0_pay3 x0 xs0 := by
  unfold Stats0.rb
  rw [View.read_writes_eq_canon _ _ _ (Stats0.scoverLast0 c i arg1 harg1 arg2 harg2 arg3 harg3 arg4 harg4 arg5 harg5 hc0 hc1 x0 xs0 xs1)]
  unfold Stats0.runLast
  dsimp only
  sl_unfold_words
  rw [View.canon_unit_zero hz]
  simp only [View.readAt_eq_ld, harg1.read_unread, harg4.read_unread, View.ld_unit_zero (S := S5000x128) hz, View.ld_unit_zero (S := S1x128) hz]

/-- At the last point the second total takes the column sums of the squares over what it held. -/
theorem lastS1 (c : Dev nD) (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬Stats0.condFirst i) (hc1 : Stats0.condLast i) (x0 : Vec F S5000x128 .f32) (xs0 xs1 : Vec F S1x128 .f32) (v : View sig .tc .vmem S1x128 .f32) :
    Stats0.rb v (Stats0.runLast c i arg1 harg1 arg2 harg2 arg3 harg3 arg4 harg4 arg5 harg5 hc0 hc1 x0 xs0 xs1).2.2.2.1 = k0_pay4 x0 xs1 := by
  unfold Stats0.rb
  rw [View.read_writes_eq_canon _ _ _ (Stats0.scoverLast1 c i arg1 harg1 arg2 harg2 arg3 harg3 arg4 harg4 arg5 harg5 hc0 hc1 x0 xs0 xs1)]
  unfold Stats0.runLast
  dsimp only
  sl_unfold_words
  rw [View.canon_unit_zero hz]
  simp only [View.readAt_eq_ld, harg1.read_unread, harg5.read_unread, View.ld_unit_zero (S := S5000x128) hz, View.ld_unit_zero (S := S1x128) hz]

end pieces

/-! ## The payloads at an index, on the extended reals -/

/-- The source index of a column sum: the column's index with the row inserted. -/
theorem lift_eq (q : Fin 128) (r : Fin 5000) : reduces_S5000x128_S128.lift (ix1 q) r = ix2 r q := by
  funext a; apply Fin.ext
  match a with
  | ⟨0, _⟩ => rfl
  | ⟨1, _⟩ => rfl

/-- A block's sum over its rows, read at column `q`. -/
theorem colsum (x : FVec Ideal S5000x128 .f32) (hφ : FKind.Formats .f32) (hacc : (0x00000000#32 : BitVec 32) = 0x00000000#32) (q : Fin 128) :
    multiReduction .add [0] S128 x 0x00000000#32 reduces_S5000x128_S128 hφ hacc (ix1 q) = ∑ r : Fin 5000, x (ix2 r q) :=
  (Ideal.multiReduction_add_single x 0x00000000#32 reduces_S5000x128_S128 hφ hacc (ix1 q)).trans
    (Finset.sum_congr rfl fun r _ => congrArg x (lift_eq q r))

/-- The two rows the totals are reset to hold zero. -/
theorem zero1_apply (q : Fin 128) : k0_pay1 (F := Ideal) (ix2 (0 : Fin 1) q) = 0 := by
  unfold k0_pay1
  simp only [shapeCast_self]
  exact Ideal.ofBits_zero_f32
theorem zero2_apply (q : Fin 128) : k0_pay2 (F := Ideal) (ix2 (0 : Fin 1) q) = 0 := by
  unfold k0_pay2
  simp only [shapeCast_self]
  exact Ideal.ofBits_zero_f32

/-- The first total after a point: what it held plus the block's column sum. -/
theorem tot1_apply (x : FVec Ideal S5000x128 .f32) (s : FVec Ideal S1x128 .f32) (q : Fin 128) :
    k0_pay3 (F := Ideal) x s (ix2 (0 : Fin 1) q) = s (ix2 (0 : Fin 1) q) + ∑ r : Fin 5000, x (ix2 r q) := by
  unfold k0_pay3
  simp only [shapeCast_self]
  refine congrArg (s (ix2 (0 : Fin 1) q) + ·) ?_
  refine (shapeCast_a_1a_apply _ shapeCasts_S128_S1x128 (0 : Fin 1) q).trans ?_
  exact colsum x _ _ q

/-- The second total after a point: what it held plus the column sum of the block's squares. -/
theorem tot2_apply (x : FVec Ideal S5000x128 .f32) (s : FVec Ideal S1x128 .f32) (q : Fin 128) :
    k0_pay4 (F := Ideal) x s (ix2 (0 : Fin 1) q) = s (ix2 (0 : Fin 1) q) + ∑ r : Fin 5000, x (ix2 r q) * x (ix2 r q) := by
  unfold k0_pay4
  simp only [shapeCast_self]
  refine congrArg (s (ix2 (0 : Fin 1) q) + ·) ?_
  refine (shapeCast_a_1a_apply _ shapeCasts_S128_S1x128 (0 : Fin 1) q).trans ?_
  exact colsum (mulf x x) _ _ q

/-! ## The totals after each point -/

variable (V : (c : Dev nD) → (b : Ref sig .tc) → Buf (Elt Ideal) ((c : Thread nD τ).loc b))

/-- Block `t` of the array, as the body reads it. -/
def blkAt (c : Dev nD) (t : Fin cfg0.N) : FVec Ideal S5000x128 .f32 := Stats0.iblk V c 0 t

set_option maxHeartbeats 2000000 in
/-- After the first point the totals are the first block's payloads over the zero rows. -/
theorem tot_first (c : Dev nD) (t : Fin cfg0.N) (h0 : t.val = 0) :
    (Stats0.outsAt V c t.val t.isLt).2 = (k0_pay3 (Stats0.iblk V c 0 t) (k0_pay1 (F := Ideal)), k0_pay4 (Stats0.iblk V c 0 t) (k0_pay2 (F := Ideal))) := by
  have hc0 : Stats0.condFirst (grid0.coords t) := (Stats0.hcondFirst t).mpr h0
  have hc1 : ¬Stats0.condLast (grid0.coords t) := fun h => by have := (Stats0.hcondLast t).mp h; omega
  refine (Stats0.outsAt_first V c t h0 hc0 hc1).trans ?_
  exact congrArg₂ Prod.mk (first0 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) Stats0.VS0)
    (first1 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) Stats0.VS1)

set_option maxHeartbeats 2000000 in
/-- After any later point the totals are the point's payloads over what the point before left. -/
theorem tot_step (c : Dev nD) (t : Fin cfg0.N) (h0 : t.val ≠ 0) :
    (Stats0.outsAt V c t.val t.isLt).2 = (k0_pay3 (Stats0.iblk V c 0 t) (Stats0.outsAt V c (t.val - 1) (Nat.lt_of_le_of_lt (Nat.sub_le _ _) t.isLt)).2.1, k0_pay4 (Stats0.iblk V c 0 t) (Stats0.outsAt V c (t.val - 1) (Nat.lt_of_le_of_lt (Nat.sub_le _ _) t.isLt)).2.2) := by
  have hc0 : ¬Stats0.condFirst (grid0.coords t) := fun h => h0 ((Stats0.hcondFirst t).mp h)
  by_cases hl : t.val = 19
  · have hc1 : Stats0.condLast (grid0.coords t) := (Stats0.hcondLast t).mpr hl
    refine (congrArg Prod.snd (Stats0.outsAt_last V c t hl hc0 hc1)).trans ?_
    exact congrArg₂ Prod.mk (lastS0 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) (Stats0.outsAt V c (t.val - 1) (Nat.lt_of_le_of_lt (Nat.sub_le _ _) t.isLt)).2.1 (Stats0.outsAt V c (t.val - 1) (Nat.lt_of_le_of_lt (Nat.sub_le _ _) t.isLt)).2.2 Stats0.VS0)
      (lastS1 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) (Stats0.outsAt V c (t.val - 1) (Nat.lt_of_le_of_lt (Nat.sub_le _ _) t.isLt)).2.1 (Stats0.outsAt V c (t.val - 1) (Nat.lt_of_le_of_lt (Nat.sub_le _ _) t.isLt)).2.2 Stats0.VS1)
  · have hc1 : ¬Stats0.condLast (grid0.coords t) := fun h => hl ((Stats0.hcondLast t).mp h)
    refine (Stats0.outsAt_mid V c t h0 hl hc0 hc1).trans ?_
    exact congrArg₂ Prod.mk (mid0 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) (Stats0.outsAt V c (t.val - 1) (Nat.lt_of_le_of_lt (Nat.sub_le _ _) t.isLt)).2.1 (Stats0.outsAt V c (t.val - 1) (Nat.lt_of_le_of_lt (Nat.sub_le _ _) t.isLt)).2.2 Stats0.VS0)
      (mid1 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) (Stats0.outsAt V c (t.val - 1) (Nat.lt_of_le_of_lt (Nat.sub_le _ _) t.isLt)).2.1 (Stats0.outsAt V c (t.val - 1) (Nat.lt_of_le_of_lt (Nat.sub_le _ _) t.isLt)).2.2 Stats0.VS1)

set_option maxHeartbeats 2000000 in
/-- At the last point the outputs' buffers receive what the totals end with. -/
theorem out_last (c : Dev nD) (t : Fin cfg0.N) (hl : t.val = 19) :
    (Stats0.outsAt V c t.val t.isLt).1 = (Stats0.outsAt V c t.val t.isLt).2 := by
  have hc0 : ¬Stats0.condFirst (grid0.coords t) := fun h => by have := (Stats0.hcondFirst t).mp h; omega
  have hc1 : Stats0.condLast (grid0.coords t) := (Stats0.hcondLast t).mpr hl
  have e := Stats0.outsAt_last V c t hl hc0 hc1
  refine (congrArg Prod.fst e).trans (Eq.trans ?_ (congrArg Prod.snd e).symm)
  exact congrArg₂ Prod.mk ((lastO1 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) (Stats0.outsAt V c (t.val - 1) (Nat.lt_of_le_of_lt (Nat.sub_le _ _) t.isLt)).2.1 (Stats0.outsAt V c (t.val - 1) (Nat.lt_of_le_of_lt (Nat.sub_le _ _) t.isLt)).2.2 Stats0.VO1).trans (lastS0 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) (Stats0.outsAt V c (t.val - 1) (Nat.lt_of_le_of_lt (Nat.sub_le _ _) t.isLt)).2.1 (Stats0.outsAt V c (t.val - 1) (Nat.lt_of_le_of_lt (Nat.sub_le _ _) t.isLt)).2.2 Stats0.VS0).symm)
    ((lastO2 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) (Stats0.outsAt V c (t.val - 1) (Nat.lt_of_le_of_lt (Nat.sub_le _ _) t.isLt)).2.1 (Stats0.outsAt V c (t.val - 1) (Nat.lt_of_le_of_lt (Nat.sub_le _ _) t.isLt)).2.2 Stats0.VO2).trans (lastS1 (F := Ideal) c (grid0.coords t) (Stats0.ms0 t) (Stats0.hs0 t) (Stats0.ms1 t) (Stats0.hs1 t) (Stats0.ms2 t) (Stats0.hs2 t) Stats0.scM0 (Memref.isWhole_whole _) Stats0.scM1 (Memref.isWhole_whole _) hc0 hc1 (Stats0.iblk V c 0 t) (Stats0.outsAt V c (t.val - 1) (Nat.lt_of_le_of_lt (Nat.sub_le _ _) t.isLt)).2.1 (Stats0.outsAt V c (t.val - 1) (Nat.lt_of_le_of_lt (Nat.sub_le _ _) t.isLt)).2.2 Stats0.VS1).symm)

set_option maxHeartbeats 2000000 in
/-- THE ACCUMULATION: after point `n` each total holds, at column `q`, the sum over the points 0 … n of their blocks' column sums. -/
theorem tot_sum (c : Dev nD) (q : Fin 128) : ∀ (n : ℕ) (hn : n < cfg0.N),
    (Stats0.outsAt V c n hn).2.1 (ix2 (0 : Fin 1) q)
        = ∑ t : Fin (n + 1), ∑ r : Fin 5000, blkAt V c ⟨t.val, lt_of_lt_of_le t.isLt (Nat.succ_le_of_lt hn)⟩ (ix2 r q)
    ∧ (Stats0.outsAt V c n hn).2.2 (ix2 (0 : Fin 1) q)
        = ∑ t : Fin (n + 1), ∑ r : Fin 5000, blkAt V c ⟨t.val, lt_of_lt_of_le t.isLt (Nat.succ_le_of_lt hn)⟩ (ix2 r q) * blkAt V c ⟨t.val, lt_of_lt_of_le t.isLt (Nat.succ_le_of_lt hn)⟩ (ix2 r q) := by
  intro n
  induction n with
  | zero =>
    intro hn
    have e := tot_first V c ⟨0, hn⟩ rfl
    refine ⟨?_, ?_⟩
    · refine ((congrFun (congrArg Prod.fst e) (ix2 (0 : Fin 1) q)).trans (tot1_apply (blkAt V c ⟨0, hn⟩) _ q)).trans ?_
      rw [zero1_apply, zero_add, Fin.sum_univ_castSucc (n := 0), Fin.sum_univ_zero, zero_add]
      rfl
    · refine ((congrFun (congrArg Prod.snd e) (ix2 (0 : Fin 1) q)).trans (tot2_apply (blkAt V c ⟨0, hn⟩) _ q)).trans ?_
      rw [zero2_apply, zero_add, Fin.sum_univ_castSucc (n := 0), Fin.sum_univ_zero, zero_add]
      rfl
  | succ n ih =>
    intro hn
    have e := tot_step V c ⟨n + 1, hn⟩ (Nat.succ_ne_zero n)
    obtain ⟨i1, i2⟩ := ih (Nat.lt_of_succ_lt hn)
    refine ⟨?_, ?_⟩
    · rw [Fin.sum_univ_castSucc (n := n + 1)]
      refine ((congrFun (congrArg Prod.fst e) (ix2 (0 : Fin 1) q)).trans (tot1_apply (blkAt V c ⟨n + 1, hn⟩) _ q)).trans ?_
      exact congrArg₂ (· + ·) i1 rfl
    · rw [Fin.sum_univ_castSucc (n := n + 1)]
      refine ((congrFun (congrArg Prod.snd e) (ix2 (0 : Fin 1) q)).trans (tot2_apply (blkAt V c ⟨n + 1, hn⟩) _ q)).trans ?_
      exact congrArg₂ (· + ·) i2 rfl

/-! ## The blocks as rows of the array -/

/-- The index maps over the grid: the input's block row is the point's number; the two outputs' windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Block `t` holds rows 5000·t … 5000·t + 4999 of the array. -/
theorem blk_apply (c : Dev nD) (t : Fin cfg0.N) (r : Fin 5000) (q : Fin 128) (h : 5000 * t.val + r.val < 100000) :
    blkAt V c t (ix2 r q) = V c main_arg0 (ix2 (⟨5000 * t.val + r.val, h⟩ : Fin 100000) q) := by
  obtain ⟨e0, e1, -⟩ := idx_facts t
  show V c main_arg0 (((cfg0.win 0).blk t).view.emb (ix2 r q)) = _
  refine congrArg (V c main_arg0) ?_
  funext a; apply Fin.ext
  match a with
  | ⟨0, _⟩ => show win0_0.index t (0 : Fin 2) * 5000 + 1 * r.val = 5000 * t.val + r.val; rw [e0]; omega
  | ⟨1, _⟩ => show win0_0.index t (1 : Fin 2) * 128 + 1 * q.val = q.val; rw [e1]; omega

/-- 100000 rows as 20 blocks of 5000. -/
theorem sum_rows (f : Fin 100000 → EReal) :
    ∑ t : Fin 20, ∑ r : Fin 5000, f ⟨5000 * t.val + r.val, by omega⟩ = ∑ i : Fin 100000, f i :=
  Cert.LibTiles.sum_tiles_mul 20 5000 f (fun j p => by omega)

/-- THE TOTALS AFTER THE LAST POINT: the column's sum over all the rows of the array `a` (of the entries; of their squares). -/
theorem tot_last (c : Dev nD) (q : Fin 128) (hn : 19 < cfg0.N) (a : S100000x128.Idx → EReal) (ha : ∀ i, V c main_arg0 i = a i) :
    (Stats0.outsAt V c 19 hn).2.1 (ix2 (0 : Fin 1) q) = ∑ i : Fin 100000, a (ix2 i q)
    ∧ (Stats0.outsAt V c 19 hn).2.2 (ix2 (0 : Fin 1) q) = ∑ i : Fin 100000, a (ix2 i q) * a (ix2 i q) := by
  obtain ⟨s1, s2⟩ := tot_sum V c q 19 hn
  refine ⟨s1.trans ?_, s2.trans ?_⟩
  · refine (Finset.sum_congr rfl fun t _ => Finset.sum_congr rfl fun r _ => ?_).trans (sum_rows fun i => a (ix2 i q))
    rw [blk_apply V c ⟨t.val, lt_of_lt_of_le t.isLt (Nat.succ_le_of_lt hn)⟩ r q (by have := t.isLt; have := r.isLt; show 5000 * t.val + r.val < 100000; omega), ha]
  · refine (Finset.sum_congr rfl fun t _ => Finset.sum_congr rfl fun r _ => ?_).trans (sum_rows fun i => a (ix2 i q) * a (ix2 i q))
    rw [blk_apply V c ⟨t.val, lt_of_lt_of_le t.isLt (Nat.succ_le_of_lt hn)⟩ r q (by have := t.isLt; have := r.isLt; show 5000 * t.val + r.val < 100000; omega), ha]

/-! ## The two output rows after the region -/

/-- Each column's sum over the 100000 rows of an array `a`. -/
def colSum (a : S100000x128.Idx → EReal) : S1x128.Idx → EReal := fun j => ∑ i : Fin 100000, a (ix2 i (⟨(j 1).val, (j 1).isLt⟩ : Fin 128))
/-- Each column's sum of squares. -/
def colSumSq (a : S100000x128.Idx → EReal) : S1x128.Idx → EReal := fun j => ∑ i : Fin 100000, a (ix2 i (⟨(j 1).val, (j 1).isLt⟩ : Fin 128)) * a (ix2 i (⟨(j 1).val, (j 1).isLt⟩ : Fin 128))
theorem colSum_apply (a : S100000x128.Idx → EReal) (j : S1x128.Idx) : colSum a j = ∑ i : Fin 100000, a (ix2 i (⟨(j 1).val, (j 1).isLt⟩ : Fin 128)) := rfl
theorem colSumSq_apply (a : S100000x128.Idx → EReal) (j : S1x128.Idx) : colSumSq a j = ∑ i : Fin 100000, a (ix2 i (⟨(j 1).val, (j 1).isLt⟩ : Fin 128)) * a (ix2 i (⟨(j 1).val, (j 1).isLt⟩ : Fin 128)) := rfl

set_option maxHeartbeats 2000000 in
/-- WHAT THE LAST POINT WRITES BACK to output 1 is the whole row of sums; no other point writes it back. -/
theorem flushed1_eq (c : Dev nD) (t : Fin cfg0.N) (ht : (cfg0.win 1).flush t = true) :
    (Stats0.dat V c).flushed 1 t = ((cfg0.win 1).blk t).view.read (Elt Ideal) (colSum (V c main_arg0)) := by
  have hN : cfg0.N = 20 := N_0
  have hl : t.val = 19 := by have h := (flush0_1 t).mp ht; have := t.isLt; omega
  generalize hG : colSum (V c main_arg0) = G
  show (cfg0.win 1).cut (grid0.coords t) ((Stats0.dat V c).after 1 t) = _
  rw [Stats0.after1, out_last V c t hl]
  obtain ⟨n, hn⟩ := t
  obtain rfl : n = 19 := hl
  obtain ⟨-, -, e2, e3, e4, e5⟩ := idx_facts ⟨19, hn⟩
  funext j
  obtain ⟨u, q, rfl⟩ : ∃ (u : Fin 1) (q : Fin 128), j = ix2 u q := ⟨j 0, j 1, eq_ix2 j⟩
  obtain rfl : u = 0 := Subsingleton.elim u 0
  refine (tot_last V c q hn (V c main_arg0) (fun _ => rfl)).1.trans ?_
  have hq : ((((cfg0.win 1).blk ⟨19, hn⟩).view.emb (ix2 (0 : Fin 1) q)) 1).val = q.val := by
    show win0_1.index ⟨19, hn⟩ (1 : Fin 2) * 128 + 1 * q.val = q.val
    rw [e3]; omega
  show _ = G (((cfg0.win 1).blk ⟨19, hn⟩).view.emb (ix2 (0 : Fin 1) q))
  rw [← hG, colSum_apply]
  refine Finset.sum_congr rfl fun i _ => ?_
  exact (fun (a : S100000x128.Idx → EReal) => congrArg (fun z : Fin 128 => a (ix2 i z)) (Fin.ext hq.symm)) (V c main_arg0)

/-- An index of output 1's row is in point `t`'s block iff each coordinate is in the block's range on its axis. -/
theorem mem_blk1 (t : Fin cfg0.N) (i : S1x128.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v4_0).slice (win0_1.rect t)).set ↔ _
  rw [View.set_slice_whole, Rect.mem_set_unit]
  exact Iff.rfl

/-- The last point's block is the whole row. -/
theorem cover1 (i : S1x128.Idx) : ∃ t : Fin cfg0.N, (cfg0.win 1).flush t = true ∧ i ∈ ((cfg0.win 1).blk t).view.set := by
  have hi0 : (i 0).val < 1 := (i 0).isLt
  have hi1 : (i 1).val < 128 := (i 1).isLt
  have hN : cfg0.N = 20 := N_0
  refine ⟨⟨19, by omega⟩, (flush0_1 _).mpr rfl, ?_⟩
  rw [mem_blk1]
  obtain ⟨-, -, e2, e3, e4, e5⟩ := idx_facts ⟨19, by omega⟩
  intro a
  match a with
  | ⟨0, _⟩ => show win0_1.index _ (0 : Fin 2) * 1 ≤ (i 0).val ∧ (i 0).val < win0_1.index _ (0 : Fin 2) * 1 + 1; rw [e2]; omega
  | ⟨1, _⟩ => show win0_1.index _ (1 : Fin 2) * 128 ≤ (i 1).val ∧ (i 1).val < win0_1.index _ (1 : Fin 2) * 128 + 128; rw [e3]; omega

set_option maxHeartbeats 2000000 in
/-- WHAT THE LAST POINT WRITES BACK to output 2 is the whole row of sums; no other point writes it back. -/
theorem flushed2_eq (c : Dev nD) (t : Fin cfg0.N) (ht : (cfg0.win 2).flush t = true) :
    (Stats0.dat V c).flushed 2 t = ((cfg0.win 2).blk t).view.read (Elt Ideal) (colSumSq (V c main_arg0)) := by
  have hN : cfg0.N = 20 := N_0
  have hl : t.val = 19 := by have h := (flush0_2 t).mp ht; have := t.isLt; omega
  generalize hG : colSumSq (V c main_arg0) = G
  show (cfg0.win 2).cut (grid0.coords t) ((Stats0.dat V c).after 2 t) = _
  rw [Stats0.after2, out_last V c t hl]
  obtain ⟨n, hn⟩ := t
  obtain rfl : n = 19 := hl
  obtain ⟨-, -, e2, e3, e4, e5⟩ := idx_facts ⟨19, hn⟩
  funext j
  obtain ⟨u, q, rfl⟩ : ∃ (u : Fin 1) (q : Fin 128), j = ix2 u q := ⟨j 0, j 1, eq_ix2 j⟩
  obtain rfl : u = 0 := Subsingleton.elim u 0
  refine (tot_last V c q hn (V c main_arg0) (fun _ => rfl)).2.trans ?_
  have hq : ((((cfg0.win 2).blk ⟨19, hn⟩).view.emb (ix2 (0 : Fin 1) q)) 1).val = q.val := by
    show win0_2.index ⟨19, hn⟩ (1 : Fin 2) * 128 + 1 * q.val = q.val
    rw [e5]; omega
  show _ = G (((cfg0.win 2).blk ⟨19, hn⟩).view.emb (ix2 (0 : Fin 1) q))
  rw [← hG, colSumSq_apply]
  refine Finset.sum_congr rfl fun i _ => ?_
  exact (fun (a : S100000x128.Idx → EReal) => congrArg (fun z : Fin 128 => a (ix2 i z) * a (ix2 i z)) (Fin.ext hq.symm)) (V c main_arg0)

/-- An index of output 2's row is in point `t`'s block iff each coordinate is in the block's range on its axis. -/
theorem mem_blk2 (t : Fin cfg0.N) (i : S1x128.Idx) :
    i ∈ ((cfg0.win 2).blk t).view.set ↔ ∀ a : Fin 2, win0_2.index t a * S1x128.size a ≤ (i a).val ∧ (i a).val < win0_2.index t a * S1x128.size a + S1x128.size a := by
  show i ∈ ((View.whole main_v4_1).slice (win0_2.rect t)).set ↔ _
  rw [View.set_slice_whole, Rect.mem_set_unit]
  exact Iff.rfl

/-- The last point's block is the whole row. -/
theorem cover2 (i : S1x128.Idx) : ∃ t : Fin cfg0.N, (cfg0.win 2).flush t = true ∧ i ∈ ((cfg0.win 2).blk t).view.set := by
  have hi0 : (i 0).val < 1 := (i 0).isLt
  have hi1 : (i 1).val < 128 := (i 1).isLt
  have hN : cfg0.N = 20 := N_0
  refine ⟨⟨19, by omega⟩, (flush0_2 _).mpr rfl, ?_⟩
  rw [mem_blk2]
  obtain ⟨-, -, e2, e3, e4, e5⟩ := idx_facts ⟨19, by omega⟩
  intro a
  match a with
  | ⟨0, _⟩ => show win0_2.index _ (0 : Fin 2) * 1 ≤ (i 0).val ∧ (i 0).val < win0_2.index _ (0 : Fin 2) * 1 + 1; rw [e4]; omega
  | ⟨1, _⟩ => show win0_2.index _ (1 : Fin 2) * 128 ≤ (i 1).val ∧ (i 1).val < win0_2.index _ (1 : Fin 2) * 128 + 128; rw [e5]; omega

/-- THE FIRST OUTPUT ROW after the region: each column's sum. -/
theorem final1 (c : Dev nD) : (Stats0.dat V c).arrAt 1 cfg0.N = colSum (V c main_arg0) :=
  (Stats0.dat V c).arrAt_eq_of_cover 1 (colSum (V c main_arg0)) (fun t ht => flushed1_eq V c t ht) cover1

/-- THE SECOND OUTPUT ROW after the region: each column's sum of squares. -/
theorem final2 (c : Dev nD) : (Stats0.dat V c).arrAt 2 cfg0.N = colSumSq (V c main_arg0) :=
  (Stats0.dat V c).arrAt_eq_of_cover 2 (colSumSq (V c main_arg0)) (fun t ht => flushed2_eq V c t ht) cover2

end Cert.KernelIdeal.Stats0Value

end
-- ==== Proof.KI.Stats2Value.lean ====
/-
  The third region's value: what its two output rows hold after the run, as functions of the activations' array.

  Entry (0, q) of the first output is the sum over the 100000 rows i of max(a[i, q], 0); of the second, the sum of the
  squares of the same terms, on the extended reals (where addition is commutative and associative, so no finiteness is
  asked). Each case of the body leaves in a total the rectified block's column sums added to what the total held (zero at
  the first point); so after point n a total holds the sum over the points 0 … n of their blocks' column sums; block t is
  rows 5000·t … 5000·t + 4999 of the array; the last point copies the totals into the outputs, it alone writes them back,
  and its block is the whole row.
-/
import proofs.«104982_j16080357556242_1_alg».proof.Proof.KI.Stats2
import proofs.«104982_j16080357556242_1_alg».proof.Proof.LibTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stats2Value

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)
open scoped BigOperators

theorem hz : (![0, 0] : Fin 2 → Nat) = fun _ => 0 := funext fun a => by fin_cases a <;> rfl

/-! ## What each case leaves in a total, and in an output: a payload of the block and of the total before -/

section pieces
variable {F : FTy → Type} [FloatOps F]

/-- At the first point the first total is reset and then takes the block's column sums. -/
theorem first0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : Stats2.condFirst i) (hc1 : ¬Stats2.condLast i) (x0 : Vec F S5000x64 .f32) (v : View sig .tc .vmem S1x64 .f32) :
    Stats2.rb v (Stats2.runFirst c i arg1 harg1 arg2 harg2 arg3 harg3 arg4 harg4 arg5 harg5 hc0 hc1 x0).1 = k2_pay4 x0 k2_pay1 := by
  unfold Stats2.rb
  rw [View.read_writes_eq_canon _ _ _ (Stats2.scoverFirst0 c i arg1 harg1 arg2 harg2 arg3 harg3 arg4 harg4 arg5 harg5 hc0 hc1 x0)]
  unfold Stats2.runFirst
  dsimp only
  sl_unfold_words
  rw [View.canon_cons_unit_zero hz, View.readCov_unit_zero (S := S1x64) _ hz]
  simp only [View.readAt_eq_ld, harg1.read_unread, View.ld_unit_zero (S := S5000x64) hz]

/-- At the first point the second total is reset and then takes the column sums of the squares. -/
theorem first1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : Stats2.condFirst i) (hc1 : ¬Stats2.condLast i) (x0 : Vec F S5000x64 .f32) (v : View sig .tc .vmem S1x64 .f32) :
    Stats2.rb v (Stats2.runFirst c i arg1 harg1 arg2 harg2 arg3 harg3 arg4 harg4 arg5 harg5 hc0 hc1 x0).2.1 = k2_pay5 x0 k2_pay2 := by
  unfold Stats2.rb
  rw [View.read_writes_eq_canon _ _ _ (Stats2.scoverFirst1 c i arg1 harg1 arg2 harg2 arg3 harg3 arg4 harg4 arg5 harg5 hc0 hc1 x0)]
  unfold Stats2.runFirst
  dsimp only
  sl_unfold_words
  rw [View.canon_cons_unit_zero hz, View.readCov_unit_zero (S := S1x64) _ hz]
  simp only [View.readAt_eq_ld, harg1.read_unread, View.ld_unit_zero (S := S5000x64) hz]

/-- At a middle point the first total takes the block's column sums over what it held. -/
theorem mid0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬Stats2.condFirst i) (hc1 : ¬Stats2.condLast i) (x0 : Vec F S5000x64 .f32) (xs0 xs1 : Vec F S1x64 .f32) (v : View sig .tc .vmem S1x64 .f32) :
    Stats2.rb v (Stats2.runMid c i arg1 harg1 arg2 harg2 arg3 harg3 arg4 harg4 arg5 harg5 hc0 hc1 x0 xs0 xs1).1 = k2_pay4 x0 xs0 := by
  unfold Stats2.rb
  rw [View.read_writes_eq_canon _ _ _ (Stats2.scoverMid0 c i arg1 harg1 arg2 harg2 arg3 harg3 arg4 harg4 arg5 harg5 hc0 hc1 x0 xs0 xs1)]
  unfold Stats2.runMid
  dsimp only
  sl_unfold_words
  rw [View.canon_unit_zero hz]
  simp only [View.readAt_eq_ld, harg1.read_unread, harg4.read_unread, View.ld_unit_zero (S := S5000x64) hz, View.ld_unit_zero (S := S1x64) hz]

/-- At a middle point the second total takes the column sums of the squares over what it held. -/
theorem mid1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬Stats2.condFirst i) (hc1 : ¬Stats2.condLast i) (x0 : Vec F S5000x64 .f32) (xs0 xs1 : Vec F S1x64 .f32) (v : View sig .tc .vmem S1x64 .f32) :
    Stats2.rb v (Stats2.runMid c i arg1 harg1 arg2 harg2 arg3 harg3 arg4 harg4 arg5 harg5 hc0 hc1 x0 xs0 xs1).2.1 = k2_pay5 x0 xs1 := by
  unfold Stats2.rb
  rw [View.read_writes_eq_canon _ _ _ (Stats2.scoverMid1 c i arg1 harg1 arg2 harg2 arg3 harg3 arg4 harg4 arg5 harg5 hc0 hc1 x0 xs0 xs1)]
  unfold Stats2.runMid
  dsimp only
  sl_unfold_words
  rw [View.canon_unit_zero hz]
  simp only [View.readAt_eq_ld, harg1.read_unread, harg5.read_unread, View.ld_unit_zero (S := S5000x64) hz, View.ld_unit_zero (S := S1x64) hz]

/-- At the last point the first output receives the first total's new contents. -/
theorem lastO1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬Stats2.condFirst i) (hc1 : Stats2.condLast i) (x0 : Vec F S5000x64 .f32) (xs0 xs1 : Vec F S1x64 .f32) (v : View sig .tc .vmem S1x64 .f32) :
    Stats2.rb v (Stats2.runLast c i arg1 harg1 arg2 harg2 arg3 harg3 arg4 harg4 arg5 harg5 hc0 hc1 x0 xs0 xs1).1 = k2_pay4 x0 xs0 := by
  unfold Stats2.rb
  rw [View.read_writes_eq_canon _ _ _ (Stats2.coverLast1 c i arg1 harg1 arg2 harg2 arg3 harg3 arg4 harg4 arg5 harg5 hc0 hc1 x0 xs0 xs1)]
  unfold Stats2.runLast
  dsimp only
  sl_unfold_words
  rw [View.canon_unit_zero hz, View.readCov_unit_zero (S := S1x64) _ hz]
  simp only [View.readAt_eq_ld, harg1.read_unread, harg4.read_unread, View.ld_unit_zero (S := S5000x64) hz, View.ld_unit_zero (S := S1x64) hz]

/-- At the last point the second output receives the second total's new contents. -/
theorem lastO2 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬Stats2.condFirst i) (hc1 : Stats2.condLast i) (x0 : Vec F S5000x64 .f32) (xs0 xs1 : Vec F S1x64 .f32) (v : View sig .tc .vmem S1x64 .f32) :
    Stats2.rb v (Stats2.runLast c i arg1 harg1 arg2 harg2 arg3 harg3 arg4 harg4 arg5 harg5 hc0 hc1 x0 xs0 xs1).2.1 = k2_pay5 x0 xs1 := by
  unfold Stats2.rb
  rw [View.read_writes_eq_canon _ _ _ (Stats2.coverLast2 c i arg1 harg1 arg2 harg2 arg3 harg3 arg4 harg4 arg5 harg5 hc0 hc1 x0 xs0 xs1)]
  unfold Stats2.runLast
  dsimp only
  sl_unfold_words
  rw [View.canon_unit_zero hz, View.readCov_unit_zero (S := S1x64) _ hz]
  simp only [View.readAt_eq_ld, harg1.read_unread, harg5.read_unread, View.ld_unit_zero (S := S5000x64) hz, View.ld_unit_zero (S := S1x64) hz]

/-- At the last point the first total takes the block's column sums over what it held. -/
theorem lastS0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬Stats2.condFirst i) (hc1 : Stats2.condLast i) (x0 : Vec F S5000x64 .f32) (xs0 xs1 : Vec F S1x64 .f32) (v : View sig .tc .vmem S1x64 .f32) :
    Stats2.rb v (Stats2.runLast c i arg1 harg1 arg2 harg2 arg3 harg3 arg4 harg4 arg5 harg5 hc0 hc1 x0 xs0 xs1).2.2.1 = k2_pay4 x0 xs0 := by
  unfold Stats2.rb
  rw [View.read_writes_eq_canon _ _ _ (Stats2.scoverLast0 c i arg1 harg1 arg2 harg2 arg3 harg3 arg4 harg4 arg5 harg5 hc0 hc1 x0 xs0 xs1)]
  unfold Stats2.runLast
  dsimp only
  sl_unfold_words
  rw [View.canon_unit_zero hz]
  simp only [View.readAt_eq_ld, harg1.read_unread, harg4.read_unread, View.ld_unit_zero (S := S5000x64) hz, View.ld_unit_zero (S := S1x64) hz]

/-- At the last point the second total takes the column sums of the squares over what it held. -/
theorem lastS1 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬Stats2.condFirst i) (hc1 : Stats2.condLast i) (x0 : Vec F S5000x64 .f32) (xs0 xs1 : Vec F S1x64 .f32) (v : View sig .tc .vmem S1x64 .f32) :
    Stats2.rb v (Stats2.runLast c i arg1 harg1 arg2 harg2 arg3 harg3 arg4 harg4 arg5 harg5 hc0 hc1 x0 xs0 xs1).2.2.2.1 = k2_pay5 x0 xs1 := by
  unfold Stats2.rb
  rw [View.read_writes_eq_canon _ _ _ (Stats2.scoverLast1 c i arg1 harg1 arg2 harg2 arg3 harg3 arg4 harg4 arg5 harg5 hc0 hc1 x0 xs0 xs1)]
  unfold Stats2.runLast
  dsimp only
  sl_unfold_words
  rw [View.canon_unit_zero hz]
  simp only [View.readAt_eq_ld, harg1.read_unread, harg5.read_unread, View.ld_unit_zero (S := S5000x64) hz, View.ld_unit_zero (S := S1x64) hz]

end pieces

/-! ## The payloads at an index, on the extended reals -/

/-- The source index of a column sum: the column's index with the row inserted. -/
theorem lift_eq (q : Fin 64) (r : Fin 5000) : reduces_S5000x64_S64.lift (ix1 q) r = ix2 r q := by
  funext a; apply Fin.ext
  match a with
  | ⟨0, _⟩ => rfl
  | ⟨1, _⟩ => rfl

/-- A block's sum over its rows, read at column `q`. -/
theorem colsum (x : FVec Ideal S5000x64 .f32) (hφ : FKind.Formats .f32) (hacc : (0x00000000#32 : BitVec 32) = 0x00000000#32) (q : Fin 64) :
    multiReduction .add [0] S64 x 0x00000000#32 reduces_S5000x64_S64 hφ hacc (ix1 q) = ∑ r : Fin 5000, x (ix2 r q) :=
  (Ideal.multiReduction_add_single x 0x00000000#32 reduces_S5000x64_S64 hφ hacc (ix1 q)).trans
    (Finset.sum_congr rfl fun r _ => congrArg x (lift_eq q r))

/-- The two rows the totals are reset to hold zero. -/
theorem zero1_apply (q : Fin 64) : k2_pay1 (F := Ideal) (ix2 (0 : Fin 1) q) = 0 := by
  unfold k2_pay1
  simp only [shapeCast_self]
  exact Ideal.ofBits_zero_f32
theorem zero2_apply (q : Fin 64) : k2_pay2 (F := Ideal) (ix2 (0 : Fin 1) q) = 0 := by
  unfold k2_pay2
  simp only [shapeCast_self]
  exact Ideal.ofBits_zero_f32

/-- The rectified block at an index: the entry's maximum with zero. -/
theorem relu_apply (x : FVec Ideal S5000x64 .f32) (r : Fin 5000) (q : Fin 64) :
    k2_pay3 (F := Ideal) x (ix2 r q) = max (x (ix2 r q)) (Ideal.ofBits .f32 0x00000000#32) := by
  unfold k2_pay3
  simp only [shapeCast_self]
  rfl

/-- The first total after a point: what it held plus the rectified block's column sum. -/
theorem tot1_apply (x : FVec Ideal S5000x64 .f32) (s : FVec Ideal S1x64 .f32) (q : Fin 64) :
    k2_pay4 (F := Ideal) x s (ix2 (0 : Fin 1) q) = s (ix2 (0 : Fin 1) q) + ∑ r : Fin 5000, max (x (ix2 r q)) (Ideal.ofBits .f32 0x00000000#32) := by
  unfold k2_pay4
  simp only [shapeCast_self]
  refine congrArg (s (ix2 (0 : Fin 1) q) + ·) ?_
  refine (shapeCast_a_1a_apply _ shapeCasts_S64_S1x64 (0 : Fin 1) q).trans ?_
  refine (colsum (k2_pay3 x) _ _ q).trans ?_
  exact Finset.sum_congr rfl fun r _ => relu_apply x r q

/-- The second total after a point: what it held plus the column sum of the rectified block's squares. -/
theorem tot2_apply (x : FVec Ideal S5000x64 .f32) (s : FVec Ideal S1x64 .f32) (q : Fin 64) :
    k2_pay5 (F := Ideal) x s (ix2 (0 : Fin 1) q) = s (ix2 (0 : Fin 1) q) + ∑ r : Fin 5000, max (x (ix2 r q)) (Ideal.ofBits .f32 0x00000000#32) * max (x (ix2 r q)) (Ideal.ofBits .f32 0x00000000#32) := by
  unfold k2_pay5
  simp only [shapeCast_self]
  refine congrArg (s (ix2 (0 : Fin 1) q) + ·) ?_
  refine (shapeCast_a_1a_apply _ shapeCasts_S64_S1x64 (0 : Fin 1) q).trans ?_
  refine (colsum (mulf (k2_pay3 x) (k2_pay3 x)) _ _ q).trans ?_
  exact Finset.sum_congr rfl fun r _ => congrArg₂ (· * ·) (relu_apply x r q) (relu_apply x r q)

/-! ## The totals after each point -/

variable (V : (c : Dev nD) → (b : Ref sig .tc) → Buf (Elt Ideal) ((c : Thread nD τ).loc b))

/-- Block `t` of the array, as the body reads it. -/
def blkAt (c : Dev nD) (t : Fin cfg2.N) : FVec Ideal S5000x64 .f32 := Stats2.iblk V c 0 t

set_option maxHeartbeats 2000000 in
/-- After the first point the totals are the first block's payloads over the zero rows. -/
theorem tot_first (c : Dev nD) (t : Fin cfg2.N) (h0 : t.val = 0) :
    (Stats2.outsAt V c t.val t.isLt).2 = (k2_pay4 (Stats2.iblk V c 0 t) (k2_pay1 (F := Ideal)), k2_pay5 (Stats2.iblk V c 0 t) (k2_pay2 (F := Ideal))) := by
  have hc0 : Stats2.condFirst (grid2.coords t) := (Stats2.hcondFirst t).mpr h0
  have hc1 : ¬Stats2.condLast (grid2.coords t) := fun h => by have := (Stats2.hcondLast t).mp h; omega
  refine (Stats2.outsAt_first V c t h0 hc0 hc1).trans ?_
  exact congrArg₂ Prod.mk (first0 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) Stats2.VS0)
    (first1 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) Stats2.VS1)

set_option maxHeartbeats 2000000 in
/-- After any later point the totals are the point's payloads over what the point before left. -/
theorem tot_step (c : Dev nD) (t : Fin cfg2.N) (h0 : t.val ≠ 0) :
    (Stats2.outsAt V c t.val t.isLt).2 = (k2_pay4 (Stats2.iblk V c 0 t) (Stats2.outsAt V c (t.val - 1) (Nat.lt_of_le_of_lt (Nat.sub_le _ _) t.isLt)).2.1, k2_pay5 (Stats2.iblk V c 0 t) (Stats2.outsAt V c (t.val - 1) (Nat.lt_of_le_of_lt (Nat.sub_le _ _) t.isLt)).2.2) := by
  have hc0 : ¬Stats2.condFirst (grid2.coords t) := fun h => h0 ((Stats2.hcondFirst t).mp h)
  by_cases hl : t.val = 19
  · have hc1 : Stats2.condLast (grid2.coords t) := (Stats2.hcondLast t).mpr hl
    refine (congrArg Prod.snd (Stats2.outsAt_last V c t hl hc0 hc1)).trans ?_
    exact congrArg₂ Prod.mk (lastS0 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) (Stats2.outsAt V c (t.val - 1) (Nat.lt_of_le_of_lt (Nat.sub_le _ _) t.isLt)).2.1 (Stats2.outsAt V c (t.val - 1) (Nat.lt_of_le_of_lt (Nat.sub_le _ _) t.isLt)).2.2 Stats2.VS0)
      (lastS1 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) (Stats2.outsAt V c (t.val - 1) (Nat.lt_of_le_of_lt (Nat.sub_le _ _) t.isLt)).2.1 (Stats2.outsAt V c (t.val - 1) (Nat.lt_of_le_of_lt (Nat.sub_le _ _) t.isLt)).2.2 Stats2.VS1)
  · have hc1 : ¬Stats2.condLast (grid2.coords t) := fun h => hl ((Stats2.hcondLast t).mp h)
    refine (Stats2.outsAt_mid V c t h0 hl hc0 hc1).trans ?_
    exact congrArg₂ Prod.mk (mid0 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) (Stats2.outsAt V c (t.val - 1) (Nat.lt_of_le_of_lt (Nat.sub_le _ _) t.isLt)).2.1 (Stats2.outsAt V c (t.val - 1) (Nat.lt_of_le_of_lt (Nat.sub_le _ _) t.isLt)).2.2 Stats2.VS0)
      (mid1 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) (Stats2.outsAt V c (t.val - 1) (Nat.lt_of_le_of_lt (Nat.sub_le _ _) t.isLt)).2.1 (Stats2.outsAt V c (t.val - 1) (Nat.lt_of_le_of_lt (Nat.sub_le _ _) t.isLt)).2.2 Stats2.VS1)

set_option maxHeartbeats 2000000 in
/-- At the last point the outputs' buffers receive what the totals end with. -/
theorem out_last (c : Dev nD) (t : Fin cfg2.N) (hl : t.val = 19) :
    (Stats2.outsAt V c t.val t.isLt).1 = (Stats2.outsAt V c t.val t.isLt).2 := by
  have hc0 : ¬Stats2.condFirst (grid2.coords t) := fun h => by have := (Stats2.hcondFirst t).mp h; omega
  have hc1 : Stats2.condLast (grid2.coords t) := (Stats2.hcondLast t).mpr hl
  have e := Stats2.outsAt_last V c t hl hc0 hc1
  refine (congrArg Prod.fst e).trans (Eq.trans ?_ (congrArg Prod.snd e).symm)
  exact congrArg₂ Prod.mk ((lastO1 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) (Stats2.outsAt V c (t.val - 1) (Nat.lt_of_le_of_lt (Nat.sub_le _ _) t.isLt)).2.1 (Stats2.outsAt V c (t.val - 1) (Nat.lt_of_le_of_lt (Nat.sub_le _ _) t.isLt)).2.2 Stats2.VO1).trans (lastS0 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) (Stats2.outsAt V c (t.val - 1) (Nat.lt_of_le_of_lt (Nat.sub_le _ _) t.isLt)).2.1 (Stats2.outsAt V c (t.val - 1) (Nat.lt_of_le_of_lt (Nat.sub_le _ _) t.isLt)).2.2 Stats2.VS0).symm)
    ((lastO2 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) (Stats2.outsAt V c (t.val - 1) (Nat.lt_of_le_of_lt (Nat.sub_le _ _) t.isLt)).2.1 (Stats2.outsAt V c (t.val - 1) (Nat.lt_of_le_of_lt (Nat.sub_le _ _) t.isLt)).2.2 Stats2.VO2).trans (lastS1 (F := Ideal) c (grid2.coords t) (Stats2.ms0 t) (Stats2.hs0 t) (Stats2.ms1 t) (Stats2.hs1 t) (Stats2.ms2 t) (Stats2.hs2 t) Stats2.scM0 (Memref.isWhole_whole _) Stats2.scM1 (Memref.isWhole_whole _) hc0 hc1 (Stats2.iblk V c 0 t) (Stats2.outsAt V c (t.val - 1) (Nat.lt_of_le_of_lt (Nat.sub_le _ _) t.isLt)).2.1 (Stats2.outsAt V c (t.val - 1) (Nat.lt_of_le_of_lt (Nat.sub_le _ _) t.isLt)).2.2 Stats2.VS1).symm)

set_option maxHeartbeats 2000000 in
/-- THE ACCUMULATION: after point `n` each total holds, at column `q`, the sum over the points 0 … n of their blocks' column sums. -/
theorem tot_sum (c : Dev nD) (q : Fin 64) : ∀ (n : ℕ) (hn : n < cfg2.N),
    (Stats2.outsAt V c n hn).2.1 (ix2 (0 : Fin 1) q)
        = ∑ t : Fin (n + 1), ∑ r : Fin 5000, max (blkAt V c ⟨t.val, lt_of_lt_of_le t.isLt (Nat.succ_le_of_lt hn)⟩ (ix2 r q)) (Ideal.ofBits .f32 0x00000000#32)
    ∧ (Stats2.outsAt V c n hn).2.2 (ix2 (0 : Fin 1) q)
        = ∑ t : Fin (n + 1), ∑ r : Fin 5000, max (blkAt V c ⟨t.val, lt_of_lt_of_le t.isLt (Nat.succ_le_of_lt hn)⟩ (ix2 r q)) (Ideal.ofBits .f32 0x00000000#32) * max (blkAt V c ⟨t.val, lt_of_lt_of_le t.isLt (Nat.succ_le_of_lt hn)⟩ (ix2 r q)) (Ideal.ofBits .f32 0x00000000#32) := by
  intro n
  induction n with
  | zero =>
    intro hn
    have e := tot_first V c ⟨0, hn⟩ rfl
    refine ⟨?_, ?_⟩
    · refine ((congrFun (congrArg Prod.fst e) (ix2 (0 : Fin 1) q)).trans (tot1_apply (blkAt V c ⟨0, hn⟩) _ q)).trans ?_
      rw [zero1_apply, zero_add]
      symm
      exact Fin.sum_univ_one _
    · refine ((congrFun (congrArg Prod.snd e) (ix2 (0 : Fin 1) q)).trans (tot2_apply (blkAt V c ⟨0, hn⟩) _ q)).trans ?_
      rw [zero2_apply, zero_add]
      symm
      exact Fin.sum_univ_one _
  | succ n ih =>
    intro hn
    have e := tot_step V c ⟨n + 1, hn⟩ (Nat.succ_ne_zero n)
    obtain ⟨i1, i2⟩ := ih (Nat.lt_of_succ_lt hn)
    refine ⟨?_, ?_⟩
    · rw [Fin.sum_univ_castSucc]
      refine ((congrFun (congrArg Prod.fst e) (ix2 (0 : Fin 1) q)).trans (tot1_apply (blkAt V c ⟨n + 1, hn⟩) _ q)).trans ?_
      exact congrArg₂ (· + ·) i1 rfl
    · rw [Fin.sum_univ_castSucc]
      refine ((congrFun (congrArg Prod.snd e) (ix2 (0 : Fin 1) q)).trans (tot2_apply (blkAt V c ⟨n + 1, hn⟩) _ q)).trans ?_
      exact congrArg₂ (· + ·) i2 rfl

/-! ## The blocks as rows of the array -/

/-- The index maps over the grid: the input's block row is the point's number; the two outputs' windows stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Block `t` holds rows 5000·t … 5000·t + 4999 of the array. -/
theorem blk_apply (c : Dev nD) (t : Fin cfg2.N) (r : Fin 5000) (q : Fin 64) (h : 5000 * t.val + r.val < 100000) :
    blkAt V c t (ix2 r q) = V c main_v57 (ix2 (⟨5000 * t.val + r.val, h⟩ : Fin 100000) q) := by
  obtain ⟨e0, e1, -⟩ := idx_facts t
  show V c main_v57 (((cfg2.win 0).blk t).view.emb (ix2 r q)) = _
  refine congrArg (V c main_v57) ?_
  funext a; apply Fin.ext
  match a with
  | ⟨0, _⟩ => show win2_0.index t (0 : Fin 2) * 5000 + 1 * r.val = 5000 * t.val + r.val; rw [e0]; omega
  | ⟨1, _⟩ => show win2_0.index t (1 : Fin 2) * 64 + 1 * q.val = q.val; rw [e1]; omega

/-- 100000 rows as 20 blocks of 5000. -/
theorem sum_rows (f : Fin 100000 → EReal) :
    ∑ t : Fin 20, ∑ r : Fin 5000, f ⟨5000 * t.val + r.val, by omega⟩ = ∑ i : Fin 100000, f i :=
  Cert.LibTiles.sum_tiles_mul 20 5000 f (fun j p => by omega)

/-- THE TOTALS AFTER THE LAST POINT: the column's sum over all the rows of the array `a` (of the entries; of their squares). -/
theorem tot_last (c : Dev nD) (q : Fin 64) (hn : 19 < cfg2.N) (a : S100000x64.Idx → EReal) (ha : ∀ i, V c main_v57 i = a i) :
    (Stats2.outsAt V c 19 hn).2.1 (ix2 (0 : Fin 1) q) = ∑ i : Fin 100000, max (a (ix2 i q)) (Ideal.ofBits .f32 0x00000000#32)
    ∧ (Stats2.outsAt V c 19 hn).2.2 (ix2 (0 : Fin 1) q) = ∑ i : Fin 100000, max (a (ix2 i q)) (Ideal.ofBits .f32 0x00000000#32) * max (a (ix2 i q)) (Ideal.ofBits .f32 0x00000000#32) := by
  obtain ⟨s1, s2⟩ := tot_sum V c q 19 hn
  refine ⟨s1.trans ?_, s2.trans ?_⟩
  · refine (Finset.sum_congr rfl fun t _ => Finset.sum_congr rfl fun r _ => ?_).trans (sum_rows fun i => max (a (ix2 i q)) (Ideal.ofBits .f32 0x00000000#32))
    rw [blk_apply V c ⟨t.val, lt_of_lt_of_le t.isLt (Nat.succ_le_of_lt hn)⟩ r q (by have := t.isLt; have := r.isLt; show 5000 * t.val + r.val < 100000; omega), ha]
  · refine (Finset.sum_congr rfl fun t _ => Finset.sum_congr rfl fun r _ => ?_).trans (sum_rows fun i => max (a (ix2 i q)) (Ideal.ofBits .f32 0x00000000#32) * max (a (ix2 i q)) (Ideal.ofBits .f32 0x00000000#32))
    rw [blk_apply V c ⟨t.val, lt_of_lt_of_le t.isLt (Nat.succ_le_of_lt hn)⟩ r q (by have := t.isLt; have := r.isLt; show 5000 * t.val + r.val < 100000; omega), ha]

/-! ## The two output rows after the region -/

/-- Each column's sum over the 100000 rows of an array `a`, every entry first replaced by its maximum with zero. -/
def colSumRelu (a : S100000x64.Idx → EReal) : S1x64.Idx → EReal := fun j => ∑ i : Fin 100000, max (a (ix2 i (⟨(j 1).val, (j 1).isLt⟩ : Fin 64))) (Ideal.ofBits .f32 0x00000000#32)
/-- Each column's sum of squares of the same entries. -/
def colSumSqRelu (a : S100000x64.Idx → EReal) : S1x64.Idx → EReal := fun j => ∑ i : Fin 100000, max (a (ix2 i (⟨(j 1).val, (j 1).isLt⟩ : Fin 64))) (Ideal.ofBits .f32 0x00000000#32) * max (a (ix2 i (⟨(j 1).val, (j 1).isLt⟩ : Fin 64))) (Ideal.ofBits .f32 0x00000000#32)
theorem colSumRelu_apply (a : S100000x64.Idx → EReal) (j : S1x64.Idx) : colSumRelu a j = ∑ i : Fin 100000, max (a (ix2 i (⟨(j 1).val, (j 1).isLt⟩ : Fin 64))) (Ideal.ofBits .f32 0x00000000#32) := rfl
theorem colSumSqRelu_apply (a : S100000x64.Idx → EReal) (j : S1x64.Idx) : colSumSqRelu a j = ∑ i : Fin 100000, max (a (ix2 i (⟨(j 1).val, (j 1).isLt⟩ : Fin 64))) (Ideal.ofBits .f32 0x00000000#32) * max (a (ix2 i (⟨(j 1).val, (j 1).isLt⟩ : Fin 64))) (Ideal.ofBits .f32 0x00000000#32) := rfl

/-- Reading a row through a point's block of output 1 is the row at the block's embedded index. -/
theorem read1 (G : S1x64.Idx → EReal) (t : Fin cfg2.N) (j : S1x64.Idx) :
    ((cfg2.win 1).blk t).view.read (Elt Ideal) G j = G (((cfg2.win 1).blk t).view.emb j) := rfl

set_option maxHeartbeats 2000000 in
/-- WHAT THE LAST POINT WRITES BACK to output 1 is the whole row of sums; no other point writes it back. -/
theorem flushed1_eq (c : Dev nD) (t : Fin cfg2.N) (ht : (cfg2.win 1).flush t = true) :
    (Stats2.dat V c).flushed 1 t = ((cfg2.win 1).blk t).view.read (Elt Ideal) (colSumRelu (V c main_v57)) := by
  have hN : cfg2.N = 20 := N_2
  have hl : t.val = 19 := by have h := (flush2_1 t).mp ht; have := t.isLt; omega
  have key : ∀ (n : ℕ) (hn : n < cfg2.N), n = 19 → ∀ q : Fin 64,
      (Stats2.outsAt V c n hn).2.1 (ix2 (0 : Fin 1) q) = colSumRelu (V c main_v57) (ix2 (0 : Fin 1) q) := by
    intro n hn h q
    subst h
    exact (tot_last V c q hn (V c main_v57) (fun _ => rfl)).1
  show (cfg2.win 1).cut (grid2.coords t) ((Stats2.dat V c).after 1 t) = _
  rw [Stats2.after1, out_last V c t hl]
  obtain ⟨-, -, e2, e3, e4, e5⟩ := idx_facts t
  funext j
  obtain ⟨u, q, rfl⟩ : ∃ (u : Fin 1) (q : Fin 64), j = ix2 u q := ⟨j 0, j 1, eq_ix2 j⟩
  obtain rfl : u = 0 := Subsingleton.elim u 0
  have hidx : ix2 (0 : Fin 1) q = ((cfg2.win 1).blk t).view.emb (ix2 (0 : Fin 1) q) := by
    funext a; apply Fin.ext
    match a with
    | ⟨0, _⟩ => show 0 = win2_1.index t (0 : Fin 2) * 1 + 1 * 0; rw [e2]
    | ⟨1, _⟩ => show q.val = win2_1.index t (1 : Fin 2) * 64 + 1 * q.val; rw [e3]; omega
  exact ((key t.val t.isLt hl q).trans (congrArg (colSumRelu (V c main_v57)) hidx)).trans
    (read1 (colSumRelu (V c main_v57)) t (ix2 (0 : Fin 1) q)).symm

/-- An index of output 1's row is in point `t`'s block iff each coordinate is in the block's range on its axis. -/
theorem mem_blk1 (t : Fin cfg2.N) (i : S1x64.Idx) :
    i ∈ ((cfg2.win 1).blk t).view.set ↔ ∀ a : Fin 2, win2_1.index t a * S1x64.size a ≤ (i a).val ∧ (i a).val < win2_1.index t a * S1x64.size a + S1x64.size a := by
  show i ∈ ((View.whole main_v58_0).slice (win2_1.rect t)).set ↔ _
  rw [View.set_slice_whole, Rect.mem_set_unit]
  exact Iff.rfl

/-- The last point's block is the whole row. -/
theorem cover1 (i : S1x64.Idx) : ∃ t : Fin cfg2.N, (cfg2.win 1).flush t = true ∧ i ∈ ((cfg2.win 1).blk t).view.set := by
  have hi0 : (i 0).val < 1 := (i 0).isLt
  have hi1 : (i 1).val < 64 := (i 1).isLt
  have hN : cfg2.N = 20 := N_2
  refine ⟨⟨19, by omega⟩, (flush2_1 _).mpr rfl, ?_⟩
  rw [mem_blk1]
  obtain ⟨-, -, e2, e3, e4, e5⟩ := idx_facts ⟨19, by omega⟩
  intro a
  match a with
  | ⟨0, _⟩ => show win2_1.index _ (0 : Fin 2) * 1 ≤ (i 0).val ∧ (i 0).val < win2_1.index _ (0 : Fin 2) * 1 + 1; rw [e2]; omega
  | ⟨1, _⟩ => show win2_1.index _ (1 : Fin 2) * 64 ≤ (i 1).val ∧ (i 1).val < win2_1.index _ (1 : Fin 2) * 64 + 64; rw [e3]; omega

/-- Reading a row through a point's block of output 2 is the row at the block's embedded index. -/
theorem read2 (G : S1x64.Idx → EReal) (t : Fin cfg2.N) (j : S1x64.Idx) :
    ((cfg2.win 2).blk t).view.read (Elt Ideal) G j = G (((cfg2.win 2).blk t).view.emb j) := rfl

set_option maxHeartbeats 2000000 in
/-- WHAT THE LAST POINT WRITES BACK to output 2 is the whole row of sums; no other point writes it back. -/
theorem flushed2_eq (c : Dev nD) (t : Fin cfg2.N) (ht : (cfg2.win 2).flush t = true) :
    (Stats2.dat V c).flushed 2 t = ((cfg2.win 2).blk t).view.read (Elt Ideal) (colSumSqRelu (V c main_v57)) := by
  have hN : cfg2.N = 20 := N_2
  have hl : t.val = 19 := by have h := (flush2_2 t).mp ht; have := t.isLt; omega
  have key : ∀ (n : ℕ) (hn : n < cfg2.N), n = 19 → ∀ q : Fin 64,
      (Stats2.outsAt V c n hn).2.2 (ix2 (0 : Fin 1) q) = colSumSqRelu (V c main_v57) (ix2 (0 : Fin 1) q) := by
    intro n hn h q
    subst h
    exact (tot_last V c q hn (V c main_v57) (fun _ => rfl)).2
  show (cfg2.win 2).cut (grid2.coords t) ((Stats2.dat V c).after 2 t) = _
  rw [Stats2.after2, out_last V c t hl]
  obtain ⟨-, -, e2, e3, e4, e5⟩ := idx_facts t
  funext j
  obtain ⟨u, q, rfl⟩ : ∃ (u : Fin 1) (q : Fin 64), j = ix2 u q := ⟨j 0, j 1, eq_ix2 j⟩
  obtain rfl : u = 0 := Subsingleton.elim u 0
  have hidx : ix2 (0 : Fin 1) q = ((cfg2.win 2).blk t).view.emb (ix2 (0 : Fin 1) q) := by
    funext a; apply Fin.ext
    match a with
    | ⟨0, _⟩ => show 0 = win2_2.index t (0 : Fin 2) * 1 + 1 * 0; rw [e4]
    | ⟨1, _⟩ => show q.val = win2_2.index t (1 : Fin 2) * 64 + 1 * q.val; rw [e5]; omega
  exact ((key t.val t.isLt hl q).trans (congrArg (colSumSqRelu (V c main_v57)) hidx)).trans
    (read2 (colSumSqRelu (V c main_v57)) t (ix2 (0 : Fin 1) q)).symm

/-- An index of output 2's row is in point `t`'s block iff each coordinate is in the block's range on its axis. -/
theorem mem_blk2 (t : Fin cfg2.N) (i : S1x64.Idx) :
    i ∈ ((cfg2.win 2).blk t).view.set ↔ ∀ a : Fin 2, win2_2.index t a * S1x64.size a ≤ (i a).val ∧ (i a).val < win2_2.index t a * S1x64.size a + S1x64.size a := by
  show i ∈ ((View.whole main_v58_1).slice (win2_2.rect t)).set ↔ _
  rw [View.set_slice_whole, Rect.mem_set_unit]
  exact Iff.rfl

/-- The last point's block is the whole row. -/
theorem cover2 (i : S1x64.Idx) : ∃ t : Fin cfg2.N, (cfg2.win 2).flush t = true ∧ i ∈ ((cfg2.win 2).blk t).view.set := by
  have hi0 : (i 0).val < 1 := (i 0).isLt
  have hi1 : (i 1).val < 64 := (i 1).isLt
  have hN : cfg2.N = 20 := N_2
  refine ⟨⟨19, by omega⟩, (flush2_2 _).mpr rfl, ?_⟩
  rw [mem_blk2]
  obtain ⟨-, -, e2, e3, e4, e5⟩ := idx_facts ⟨19, by omega⟩
  intro a
  match a with
  | ⟨0, _⟩ => show win2_2.index _ (0 : Fin 2) * 1 ≤ (i 0).val ∧ (i 0).val < win2_2.index _ (0 : Fin 2) * 1 + 1; rw [e4]; omega
  | ⟨1, _⟩ => show win2_2.index _ (1 : Fin 2) * 64 ≤ (i 1).val ∧ (i 1).val < win2_2.index _ (1 : Fin 2) * 64 + 64; rw [e5]; omega

/-- THE FIRST OUTPUT ROW after the region: each column's sum. -/
theorem final1 (c : Dev nD) : (Stats2.dat V c).arrAt 1 cfg2.N = colSumRelu (V c main_v57) :=
  (Stats2.dat V c).arrAt_eq_of_cover 1 (colSumRelu (V c main_v57)) (fun t ht => flushed1_eq V c t ht) cover1

/-- THE SECOND OUTPUT ROW after the region: each column's sum of squares. -/
theorem final2 (c : Dev nD) : (Stats2.dat V c).arrAt 2 cfg2.N = colSumSqRelu (V c main_v57) :=
  (Stats2.dat V c).arrAt_eq_of_cover 2 (colSumSqRelu (V c main_v57)) (fun t ht => flushed2_eq V c t ht) cover2

end Cert.KernelIdeal.Stats2Value

end
-- ==== Proof.LibMoments.lean ====
/-
  General lemmas on first and second moments over the extended reals, no program in sight.

  For real numbers `a i` over a finite index set of `N ≠ 0` elements, write `S = ∑ a i` and `Q = ∑ (a i)²`.
  The two textbook forms of the (biased) variance agree:

      Q / N − (S / N)²  =  (∑ (a i − S / N)²) / N.

  Over the extended reals the law needs every `a i` FINITE (at an infinity the left side meets `∞ − ∞`), so it is
  stated for real `a`, coerced; the quotient is the extended reals' division by a nonzero real, which is the product
  with the reciprocal. Also here: the coercion of a finite sum of reals, and closure of "is a real number" under the
  operations that occur around such moments.
-/
import Idealize.ShloMosaic.PureOps.Ideal

open scoped BigOperators
open Idealize.ShloMosaic

namespace Cert.LibMoments

/-- The coercion of a finite sum of reals is the sum of the coercions. -/
theorem coe_sum {ι : Type*} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- An extended real that is a real number. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.zero : IsReal (0 : EReal) := ⟨0, rfl⟩
theorem IsReal.sum {ι : Type*} (s : Finset ι) (f : ι → EReal) (h : ∀ i ∈ s, IsReal (f i)) : IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))
/-- The quotient by a nonzero real of a real is a real. -/
theorem IsReal.div_coe {x : EReal} (hx : IsReal x) {y : ℝ} (hy : y ≠ 0) : IsReal (Ideal.div x (y : EReal)) := by
  rw [Ideal.div_coe hy]; exact hx.mul (IsReal.coe _)
/-- The reciprocal square root of a positive real is a real. -/
theorem IsReal.rsqrt_pos {r : ℝ} (hr : 0 < r) : IsReal (Ideal.rsqrt (r : EReal)) := by
  rw [Ideal.rsqrt_coe, if_neg (not_lt.mpr hr.le), if_neg hr.ne']; exact IsReal.coe _

/-- The two forms of the variance of reals, over the reals: `N` the number of terms. -/
theorem real_var {ι : Type*} [Fintype ι] (a : ι → ℝ) (N : ℝ) (hN : N ≠ 0) (hcard : (Fintype.card ι : ℝ) = N) :
    (∑ i, a i * a i) * (1 / N) - ((∑ i, a i) * (1 / N)) * ((∑ i, a i) * (1 / N))
      = (∑ i, (a i - (∑ i, a i) * (1 / N)) * (a i - (∑ i, a i) * (1 / N))) * (1 / N) := by
  have hexp : ∀ μ : ℝ, ∑ i, (a i - μ) * (a i - μ) = (∑ i, a i * a i) - 2 * μ * (∑ i, a i) + N * (μ * μ) := by
    intro μ
    have h1 : ∀ i, (a i - μ) * (a i - μ) = a i * a i - 2 * μ * a i + μ * μ := fun i => by ring
    simp only [h1, Finset.sum_add_distrib, Finset.sum_sub_distrib, ← Finset.mul_sum, Finset.sum_const,
      Finset.card_univ, nsmul_eq_mul, hcard]
    ring
  rw [hexp]
  field_simp
  ring

/-- THE TWO FORMS OF THE VARIANCE over the extended reals, for real terms: the mean of the squares less the square of
    the mean is the mean of the squared deviations from the mean. `N` is the number of terms, as a real. -/
theorem var_forms {ι : Type*} [Fintype ι] (a : ι → ℝ) (N : ℝ) (hN : N ≠ 0) (hcard : (Fintype.card ι : ℝ) = N) :
    Ideal.div (∑ i, (a i : EReal) * (a i : EReal)) (N : EReal)
        - Ideal.div (∑ i, (a i : EReal)) (N : EReal) * Ideal.div (∑ i, (a i : EReal)) (N : EReal)
      = Ideal.div (∑ i, ((a i : EReal) - Ideal.div (∑ i, (a i : EReal)) (N : EReal))
          * ((a i : EReal) - Ideal.div (∑ i, (a i : EReal)) (N : EReal))) (N : EReal) := by
  simp only [Ideal.div_coe hN, ← EReal.coe_mul, ← coe_sum, ← EReal.coe_sub]
  exact congrArg _ (real_var a N hN hcard)

/-- The mean of squared real deviations is not negative: what keeps `variance + ε` positive. -/
theorem mean_sq_dev_nonneg {ι : Type*} [Fintype ι] (a : ι → ℝ) (μ N : ℝ) (hN : 0 < N) :
    0 ≤ (∑ i, (a i - μ) * (a i - μ)) * (1 / N) :=
  mul_nonneg (Finset.sum_nonneg fun i _ => mul_self_nonneg _) (by positivity)

end Cert.LibMoments
-- ==== Proof.Spec.lean ====
/-
  What both programs compute, as one function of the arguments — up to the FORM of the variance.

  A column `f` of 100000 entries has mean  (∑ f) / 100000  and, as its (biased) variance, either  (∑ f²) / 100000 − mean²  (the form
  the kernel's host code takes from its two totals) or  (∑ (f − mean)²) / 100000  (the reference's). An entry is normalised as
  (x − mean) · rsqrt(var + ε) · γ + β. The program: normalise the features column by column, multiply by the weights, run the
  graph-convolution stage `Mid.out`, replace negative entries by zero, normalise again column by column. `final var` is that
  function with `var` for the variance of a column; the two forms agree on columns of real numbers (`var_eq`), which is where the
  precondition (finite inputs) is used.
-/
import proofs.«104982_j16080357556242_1_alg».proof.Proof.Mid
import proofs.«104982_j16080357556242_1_alg».proof.Proof.LibMoments
import Idealize.ShloMosaic.Lib.ValueIdx

noncomputable section

namespace Cert.ReferenceIdeal.Spec

open Cert.ReferenceIdeal Idealize.ShloMosaic Idealize.ShloMosaic.ValueIdx Cert.LibMoments
open scoped BigOperators

/-- The three float literals of both programs, as the extended reals their words denote: 0, the row count 100000, ε. -/
abbrev zero : EReal := Ideal.ofBits .f32 0x00000000#32
abbrev cnt : EReal := Ideal.ofBits .f32 0x47C35000#32
abbrev eps : EReal := Ideal.ofBits .f32 0x3727C5AC#32

/-- A column's mean. -/
def mean (f : Fin 100000 → EReal) : EReal := Ideal.div (∑ i, f i) cnt
/-- A column's variance as the mean of squares less the squared mean. -/
def varSq (f : Fin 100000 → EReal) : EReal := Ideal.div (∑ i, f i * f i) cnt - mean f * mean f
/-- A column's variance as the mean of the squared deviations from the mean. -/
def varDev (f : Fin 100000 → EReal) : EReal := Ideal.div (∑ i, (f i - mean f) * (f i - mean f)) cnt

/-- One normalised entry. -/
def bn (x μ σ g b : EReal) : EReal := ((x - μ) * Ideal.rsqrt (σ + eps)) * g + b

/-- Column `k` of the features. -/
def colX (x : S100000x128.Idx → EReal) (k : Fin 128) : Fin 100000 → EReal := fun r => x (ix2 r k)
/-- Column `o` of the rectified aggregated features. -/
def colR (a : S100000x64.Idx → EReal) (o : Fin 64) : Fin 100000 → EReal := fun r => max (a (ix2 r o)) zero

/-- The projected features: each row of normalised features times the weight matrix. -/
def hOf (var : (Fin 100000 → EReal) → EReal) (x : S100000x128.Idx → EReal) (g0 b0 : S128.Idx → EReal) (W : S128x64.Idx → EReal) :
    S100000x64.Idx → EReal :=
  fun i => ∑ k : Fin 128, bn (x (ix2 (⟨(i 0).val, (i 0).isLt⟩ : Fin 100000) k)) (mean (colX x k)) (var (colX x k)) (g0 (ix1 k)) (b0 (ix1 k))
    * W (ix2 k (⟨(i 1).val, (i 1).isLt⟩ : Fin 64))

/-- The second normalisation of an array `a` [100000, 64]. -/
def normOf (var : (Fin 100000 → EReal) → EReal) (a : S100000x64.Idx → EReal) (g1 b1 : S64.Idx → EReal) : S100000x64.Idx → EReal :=
  fun i => bn (max (a i) zero) (mean (colR a (⟨(i 1).val, (i 1).isLt⟩ : Fin 64))) (var (colR a (⟨(i 1).val, (i 1).isLt⟩ : Fin 64)))
    (g1 (ix1 (⟨(i 1).val, (i 1).isLt⟩ : Fin 64))) (b1 (ix1 (⟨(i 1).val, (i 1).isLt⟩ : Fin 64)))

/-- THE PROGRAM, with `var` for a column's variance. -/
def final (var : (Fin 100000 → EReal) → EReal) (x : S100000x128.Idx → EReal) (ei : IVec S2x1600000 32) (g0 b0 : S128.Idx → EReal)
    (W : S128x64.Idx → EReal) (bias g1 b1 : S64.Idx → EReal) : S100000x64.Idx → EReal :=
  normOf var (Mid.out (F := Ideal) (hOf var x g0 b0 W) ei bias) g1 b1

end Cert.ReferenceIdeal.Spec

end
-- ==== Proof.KI.KernelValue.lean ====
/-
  The idealized kernel program's result is the shared program `Spec.final` with the variance taken as the mean of squares less
  the squared mean: the four regions' values and the host stretches' reads, chained from the last boundary back to the arguments.
-/
import proofs.«104982_j16080357556242_1_alg».proof.Proof.KI.HostReads
import proofs.«104982_j16080357556242_1_alg».proof.Proof.KI.NormValue
import proofs.«104982_j16080357556242_1_alg».proof.Proof.KI.LinearValue
import proofs.«104982_j16080357556242_1_alg».proof.Proof.KI.Stats0Value
import proofs.«104982_j16080357556242_1_alg».proof.Proof.KI.Stats2Value
import proofs.«104982_j16080357556242_1_alg».proof.Proof.Spec
import Idealize.ShloMosaic.Lib.ValueLayout

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open Cert.ReferenceIdeal (Spec.mean Spec.varSq Spec.bn Spec.colX Spec.colR Spec.hOf Spec.normOf Spec.final Spec.zero Spec.cnt Spec.eps)
open scoped BigOperators

variable (m : (ℓ : Loc nD τ sig) → Buf (Elt Ideal) ℓ) (ρ : Dev nD → PrngReg)

/-! ## Buffers followed back to the boundary that last wrote them -/

theorem V1_arg0 (c : Dev nD) : Whole.V1 m ρ c main_arg0 = m ((c : Thread nD τ).loc main_arg0) :=
  (StableHlo.after_of_writes_sub hostOps0 _ hostOps0_writes (by decide)).trans rfl
theorem V3_arg0 (c : Dev nD) : Whole.V3 m ρ c main_arg0 = m ((c : Thread nD τ).loc main_arg0) :=
  (StableHlo.after_of_writes_sub hostOps1 _ hostOps1_writes (by decide)).trans
    (((Whole.W2_arr m ρ c 0).trans (((Stats0.dat (Whole.V1 m ρ) c).arrAt_in 0 rfl _).trans (Stats0.A_eq (Whole.V1 m ρ) c 0))).trans (V1_arg0 m ρ c))
theorem V3_arg4 (c : Dev nD) : Whole.V3 m ρ c main_arg4 = m ((c : Thread nD τ).loc main_arg4) :=
  (StableHlo.after_of_writes_sub hostOps1 _ hostOps1_writes (by decide)).trans ((Whole.W2_of_ne m ρ c main_arg4 (by decide)).trans ((StableHlo.after_of_writes_sub hostOps0 _ hostOps0_writes (by decide)).trans rfl))
theorem V3_v0 (c : Dev nD) : Whole.V3 m ρ c main_v0 = shapeCast S1x128 (m ((c : Thread nD τ).loc main_arg2)) shapeCasts_S128_S1x128 :=
  (StableHlo.after_of_writes_sub hostOps1 _ hostOps1_writes (by decide)).trans ((Whole.W2_of_ne m ρ c main_v0 (by decide)).trans (HostReads.W1_v0 m ρ c))
theorem V3_v1 (c : Dev nD) : Whole.V3 m ρ c main_v1 = shapeCast S1x128 (m ((c : Thread nD τ).loc main_arg3)) shapeCasts_S128_S1x128 :=
  (StableHlo.after_of_writes_sub hostOps1 _ hostOps1_writes (by decide)).trans ((Whole.W2_of_ne m ρ c main_v1 (by decide)).trans (HostReads.W1_v1 m ρ c))
theorem W4_arg1 (c : Dev nD) : Whole.W4 m ρ c (Proc.devRef .tc main_arg1) = m ((c : Thread nD τ).loc main_arg1) :=
  (Whole.W4_of_ne m ρ c main_arg1 (by decide)).trans ((StableHlo.after_of_writes_sub hostOps1 _ hostOps1_writes (by decide)).trans ((Whole.W2_of_ne m ρ c main_arg1 (by decide)).trans ((StableHlo.after_of_writes_sub hostOps0 _ hostOps0_writes (by decide)).trans rfl)))
theorem W4_arg5 (c : Dev nD) : Whole.W4 m ρ c (Proc.devRef .tc main_arg5) = m ((c : Thread nD τ).loc main_arg5) :=
  (Whole.W4_of_ne m ρ c main_arg5 (by decide)).trans ((StableHlo.after_of_writes_sub hostOps1 _ hostOps1_writes (by decide)).trans ((Whole.W2_of_ne m ρ c main_arg5 (by decide)).trans ((StableHlo.after_of_writes_sub hostOps0 _ hostOps0_writes (by decide)).trans rfl)))
theorem V9_v57 (c : Dev nD) : Whole.V9 m ρ c main_v57 = Whole.W7 m ρ c (Proc.devRef .tc main_v57) :=
  (StableHlo.after_of_writes_sub hostOps3 _ hostOps3_writes (by decide)).trans
    ((Whole.W8_arr m ρ c 0).trans (((Stats2.dat (Whole.V7 m ρ) c).arrAt_in 0 rfl _).trans (Stats2.A_eq (Whole.V7 m ρ) c 0)))
/-- A row of affine parameters of the last region, followed back to the first stretch. -/
theorem W9_of_W1 (c : Dev nD) (b : Ref sig .tc) (h3 : b ∉ hostOps3_W) (h8 : ∀ w, Pipeline.arrRef spec2 w ≠ b) (h22 : b ∉ hostOps2_2_W)
    (h21 : b ∉ hostOps2_1_W) (h2 : b ∉ hostOps2_W) (h4 : ∀ w, Pipeline.arrRef spec1 w ≠ b) (h1 : b ∉ hostOps1_W) (h0 : ∀ w, Pipeline.arrRef spec0 w ≠ b) :
    Whole.W9 m ρ c (Proc.devRef .tc b) = Whole.W1 m ρ c (Proc.devRef .tc b) :=
  (StableHlo.after_of_writes_sub hostOps3 _ hostOps3_writes h3).trans ((Whole.W8_of_ne m ρ c b h8).trans
    ((StableHlo.after_of_writes_sub hostOps2_2 _ hostOps2_2_writes h22).trans ((StableHlo.after_of_writes_sub hostOps2_1 _ hostOps2_1_writes h21).trans
      ((StableHlo.after_of_writes_sub hostOps2 _ hostOps2_writes h2).trans ((Whole.W4_of_ne m ρ c b h4).trans
        ((StableHlo.after_of_writes_sub hostOps1 _ hostOps1_writes h1).trans (Whole.W2_of_ne m ρ c b h0)))))))
theorem V9_v2 (c : Dev nD) : Whole.V9 m ρ c main_v2 = shapeCast S1x64 (m ((c : Thread nD τ).loc main_arg6)) shapeCasts_S64_S1x64 :=
  (W9_of_W1 m ρ c main_v2 (by decide) (by decide) (by decide) (by decide) (by decide) (by decide) (by decide) (by decide)).trans (HostReads.W1_v2 m ρ c)
theorem V9_v3 (c : Dev nD) : Whole.V9 m ρ c main_v3 = shapeCast S1x64 (m ((c : Thread nD τ).loc main_arg7)) shapeCasts_S64_S1x64 :=
  (W9_of_W1 m ρ c main_v3 (by decide) (by decide) (by decide) (by decide) (by decide) (by decide) (by decide) (by decide)).trans (HostReads.W1_v3 m ρ c)

/-! ## The totals, the means and the variances -/

theorem W2_v4_0 (c : Dev nD) : Whole.W2 m ρ c (Proc.devRef .tc main_v4_0) = Stats0Value.colSum (m ((c : Thread nD τ).loc main_arg0)) :=
  (Whole.W2_arr m ρ c 1).trans ((Stats0Value.final1 (Whole.V1 m ρ) c).trans (congrArg Stats0Value.colSum (V1_arg0 m ρ c)))
theorem W2_v4_1 (c : Dev nD) : Whole.W2 m ρ c (Proc.devRef .tc main_v4_1) = Stats0Value.colSumSq (m ((c : Thread nD τ).loc main_arg0)) :=
  (Whole.W2_arr m ρ c 2).trans ((Stats0Value.final2 (Whole.V1 m ρ) c).trans (congrArg Stats0Value.colSumSq (V1_arg0 m ρ c)))
theorem W8_v58_0 (c : Dev nD) : Whole.W8 m ρ c (Proc.devRef .tc main_v58_0) = Stats2Value.colSumRelu (Whole.W7 m ρ c (Proc.devRef .tc main_v57)) :=
  (Whole.W8_arr m ρ c 1).trans (Stats2Value.final1 (Whole.V7 m ρ) c)
theorem W8_v58_1 (c : Dev nD) : Whole.W8 m ρ c (Proc.devRef .tc main_v58_1) = Stats2Value.colSumSqRelu (Whole.W7 m ρ c (Proc.devRef .tc main_v57)) :=
  (Whole.W8_arr m ρ c 2).trans (Stats2Value.final2 (Whole.V7 m ρ) c)

theorem V3_v6 (c : Dev nD) : Whole.V3 m ρ c main_v6 = HostReads.meanOf (Stats0Value.colSum (m ((c : Thread nD τ).loc main_arg0))) bcast_S_S1x128 :=
  (HostReads.W3_v6 m ρ c).trans (by rw [W2_v4_0])
theorem V3_v10 (c : Dev nD) : Whole.V3 m ρ c main_v10
    = HostReads.varOf (Stats0Value.colSum (m ((c : Thread nD τ).loc main_arg0))) (Stats0Value.colSumSq (m ((c : Thread nD τ).loc main_arg0))) bcast_S_S1x128 :=
  (HostReads.W3_v10 m ρ c).trans (by rw [W2_v4_0, W2_v4_1])
theorem V9_v60 (c : Dev nD) : Whole.V9 m ρ c main_v60 = HostReads.meanOf (Stats2Value.colSumRelu (Whole.W7 m ρ c (Proc.devRef .tc main_v57))) bcast_S_S1x64 :=
  (HostReads.W9_v60 m ρ c).trans (by rw [W8_v58_0])
theorem V9_v64 (c : Dev nD) : Whole.V9 m ρ c main_v64
    = HostReads.varOf (Stats2Value.colSumRelu (Whole.W7 m ρ c (Proc.devRef .tc main_v57))) (Stats2Value.colSumSqRelu (Whole.W7 m ρ c (Proc.devRef .tc main_v57))) bcast_S_S1x64 :=
  (HostReads.W9_v64 m ρ c).trans (by rw [W8_v58_0, W8_v58_1])

/-- The second region's output. -/
theorem W4_v11 (c : Dev nD) : Whole.W4 m ρ c (Proc.devRef .tc main_v11)
    = LinearValue.G (m ((c : Thread nD τ).loc main_arg0)) (HostReads.meanOf (Stats0Value.colSum (m ((c : Thread nD τ).loc main_arg0))) bcast_S_S1x128)
        (HostReads.varOf (Stats0Value.colSum (m ((c : Thread nD τ).loc main_arg0))) (Stats0Value.colSumSq (m ((c : Thread nD τ).loc main_arg0))) bcast_S_S1x128)
        (shapeCast S1x128 (m ((c : Thread nD τ).loc main_arg2)) shapeCasts_S128_S1x128) (shapeCast S1x128 (m ((c : Thread nD τ).loc main_arg3)) shapeCasts_S128_S1x128)
        (m ((c : Thread nD τ).loc main_arg4)) :=
  (Whole.W4_arr m ρ c 6).trans ((LinearValue.final (Whole.V3 m ρ) c).trans (by rw [V3_arg0, V3_v6, V3_v10, V3_v0, V3_v1, V3_arg4]))

/-! ## The two normalisations, index by index -/

theorem fin1 {n : ℕ} (k : Fin n) : (⟨((ix2 (0 : Fin 1) k : (⟨2, ![1, n]⟩ : Shape).Idx) 1).val, ((ix2 (0 : Fin 1) k : (⟨2, ![1, n]⟩ : Shape).Idx) 1).isLt⟩ : Fin n) = k := Fin.ext rfl

/-- The second region's output is the shared projection with the variance as mean of squares less squared mean. -/
theorem hK (x : S100000x128.Idx → EReal) (g0 b0 : S128.Idx → EReal) (W : S128x64.Idx → EReal) :
    LinearValue.G x (HostReads.meanOf (Stats0Value.colSum x) bcast_S_S1x128) (HostReads.varOf (Stats0Value.colSum x) (Stats0Value.colSumSq x) bcast_S_S1x128)
      (shapeCast S1x128 g0 shapeCasts_S128_S1x128) (shapeCast S1x128 b0 shapeCasts_S128_S1x128) W
    = Spec.hOf Spec.varSq x g0 b0 W := by
  funext i
  unfold LinearValue.G Spec.hOf
  refine Finset.sum_congr rfl fun k _ => ?_
  rw [shapeCast_a_1a_apply g0, shapeCast_a_1a_apply b0]
  have hm : HostReads.meanOf (Stats0Value.colSum x) bcast_S_S1x128 (ix2 (0 : Fin 1) k) = Spec.mean (Spec.colX x k) := by
    show Ideal.div (Stats0Value.colSum x (ix2 (0 : Fin 1) k)) Spec.cnt = _
    rw [Stats0Value.colSum_apply]
    simp only [fin1]
    rfl
  have hv : HostReads.varOf (Stats0Value.colSum x) (Stats0Value.colSumSq x) bcast_S_S1x128 (ix2 (0 : Fin 1) k) = Spec.varSq (Spec.colX x k) := by
    show Ideal.div (Stats0Value.colSumSq x (ix2 (0 : Fin 1) k)) Spec.cnt
      - HostReads.meanOf (Stats0Value.colSum x) bcast_S_S1x128 (ix2 (0 : Fin 1) k) * HostReads.meanOf (Stats0Value.colSum x) bcast_S_S1x128 (ix2 (0 : Fin 1) k) = _
    rw [hm, Stats0Value.colSumSq_apply]
    simp only [fin1]
    rfl
  rw [hm, hv]
  rfl

/-- The last region's output is the shared second normalisation of the array it reads, with the same form of the variance. -/
theorem nK (a : S100000x64.Idx → EReal) (g1 b1 : S64.Idx → EReal) :
    NormValue.G a (HostReads.meanOf (Stats2Value.colSumRelu a) bcast_S_S1x64) (HostReads.varOf (Stats2Value.colSumRelu a) (Stats2Value.colSumSqRelu a) bcast_S_S1x64)
      (shapeCast S1x64 g1 shapeCasts_S64_S1x64) (shapeCast S1x64 b1 shapeCasts_S64_S1x64)
    = Spec.normOf Spec.varSq a g1 b1 := by
  funext i
  unfold NormValue.G Spec.normOf
  generalize (⟨(i 1).val, (i 1).isLt⟩ : Fin 64) = o
  rw [shapeCast_a_1a_apply g1, shapeCast_a_1a_apply b1]
  have hm : HostReads.meanOf (Stats2Value.colSumRelu a) bcast_S_S1x64 (ix2 (0 : Fin 1) o) = Spec.mean (Spec.colR a o) := by
    show Ideal.div (Stats2Value.colSumRelu a (ix2 (0 : Fin 1) o)) Spec.cnt = _
    rw [Stats2Value.colSumRelu_apply]
    simp only [fin1]
    rfl
  have hv : HostReads.varOf (Stats2Value.colSumRelu a) (Stats2Value.colSumSqRelu a) bcast_S_S1x64 (ix2 (0 : Fin 1) o) = Spec.varSq (Spec.colR a o) := by
    show Ideal.div (Stats2Value.colSumSqRelu a (ix2 (0 : Fin 1) o)) Spec.cnt
      - HostReads.meanOf (Stats2Value.colSumRelu a) bcast_S_S1x64 (ix2 (0 : Fin 1) o) * HostReads.meanOf (Stats2Value.colSumRelu a) bcast_S_S1x64 (ix2 (0 : Fin 1) o) = _
    rw [hm, Stats2Value.colSumSqRelu_apply]
    simp only [fin1]
    rfl
  rw [hm, hv]
  rfl

/-- THE IDEALIZED KERNEL PROGRAM'S RESULT is the shared program with the variance as the mean of squares less the squared mean. -/
theorem final_eq (c : Dev nD) : Whole.W10 m ρ c (Proc.devRef .tc main_v65)
    = Spec.final Spec.varSq (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have e1 : Whole.W10 m ρ c (Proc.devRef .tc main_v65) = (Norm.dat (Whole.V9 m ρ) c).arrAt 5 cfg3.N := Whole.W10_arr m ρ c 5
  rw [e1, NormValue.final, V9_v60, V9_v64, V9_v2, V9_v3, V9_v57, HostReads.W7_v57, W4_v11, W4_arg1, W4_arg5, hK, nK]
  rfl

end Cert.KernelIdeal.KernelValue

end
-- ==== Proof.RefMid.lean ====
/-
  The reference's graph-convolution stage is the shared function `Mid.out` of its own projected features: the reference's
  operations from the self-loop indices to the bias, unfolded one definition at a time, are that function's text.
  Also here: the reference's projected features, and its last stage, read at an index.
-/
import proofs.«104982_j16080357556242_1_alg».proof.Proof.RefRead
import proofs.«104982_j16080357556242_1_alg».proof.Proof.Mid

noncomputable section

namespace Cert.ReferenceIdeal.RefMid

open Cert.ReferenceIdeal Cert.ReferenceIdeal.Gen Cert.ReferenceIdeal.ReadP Idealize.ShloMosaic Idealize.ShloMosaic.TcCoe

variable {F : FTy → Type} [FloatOps F]

set_option maxRecDepth 8192 in
/-- The reference's aggregated features are the shared stage applied to its projected features, the edge list and the bias. -/
theorem out_eq (x0 : (⟨S100000x128, .f32⟩ : BufTy).Contents (Elt F)) (x1 : (⟨S2x1600000, .i32⟩ : BufTy).Contents (Elt F)) (x2 x3 : (⟨S128, .f32⟩ : BufTy).Contents (Elt F)) (x4 : (⟨S128x64, .f32⟩ : BufTy).Contents (Elt F)) (x5 : (⟨S64, .f32⟩ : BufTy).Contents (Elt F)) :
    val_main_v71 (F := F) x0 x1 x2 x3 x4 x5 = Mid.out (val_main_v25 (F := F) x0 x2 x3 x4) x1 x5 := by
  unfold val_main_v71 val_main_v70 val_main_v69 val_main_v68 val_main_v67 val_main_v66 val_main_cst_13 val_main_v65 val_main_v64 val_main_v63 val_main_v62 val_main_v61 val_main_v60 val_main_v59 val_main_v58 val_main_c_12 val_main_v57 val_main_v56 val_main_c_11 val_main_v55 val_main_v54 val_main_v53 val_main_v52 val_main_v51 val_main_v50 val_main_c_10 val_main_v49 val_main_v48 val_main_c_9 val_main_v47 val_main_v46 val_main_v45 val_main_v44 val_main_v43 val_main_c_8 val_main_v42 val_main_v41 val_main_c val_main_v40 val_main_call0_v1 val_main_call0_v0 val_main_cst_7 val_main_v39 val_main_v38 val_main_v37 val_main_cst_6 val_main_v36 val_main_v35 val_main_v34 val_main_cst_5 val_main_v33 val_main_cst_4 val_main_v32 val_main_v31 val_main_v30 val_main_v29 val_main_v28 val_main_v27 val_main_v26
  unfold Mid.out Mid.msgs Mid.norm Mid.dinv Mid.deg Mid.wrap Mid.row Mid.col
  rfl

end Cert.ReferenceIdeal.RefMid

end
-- ==== Proof.RefValue.lean ====
/-
  The reference's result is the shared program `Spec.final` with the variance taken as the mean of squared deviations:
  the reference's operations read at an index, one stage at a time.
-/
import proofs.«104982_j16080357556242_1_alg».proof.Proof.RefMid
import proofs.«104982_j16080357556242_1_alg».proof.Proof.Spec

set_option maxRecDepth 16384

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx
open scoped BigOperators

variable (x0 : (⟨S100000x128, .f32⟩ : BufTy).Contents (Elt Ideal)) (x1 : (⟨S2x1600000, .i32⟩ : BufTy).Contents (Elt Ideal))
  (x2 x3 : (⟨S128, .f32⟩ : BufTy).Contents (Elt Ideal)) (x4 : (⟨S128x64, .f32⟩ : BufTy).Contents (Elt Ideal))
  (x5 x6 x7 : (⟨S64, .f32⟩ : BufTy).Contents (Elt Ideal))

theorem idx0 (k : Fin 128) (r : Fin 100000) : idx_main_v0 (ix1 k) r = ix2 r k :=
  funext fun a => Fin.ext (by match a with | ⟨0, _⟩ => rfl | ⟨1, _⟩ => rfl)
theorem idx7 (k : Fin 128) (r : Fin 100000) : idx_main_v7 (ix1 k) r = ix2 r k :=
  funext fun a => Fin.ext (by match a with | ⟨0, _⟩ => rfl | ⟨1, _⟩ => rfl)

/-! A row broadcast over the rows and back to a vector reads the vector at the column. -/
theorem i3_4 (r : Fin 100000) (k : Fin 128) : idx_main_v3 (idx_main_v4 (ix2 r k)) = ix1 k :=
  funext fun a => Fin.ext (by match a with | ⟨0, _⟩ => rfl)
theorem i10_11 (r : Fin 100000) (k : Fin 128) : idx_main_v10 (idx_main_v11 (ix2 r k)) = ix1 k :=
  funext fun a => Fin.ext (by match a with | ⟨0, _⟩ => rfl)
theorem i16_17 (r : Fin 100000) (k : Fin 128) : idx_main_v16 (idx_main_v17 (ix2 r k)) = ix1 k :=
  funext fun a => Fin.ext (by match a with | ⟨0, _⟩ => rfl)
theorem i19_20 (r : Fin 100000) (k : Fin 128) : idx_main_v19 (idx_main_v20 (ix2 r k)) = ix1 k :=
  funext fun a => Fin.ext (by match a with | ⟨0, _⟩ => rfl)
theorem i22_23 (r : Fin 100000) (k : Fin 128) : idx_main_v22 (idx_main_v23 (ix2 r k)) = ix1 k :=
  funext fun a => Fin.ext (by match a with | ⟨0, _⟩ => rfl)

/-- The reference's mean of feature column `k`. -/
theorem mu0 (k : Fin 128) : val_main_v2 (F := Ideal) x0 (ix1 k) = Spec.mean (Spec.colX x0 k) := by
  rw [val_main_v2_apply, val_main_v0_apply, val_main_v1_apply]
  unfold Spec.mean Spec.colX val_main_cst val_main_cst_0
  simp only [idx0, constant_apply, Ideal.hostDivf_def, Ideal.ofBits_zero_f32, zero_add]

/-- The reference's centred feature. -/
theorem dev0 (r : Fin 100000) (k : Fin 128) : val_main_v5 (F := Ideal) x0 (ix2 r k) = x0 (ix2 r k) - Spec.mean (Spec.colX x0 k) := by
  rw [val_main_v5_apply, val_main_v4_apply, val_main_v3_apply, i3_4, mu0]
  rfl

/-- The reference's variance of feature column `k`. -/
theorem sig0 (k : Fin 128) : val_main_v9 (F := Ideal) x0 (ix1 k) = Spec.varDev (Spec.colX x0 k) := by
  rw [val_main_v9_apply, val_main_v7_apply]
  rw [val_main_v8_apply]
  unfold Spec.varDev Spec.colX val_main_cst_1 val_main_cst_2
  simp only [idx7, val_main_v6_apply, dev0, constant_apply, Ideal.hostDivf_def, Ideal.mulf_def, Ideal.ofBits_zero_f32, zero_add]
  rfl

/-- The reference's normalised feature. -/
theorem xn24 (r : Fin 100000) (k : Fin 128) : val_main_v24 (F := Ideal) x0 x2 x3 (ix2 r k)
    = Spec.bn (x0 (ix2 r k)) (Spec.mean (Spec.colX x0 k)) (Spec.varDev (Spec.colX x0 k)) (x2 (ix1 k)) (x3 (ix1 k)) := by
  rw [val_main_v24_apply, val_main_v21_apply, val_main_v18_apply, val_main_v12_apply, val_main_v11_apply, val_main_v10_apply,
    val_main_v17_apply, val_main_v16_apply, val_main_v15_apply, val_main_v14_apply, val_main_v13_apply,
    val_main_v20_apply, val_main_v19_apply, val_main_v23_apply, val_main_v22_apply]
  rw [i10_11, i16_17, i19_20, i22_23, mu0, sig0]
  unfold Spec.bn val_main_cst_3
  rfl

/-- The reference's projected features. -/
theorem h25 : val_main_v25 (F := Ideal) x0 x2 x3 x4 = Spec.hOf Spec.varDev x0 x2 x3 x4 := by
  funext i
  rw [val_main_v25_apply]
  unfold Spec.hOf
  refine Finset.sum_congr rfl fun k _ => ?_
  have el : lidx_main_v25 i k = ix2 (⟨(i 0).val, (i 0).isLt⟩ : Fin 100000) k :=
    funext fun a => Fin.ext (by match a with | ⟨0, _⟩ => rfl | ⟨1, _⟩ => rfl)
  have er : ridx_main_v25 i k = ix2 k (⟨(i 1).val, (i 1).isLt⟩ : Fin 64) :=
    funext fun a => Fin.ext (by match a with | ⟨0, _⟩ => rfl | ⟨1, _⟩ => rfl)
  rw [el, er, xn24]

/-! ## The second normalisation -/

-- the aggregated features stay folded: nothing below opens them
attribute [local irreducible] val_main_v71 Spec.mean

theorem j76_77 (r : Fin 100000) (o : Fin 64) : idx_main_v76 (idx_main_v77 (ix2 r o)) = ix1 o :=
  funext fun a => Fin.ext (by match a with | ⟨0, _⟩ => rfl)
theorem j83_84 (r : Fin 100000) (o : Fin 64) : idx_main_v83 (idx_main_v84 (ix2 r o)) = ix1 o :=
  funext fun a => Fin.ext (by match a with | ⟨0, _⟩ => rfl)
theorem j89_90 (r : Fin 100000) (o : Fin 64) : idx_main_v89 (idx_main_v90 (ix2 r o)) = ix1 o :=
  funext fun a => Fin.ext (by match a with | ⟨0, _⟩ => rfl)
theorem j92_93 (r : Fin 100000) (o : Fin 64) : idx_main_v92 (idx_main_v93 (ix2 r o)) = ix1 o :=
  funext fun a => Fin.ext (by match a with | ⟨0, _⟩ => rfl)
theorem j95_96 (r : Fin 100000) (o : Fin 64) : idx_main_v95 (idx_main_v96 (ix2 r o)) = ix1 o :=
  funext fun a => Fin.ext (by match a with | ⟨0, _⟩ => rfl)
theorem idx73 (o : Fin 64) (r : Fin 100000) : idx_main_v73 (ix1 o) r = ix2 r o :=
  funext fun a => Fin.ext (by match a with | ⟨0, _⟩ => rfl | ⟨1, _⟩ => rfl)
theorem idx80 (o : Fin 64) (r : Fin 100000) : idx_main_v80 (ix1 o) r = ix2 r o :=
  funext fun a => Fin.ext (by match a with | ⟨0, _⟩ => rfl | ⟨1, _⟩ => rfl)

/-- The rectified aggregated features. -/
theorem r72 (i : S100000x64.Idx) : val_main_v72 (F := Ideal) x0 x1 x2 x3 x4 x5 i = max (val_main_v71 (F := Ideal) x0 x1 x2 x3 x4 x5 i) Spec.zero := by
  rw [val_main_v72_apply, val_main_call1_v0_apply]
  unfold val_main_call1_cst
  generalize val_main_v71 (F := Ideal) x0 x1 x2 x3 x4 x5 = A
  rfl

/-- The reference's mean of rectified column `o`. -/
theorem mu1 (o : Fin 64) : val_main_v75 (F := Ideal) x0 x1 x2 x3 x4 x5 (ix1 o) = Spec.mean (Spec.colR (val_main_v71 (F := Ideal) x0 x1 x2 x3 x4 x5) o) := by
  rw [val_main_v75_apply, val_main_v73_apply, val_main_v74_apply]
  unfold Spec.mean Spec.colR val_main_cst_14 val_main_cst_15
  simp only [idx73, r72, constant_apply, Ideal.hostDivf_def, Ideal.ofBits_zero_f32, zero_add]

/-- The reference's centred rectified feature. -/
theorem dev1 (r : Fin 100000) (o : Fin 64) : val_main_v78 (F := Ideal) x0 x1 x2 x3 x4 x5 (ix2 r o)
    = max (val_main_v71 (F := Ideal) x0 x1 x2 x3 x4 x5 (ix2 r o)) Spec.zero - Spec.mean (Spec.colR (val_main_v71 (F := Ideal) x0 x1 x2 x3 x4 x5) o) := by
  rw [val_main_v78_apply, val_main_v77_apply, val_main_v76_apply, j76_77, mu1, r72]
  exact Ideal.subf_def _ _

/-- The reference's variance of rectified column `o`. -/
theorem sig1 (o : Fin 64) : val_main_v82 (F := Ideal) x0 x1 x2 x3 x4 x5 (ix1 o) = Spec.varDev (Spec.colR (val_main_v71 (F := Ideal) x0 x1 x2 x3 x4 x5) o) := by
  rw [val_main_v82_apply, val_main_v80_apply, val_main_v81_apply, val_main_cst_16_apply, val_main_cst_17_apply]
  have hsum : (∑ k : Fin 100000, val_main_v79 (F := Ideal) x0 x1 x2 x3 x4 x5 (idx_main_v80 (ix1 o) k))
      = ∑ k : Fin 100000, (Spec.colR (val_main_v71 (F := Ideal) x0 x1 x2 x3 x4 x5) o k - Spec.mean (Spec.colR (val_main_v71 (F := Ideal) x0 x1 x2 x3 x4 x5) o))
          * (Spec.colR (val_main_v71 (F := Ideal) x0 x1 x2 x3 x4 x5) o k - Spec.mean (Spec.colR (val_main_v71 (F := Ideal) x0 x1 x2 x3 x4 x5) o)) :=
    Finset.sum_congr rfl fun k _ => by
      rw [idx80, val_main_v79_apply, dev1]
      exact Ideal.mulf_def _ _
  rw [hsum, Ideal.ofBits_def, Ideal.ofBits_def, Ideal.ofBits_zero_f32, zero_add]
  unfold Spec.varDev
  exact Ideal.hostDivf_def _ _

/-- The second normalisation of an array, read at row `r`, column `o`. -/
theorem normOf_apply (var : (Fin 100000 → EReal) → EReal) (a : S100000x64.Idx → EReal) (g1 b1 : S64.Idx → EReal) (r : Fin 100000) (o : Fin 64) :
    Spec.normOf var a g1 b1 (ix2 r o)
      = Spec.bn (max (a (ix2 r o)) Spec.zero) (Spec.mean (Spec.colR a o)) (var (Spec.colR a o)) (g1 (ix1 o)) (b1 (ix1 o)) := rfl

/-- The reference's result at row `r`, column `o`. -/
theorem fin97 (r : Fin 100000) (o : Fin 64) : val_main_v97 (F := Ideal) x0 x1 x2 x3 x4 x5 x6 x7 (ix2 r o)
    = Spec.bn (max (val_main_v71 (F := Ideal) x0 x1 x2 x3 x4 x5 (ix2 r o)) Spec.zero) (Spec.mean (Spec.colR (val_main_v71 (F := Ideal) x0 x1 x2 x3 x4 x5) o))
        (Spec.varDev (Spec.colR (val_main_v71 (F := Ideal) x0 x1 x2 x3 x4 x5) o)) (x6 (ix1 o)) (x7 (ix1 o)) := by
  rw [val_main_v97_apply, val_main_v96_apply, val_main_v95_apply, val_main_v94_apply, val_main_v93_apply, val_main_v92_apply,
    val_main_v91_apply, val_main_v90_apply, val_main_v89_apply, val_main_v88_apply, val_main_v87_apply, val_main_v86_apply,
    val_main_v85_apply, val_main_v84_apply, val_main_v83_apply]
  rw [j83_84, j89_90, j92_93, j95_96, mu1, sig1, r72, val_main_cst_18_apply, Ideal.ofBits_def]
  unfold Spec.bn
  rw [Ideal.addf_def, Ideal.mulf_def, Ideal.mulf_def, Ideal.subf_def, Ideal.hostUnary_rsqrt_def, Ideal.addf_def]

/-- THE REFERENCE'S RESULT is the shared program with the variance as the mean of squared deviations. -/
theorem final_eq : val_main_v97 (F := Ideal) x0 x1 x2 x3 x4 x5 x6 x7 = Spec.final Spec.varDev x0 x1 x2 x3 x4 x5 x6 x7 := by
  funext i
  obtain ⟨r, o, rfl⟩ : ∃ (r : Fin 100000) (o : Fin 64), i = ix2 r o := ⟨i 0, i 1, eq_ix2 i⟩
  rw [fin97]
  unfold Spec.final
  rw [normOf_apply, ← h25, ← RefMid.out_eq]

end Cert.ReferenceIdeal.RefValue

end
-- ==== Proof.Finite.lean ====
/-
  FINITENESS. Over the extended reals the graph-convolution stage keeps real entries real: every operation it
  applies (an accumulating scatter, a reciprocal square root taken only where the degree is positive, gathers,
  broadcasts, products, a sum with the bias) sends real operands to a real result. Also here: the real values of
  the two float constants the second normalisation reads, and the decoding of the precondition "every float input
  is finite" into "every entry of every float input is a real number".
-/
import proofs.«104982_j16080357556242_1_alg».proof.Proof.Mid
import proofs.«104982_j16080357556242_1_alg».proof.Proof.LibMoments
import proofs.«104982_j16080357556242_1_alg».proof.Pre_finite_inputs
import proofs.«104982_j16080357556242_1_alg».proof.Proof.Gen.Pre_finite_inputs
import Idealize.ShloMosaic.Lib.ReduceAll
import Idealize.ShloMosaic.Lib.ValueIdx

noncomputable section

namespace Cert.Finite

open Cert.LibMoments Idealize.ShloMosaic

/-! ## The constants -/

/-- The pattern of `+0.0` denotes a real. -/
theorem zero_val : Ideal.ofBits .f32 0x00000000#32 = (0 : EReal) := by
  simp [Ideal.ofBits, Ideal.ieee]

theorem zero_real : IsReal (Ideal.ofBits .f32 0x00000000#32) := by
  rw [zero_val]; exact IsReal.zero

/-- The pattern of `1.0` denotes the real `1`. -/
theorem one_val : Ideal.ofBits .f32 0x3F800000#32 = ((1 : ℝ) : EReal) := by
  simp [Ideal.ofBits, Ideal.ieee, -EReal.coe_mul]; norm_num

theorem one_real : IsReal (Ideal.ofBits .f32 0x3F800000#32) := by
  rw [one_val]; exact IsReal.coe _

/-! ## Each operation keeps real entries real -/

section Ops
variable {s t : Shape}

/-- A broadcast reads its operand at some index. -/
theorem broadcast_real (dims : Fin s.rank → Fin t.rank) (h : s.BroadcastsInDim t dims) (x : FVec Ideal s .f32)
    (hx : ∀ i, IsReal (x i)) : ∀ j, IsReal (broadcastInDim t dims h x j) :=
  fun _ => hx _

/-- A gather reads its operand at some index. -/
theorem gather_real {si : Shape} {w : Nat} (d : GatherDims s si t) (x : FVec Ideal s .f32) (idx : IVec si w)
    (hx : ∀ i, IsReal (x i)) : ∀ j, IsReal (Host.gather d x idx j) :=
  fun _ => hx _

theorem mulf_real (x y : FVec Ideal s .f32) (hx : ∀ i, IsReal (x i)) (hy : ∀ i, IsReal (y i)) :
    ∀ i, IsReal (mulf x y i) :=
  fun i => (hx i).mul (hy i)

theorem addf_real (x y : FVec Ideal s .f32) (hx : ∀ i, IsReal (x i)) (hy : ∀ i, IsReal (y i)) :
    ∀ i, IsReal (addf x y i) :=
  fun i => (hx i).add (hy i)

/-- An accumulating scatter gives each operand element plus a finite sum of update elements. -/
theorem scatterAdd_real {si u : Shape} {w : Nat} (d : ScatterDims s si u) (x : FVec Ideal s .f32) (idx : IVec si w)
    (upd : FVec Ideal u .f32) (hx : ∀ i, IsReal (x i)) (hu : ∀ j, IsReal (upd j)) :
    ∀ i, IsReal (Host.scatterAdd d x idx upd i) := by
  intro i
  change IsReal (Ideal.hostScatterAdd d x idx upd i)
  unfold Ideal.hostScatterAdd
  exact (hx i).add (IsReal.sum _ _ fun j _ => hu j)

/-- The guarded reciprocal square root: where `d > 0` (then `d`, a real, is a positive real) it is `d ^ (−1/2)`, a real;
    elsewhere it is the other branch. -/
theorem select_ogt_rsqrt_real (d z z' : FVec Ideal s .f32) (hd : ∀ i, IsReal (d i)) (hz : ∀ i, z i = 0)
    (hz' : ∀ i, IsReal (z' i)) : ∀ i, IsReal (select (cmpf (F := Ideal) .ogt d z) (Host.rsqrt d) z' i) := by
  intro i
  show IsReal (Scalar.select (Ideal.cmp .ogt (d i) (z i)) (Ideal.rsqrt (d i)) (z' i))
  by_cases hc : Ideal.cmp .ogt (d i) (z i) = 1#1
  · rw [hc, ValueIdx.select_one]
    obtain ⟨r, hr⟩ := hd i
    rw [hr, hz i] at hc
    rw [hr]
    have hpos : (0 : ℝ) < r := by
      by_contra hn
      have : ¬ ((0 : EReal) < (r : EReal)) := by
        rw [← EReal.coe_zero, EReal.coe_lt_coe_iff]; exact hn
      simp [Ideal.cmp, this] at hc
    exact IsReal.rsqrt_pos hpos
  · rw [ValueIdx.eq_zero_of_ne_one hc, ValueIdx.select_zero]
    exact hz' i

end Ops

/-! ## The stage, one definition at a time -/

open Cert.ReferenceIdeal Cert.ReferenceIdeal.Mid

/-- Every degree is a real number: a zero plus a finite sum of ones. -/
theorem deg_real (ei : IVec S2x1600000 32) : ∀ i, IsReal (deg (F := Ideal) ei i) := by
  unfold deg
  exact scatterAdd_real _ _ _ _ (broadcast_real _ _ _ fun _ => zero_real) (broadcast_real _ _ _ fun _ => one_real)

/-- `dinv` is real: where the degree is a positive real its reciprocal square root is real; elsewhere it is `0`. -/
theorem dinv_real (ei : IVec S2x1600000 32) : ∀ i, IsReal (dinv (F := Ideal) ei i) := by
  unfold dinv
  exact select_ogt_rsqrt_real _ _ _ (deg_real ei) (fun _ => zero_val) (broadcast_real _ _ _ fun _ => zero_real)

/-- An edge's weight is real: a product of two entries of `dinv`. -/
theorem norm_real (ei : IVec S2x1600000 32) : ∀ i, IsReal (Mid.norm (F := Ideal) ei i) := by
  unfold Mid.norm
  exact mulf_real _ _ (gather_real _ _ _ (dinv_real ei)) (gather_real _ _ _ (dinv_real ei))

/-- An edge's message is real: an entry of `h` times the edge's weight. -/
theorem msgs_real (h : FVec Ideal S100000x64 .f32) (ei : IVec S2x1600000 32) (hh : ∀ i, IsReal (h i)) :
    ∀ i, IsReal (msgs (F := Ideal) h ei i) := by
  unfold msgs
  exact mulf_real _ _ (gather_real _ _ _ hh) (broadcast_real _ _ _ (broadcast_real _ _ _ (norm_real ei)))

/-- THE STAGE KEEPS REAL ENTRIES REAL: a zero plus a finite sum of real messages, plus a real bias. -/
theorem out_real (h : FVec Ideal Cert.ReferenceIdeal.S100000x64 .f32) (ei : IVec Cert.ReferenceIdeal.S2x1600000 32)
    (bias : FVec Ideal Cert.ReferenceIdeal.S64 .f32)
    (hh : ∀ i, IsReal (h i)) (hb : ∀ j, IsReal (bias j)) :
    ∀ i, IsReal (Cert.ReferenceIdeal.Mid.out (F := Ideal) h ei bias i) := by
  unfold Cert.ReferenceIdeal.Mid.out
  exact addf_real _ _
    (scatterAdd_real _ _ _ _ (broadcast_real _ _ _ fun _ => zero_real) (msgs_real h ei hh))
    (broadcast_real _ _ _ (broadcast_real _ _ _ hb))

/-! ## Two float constants of the second normalisation -/

/-- The pattern of `1e-5` denotes a positive real: `10995116 · 2⁻⁴⁰`. -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The pattern of `100000.0` denotes the real `100000`: `12800000 · 2⁻⁷`. -/
theorem n_val : Ideal.ofBits .f32 0x47C35000#32 = ((100000 : ℝ) : EReal) := by
  simp [Ideal.ofBits, Ideal.ieee, -EReal.coe_mul]; norm_num

/-! ## The precondition decoded -/

/-- The pattern `0x7F800000` denotes `+∞`. -/
theorem inf_val : Ideal.ofBits .f32 0x7F800000#32 = (⊤ : EReal) := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : IsReal x := by
  rw [inf_val] at h
  induction x using EReal.rec with
  | bot => simp [Ideal.cmp] at h
  | coe r => exact ⟨r, rfl⟩
  | top => simp [Ideal.cmp] at h

/-- `jnp.all(|x| < +inf)` answering 1 says every entry of `x` is real. -/
theorem all_real {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) .olt (Host.absf x) (broadcastInDim s ![] bc (constant Cert.Pre_finite_inputs.S_ .f32 0x7F800000#32)))
          (constantI Cert.Pre_finite_inputs.S_ 1 1#1) hr hu ValueIdx.ix0 = 1#1) :
    ∀ i, IsReal (x i) := by
  -- the scalar shape has one index
  haveI : Subsingleton Cert.Pre_finite_inputs.S_.Idx := ⟨fun a b => funext fun d => d.elim0⟩
  exact fun i => real_of_abs_lt_inf (x i) (Host.reduce_andi_all _ _ hr hu _ e i)

/-- THE PRECONDITION DECODED: every entry of every float input is a real number. -/
theorem pre_real (a0 : FVec Ideal Cert.Pre_finite_inputs.S100000x128 .f32) (a1 : IVec Cert.Pre_finite_inputs.S2x1600000 32)
    (a2 a3 : FVec Ideal Cert.Pre_finite_inputs.S128 .f32) (a4 : FVec Ideal Cert.Pre_finite_inputs.S128x64 .f32)
    (a5 a6 a7 : FVec Ideal Cert.Pre_finite_inputs.S64 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have e := congrFun h ValueIdx.ix0
  dsimp only [Cert.Pre_finite_inputs.fn, Cert.Pre_finite_inputs.fn_part1, andi] at e
  simp only [IntOp.andi_eq_one] at e
  obtain ⟨⟨⟨⟨⟨⟨e0, e2⟩, e3⟩, e4⟩, e5⟩, e6⟩, e7⟩ := e
  exact ⟨all_real a0 _ _ _ e0, all_real a2 _ _ _ e2, all_real a3 _ _ _ e3, all_real a4 _ _ _ e4,
    all_real a5 _ _ _ e5, all_real a6 _ _ _ e6, all_real a7 _ _ _ e7⟩

end Cert.Finite

end
-- ==== Proof.Bridge.lean ====
/-
  THE BRIDGE between the two forms of the variance. On a column of real numbers the mean of the squares less the squared
  mean is the mean of the squared deviations; so the program stated with either form is one function wherever every column
  it normalises is real: the features' columns by the precondition, and the rectified aggregated features' columns because
  normalising, the product with the weights and the graph-convolution stage keep real entries real.
-/
import proofs.«104982_j16080357556242_1_alg».proof.Proof.Spec
import proofs.«104982_j16080357556242_1_alg».proof.Proof.Finite

noncomputable section

namespace Cert.Bridge

open Cert.ReferenceIdeal Cert.ReferenceIdeal.Spec Cert.LibMoments Cert.Finite Idealize.ShloMosaic
open Idealize.ShloMosaic.ValueIdx
open scoped BigOperators

/-- The row count's word denotes the real `100000`. -/
theorem cnt_val : cnt = ((100000 : ℝ) : EReal) := n_val

/-- A column of real numbers is the coercion of a column of reals. -/
theorem exists_reals (f : Fin 100000 → EReal) (hf : ∀ i, IsReal (f i)) : ∃ a : Fin 100000 → ℝ, f = fun i => (a i : EReal) := by
  choose a ha using hf
  exact ⟨a, funext ha⟩

/-- ON A REAL COLUMN THE TWO FORMS OF THE VARIANCE AGREE. -/
theorem var_eq (f : Fin 100000 → EReal) (hf : ∀ i, IsReal (f i)) : varSq f = varDev f := by
  obtain ⟨a, rfl⟩ := exists_reals f hf
  unfold varSq varDev mean
  rw [cnt_val]
  exact var_forms a 100000 (by norm_num) (by simp)

/-- The mean of a real column is real. -/
theorem mean_real (f : Fin 100000 → EReal) (hf : ∀ i, IsReal (f i)) : IsReal (mean f) := by
  unfold mean
  rw [cnt_val]
  exact (IsReal.sum _ _ fun i _ => hf i).div_coe (by norm_num)

/-- The variance of a real column, as the mean of squared deviations, is a real that is not negative. -/
theorem varDev_nonneg (f : Fin 100000 → EReal) (hf : ∀ i, IsReal (f i)) : ∃ v : ℝ, 0 ≤ v ∧ varDev f = (v : EReal) := by
  obtain ⟨a, rfl⟩ := exists_reals f hf
  unfold varDev mean
  rw [cnt_val]
  simp only [Ideal.div_coe (show (100000 : ℝ) ≠ 0 by norm_num), ← EReal.coe_mul, ← coe_sum, ← EReal.coe_sub]
  exact ⟨_, mean_sq_dev_nonneg a _ 100000 (by norm_num), rfl⟩

/-- The normalising factor of a real column is real: its variance plus ε is a positive real. -/
theorem rsqrt_real (f : Fin 100000 → EReal) (hf : ∀ i, IsReal (f i)) : IsReal (Ideal.rsqrt (varDev f + eps)) := by
  obtain ⟨v, hv, e⟩ := varDev_nonneg f hf
  obtain ⟨ε, hε, e'⟩ := eps_pos
  rw [e, show eps = (ε : EReal) from e', ← EReal.coe_add]
  exact IsReal.rsqrt_pos (add_pos_of_nonneg_of_pos hv hε)

/-- A normalised entry is real when its entry, mean, normalising factor, scale and shift are. -/
theorem bn_real {x μ σ g b : EReal} (hx : IsReal x) (hμ : IsReal μ) (hr : IsReal (Ideal.rsqrt (σ + eps))) (hg : IsReal g)
    (hb : IsReal b) : IsReal (bn x μ σ g b) := by
  unfold bn
  exact (((hx.sub hμ).mul hr).mul hg).add hb

section First
variable (x : S100000x128.Idx → EReal) (g0 b0 : S128.Idx → EReal) (W : S128x64.Idx → EReal)

/-- The projected features do not depend on the form of the variance when the features are real. -/
theorem hOf_eq (hx : ∀ i, IsReal (x i)) : hOf varSq x g0 b0 W = hOf varDev x g0 b0 W := by
  funext i
  unfold hOf
  refine Finset.sum_congr rfl fun k _ => ?_
  rw [var_eq (colX x k) fun r => hx (ix2 r k)]

/-- The projected features are real when the features, scales, shifts and weights are. -/
theorem hOf_real (hx : ∀ i, IsReal (x i)) (hg0 : ∀ i, IsReal (g0 i)) (hb0 : ∀ i, IsReal (b0 i)) (hW : ∀ i, IsReal (W i)) :
    ∀ i, IsReal (hOf varDev x g0 b0 W i) := by
  intro i
  unfold hOf
  refine IsReal.sum _ _ fun k _ => ?_
  have hcol : ∀ r, IsReal (colX x k r) := fun r => hx (ix2 r k)
  exact (bn_real (hx _) (mean_real _ hcol) (rsqrt_real _ hcol) (hg0 _) (hb0 _)).mul (hW _)

end First

/-- The second normalisation does not depend on the form of the variance on an array of real entries: rectified, its
    columns are real. -/
theorem normOf_eq (a : S100000x64.Idx → EReal) (g1 b1 : S64.Idx → EReal) (ha : ∀ i, IsReal (a i)) :
    normOf varSq a g1 b1 = normOf varDev a g1 b1 := by
  funext i
  unfold normOf
  rw [var_eq (colR a _) fun r => (ha (ix2 r _)).max zero_real]

/-- THE PROGRAM DOES NOT DEPEND ON THE FORM OF THE VARIANCE when its float inputs up to the bias are real. -/
theorem final_eq (x : Cert.ReferenceIdeal.S100000x128.Idx → EReal) (ei : IVec Cert.ReferenceIdeal.S2x1600000 32)
    (g0 b0 : Cert.ReferenceIdeal.S128.Idx → EReal) (W : Cert.ReferenceIdeal.S128x64.Idx → EReal)
    (bias g1 b1 : Cert.ReferenceIdeal.S64.Idx → EReal)
    (hx : ∀ i, IsReal (x i)) (hg0 : ∀ i, IsReal (g0 i)) (hb0 : ∀ i, IsReal (b0 i)) (hW : ∀ i, IsReal (W i))
    (hbias : ∀ i, IsReal (bias i)) :
    final varSq x ei g0 b0 W bias g1 b1 = final varDev x ei g0 b0 W bias g1 b1 := by
  unfold final
  rw [hOf_eq x g0 b0 W hx]
  exact normOf_eq _ g1 b1 (out_real _ ei bias (hOf_real x g0 b0 W hx hg0 hb0 hW) hbias)

end Cert.Bridge

end
-- ==== Proof.lean ====
/-
  A graph network layer — normalise the node features column by column, project them, aggregate along the edges with the
  symmetric degree weights, rectify, normalise again — as a Pallas kernel program of four regions, against its jnp reference.

  The frames: each region of the kernel program is one segment of @main's run (the two column-totalling regions carry their
  running totals from grid point to grid point in their invariant), so every execution terminates, faults nowhere and leaves
  the arguments as launched — at the word level and at the ideal instance alike; the reference is a straight line of host
  operations. Nothing was rewritten by the ideal pass. At the ideal instance both programs compute ONE function of the
  arguments (`Spec.final`) up to the form of a column's variance — the kernel takes the mean of squares less the squared mean
  from its two totals, the reference the mean of squared deviations —, and the two forms agree on columns of real numbers:
  the inputs are finite by the precondition, and the aggregation keeps finite entries finite.
-/
import proofs.«104982_j16080357556242_1_alg».proof.Defs
import proofs.«104982_j16080357556242_1_alg».proof.Proof.Gen.Kernel
import proofs.«104982_j16080357556242_1_alg».proof.Proof.Gen.KernelIdeal
import proofs.«104982_j16080357556242_1_alg».proof.Proof.Gen.ReferenceIdeal
import proofs.«104982_j16080357556242_1_alg».proof.Proof.Gen.Pre_finite_inputs
import proofs.«104982_j16080357556242_1_alg».proof.Proof.K.Args
import proofs.«104982_j16080357556242_1_alg».proof.Proof.KI.Args
import proofs.«104982_j16080357556242_1_alg».proof.Proof.KI.KernelValue
import proofs.«104982_j16080357556242_1_alg».proof.Proof.RefValue
import proofs.«104982_j16080357556242_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Args.frame m ρ
theorem frame_ki : Cert.frame_KernelIdeal := fun m ρ _ => Cert.KernelIdeal.Args.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- At the ideal instance both programs end at the shared program of the arguments, the reference's form of the variance
    on both sides: the kernel's by the agreement of the two forms on finite columns. -/
theorem algebraic : Cert.algebraic_KernelIdeal_ReferenceIdeal := by
  intro m ρ m' ρ' hpre hagree
  refine ⟨fun c => Cert.ReferenceIdeal.Spec.final Cert.ReferenceIdeal.Spec.varDev (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨?_,
      (h c _ (Cert.KernelIdeal.Whole.mem_uc Cert.KernelIdeal.main_arg0 (by decide))).trans (Cert.KernelIdeal.Args.W10_main_arg0 m ρ c),
      (h c _ (Cert.KernelIdeal.Whole.mem_uc Cert.KernelIdeal.main_arg1 (by decide))).trans (Cert.KernelIdeal.Args.W10_main_arg1 m ρ c),
      (h c _ (Cert.KernelIdeal.Whole.mem_uc Cert.KernelIdeal.main_arg2 (by decide))).trans (Cert.KernelIdeal.Args.W10_main_arg2 m ρ c),
      (h c _ (Cert.KernelIdeal.Whole.mem_uc Cert.KernelIdeal.main_arg3 (by decide))).trans (Cert.KernelIdeal.Args.W10_main_arg3 m ρ c),
      (h c _ (Cert.KernelIdeal.Whole.mem_uc Cert.KernelIdeal.main_arg4 (by decide))).trans (Cert.KernelIdeal.Args.W10_main_arg4 m ρ c),
      (h c _ (Cert.KernelIdeal.Whole.mem_uc Cert.KernelIdeal.main_arg5 (by decide))).trans (Cert.KernelIdeal.Args.W10_main_arg5 m ρ c),
      (h c _ (Cert.KernelIdeal.Whole.mem_uc Cert.KernelIdeal.main_arg6 (by decide))).trans (Cert.KernelIdeal.Args.W10_main_arg6 m ρ c),
      (h c _ (Cert.KernelIdeal.Whole.mem_uc Cert.KernelIdeal.main_arg7 (by decide))).trans (Cert.KernelIdeal.Args.W10_main_arg7 m ρ c)⟩)
      (Cert.KernelIdeal.Whole.run m ρ)
    obtain ⟨h0, h2, h3, h4, h5, -, -⟩ := Cert.Finite.pre_real _ _ _ _ _ _ _ _ (hpre c)
    exact (h c _ (Cert.KernelIdeal.Whole.mem_uc Cert.KernelIdeal.main_v65 (by decide))).trans
      ((Cert.KernelIdeal.KernelValue.final_eq m ρ c).trans (Cert.Bridge.final_eq _ _ _ _ _ _ _ _ h0 h2 h3 h4 h5))
  · refine (θ_run Cert.ReferenceIdeal.defs _ _).mono (fun r h c => ⟨?_, (h c).2⟩)
      (Cert.ReferenceIdeal.ValueP.run (F := Ideal) m' ρ')
    obtain ⟨a0, a1, a2, a3, a4, a5, a6, a7⟩ := hagree c
    rw [(h c).1, Cert.ReferenceIdeal.ReadP.val_main_v97_eq, Cert.ReferenceIdeal.RefValue.final_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
